-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S128x3264 : Shape := ⟨2, ![128, 3264]⟩
abbrev S128 : Shape := ⟨1, ![128]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S128x3264 : S_.BroadcastsInDim S128x3264 (![] : Fin 0 → Fin S128x3264.rank)
  reducesTo_S128x3264_S_d0_1 : S128x3264.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S16x2048x64 .f32) (main_arg1 : FVec F S128x3264 .f32) (main_arg2 : FVec F S128 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S128x3264 .f32 := Host.absf main_arg1
  let main_cst_0 : FVec F S_ .f32 := constant S_ .f32 0x7F800000#32
  let main_v5 : FVec F S128x3264 .f32 := broadcastInDim S128x3264 ![] bcast_S_S128x3264 main_cst_0
  let main_v6 : IVec S128x3264 1 := cmpf .olt main_v4 main_v5
  let main_c_1 : IVec S_ 1 := constantI S_ 1 1#1
  let main_v7 : IVec S_ 1 := (fun x v => Host.reduce IntOp.andi x v reducesTo_S128x3264_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S16x2048x64 : Shape := ⟨3, ![16, 2048, 64]⟩
abbrev S128x3264 : Shape := ⟨2, ![128, 3264]⟩
abbrev S128 : Shape := ⟨1, ![128]⟩
abbrev S3264x128 : Shape := ⟨2, ![3264, 128]⟩
abbrev S_ : Shape := ⟨0, ![]⟩
abbrev S64x128 : Shape := ⟨2, ![64, 128]⟩
abbrev S3328x128 : Shape := ⟨2, ![3328, 128]⟩
abbrev S1x128 : Shape := ⟨2, ![1, 128]⟩
abbrev S16x2048x128 : Shape := ⟨3, ![16, 2048, 128]⟩
abbrev S1x2048x64 : Shape := ⟨3, ![1, 2048, 64]⟩
abbrev S1x2048x128 : Shape := ⟨3, ![1, 2048, 128]⟩
abbrev S2104x64 : Shape := ⟨2, ![2104, 64]⟩
abbrev S2048x64 : Shape := ⟨2, ![2048, 64]⟩
abbrev S2048x3328 : Shape := ⟨2, ![2048, 3328]⟩
abbrev S2048x128 : Shape := ⟨2, ![2048, 128]⟩

abbrev nBuf : Space → Nat
  | .hbm => 10
  | .vmem => 7
  | .smem => 0
  | _ => 0

abbrev bufTy : (tb : Table) → Fin (tcTables nBuf tb) → BufTy
  | .hbm, ⟨0, _⟩ => ⟨S16x2048x64, .f32⟩
  | .hbm, ⟨1, _⟩ => ⟨S128x3264, .f32⟩
  | .hbm, ⟨2, _⟩ => ⟨S128, .f32⟩
  | .hbm, ⟨3, _⟩ => ⟨S3264x128, .f32⟩
  | .hbm, ⟨4, _⟩ => ⟨S_, .f32⟩
  | .hbm, ⟨5, _⟩ => ⟨S64x128, .f32⟩
  | .hbm, ⟨6, _⟩ => ⟨S3328x128, .f32⟩
  | .hbm, ⟨7, _⟩ => ⟨S3328x128, .bf16⟩
  | .hbm, ⟨8, _⟩ => ⟨S1x128, .f32⟩
  | .hbm, ⟨9, _⟩ => ⟨S16x2048x128, .f32⟩
  | .local _ .vmem, ⟨0, _⟩ => ⟨S1x2048x64, .f32⟩
  | .local _ .vmem, ⟨1, _⟩ => ⟨S1x2048x64, .f32⟩
  | .local _ .vmem, ⟨2, _⟩ => ⟨S3328x128, .bf16⟩
  | .local _ .vmem, ⟨3, _⟩ => ⟨S1x128, .f32⟩
  | .local _ .vmem, ⟨4, _⟩ => ⟨S1x2048x128, .f32⟩
  | .local _ .vmem, ⟨5, _⟩ => ⟨S1x2048x128, .f32⟩
  | .local _ .vmem, ⟨6, _⟩ => ⟨S2104x64, .bf16⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3328x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x3264_S3264x128_1_0 : S128x3264.Transposes [1, 0] S3264x128
  bcast_S_S64x128 : S_.BroadcastsInDim S64x128 (![] : Fin 0 → Fin S64x128.rank)
  concatenates_S3264x128_S64x128_S3328x128_d0 : Shape.Concatenates [S3264x128, S64x128] S3328x128 0
  bitsLt_bf16_f32 : FTy.bits .bf16 < FTy.bits .f32
  shapeCasts_S128_S1x128 : S128.ShapeCasts S1x128
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S2104x64_S2104x64_0_0 : ∀ a, (![0, 0] : Fin 2 → Nat) a + S2104x64.size a ≤ S2104x64.size a
  h_S2104x64 : 0 < S2104x64.numel
  shapeCasts_S2104x64_S2104x64 : S2104x64.ShapeCasts S2104x64
  packedbf16_S2104x64_S2104x64_0_0 : (Rect.unit (s := S2104x64) ![0, 0] S2104x64.size inb_S2104x64_S2104x64_0_0).PackedRows (EltTy.packing .bf16)
  inb_S2104x64_S2048x64_40_0 : ∀ a, (![40, 0] : Fin 2 → Nat) a + S2048x64.size a ≤ S2104x64.size a
  h_S2048x64 : 0 < S2048x64.numel
  shapeCasts_S2048x64_S2048x64 : S2048x64.ShapeCasts S2048x64
  packedbf16_S2104x64_S2048x64_40_0 : (Rect.unit (s := S2104x64) ![40, 0] S2048x64.size inb_S2104x64_S2048x64_40_0).PackedRows (EltTy.packing .bf16)
  inb_S2104x64_S2048x64_50_0 : ∀ a, (![50, 0] : Fin 2 → Nat) a + S2048x64.size a ≤ S2104x64.size a
  inb_S2104x64_S2048x64_49_0 : ∀ a, (![49, 0] : Fin 2 → Nat) a + S2048x64.size a ≤ S2104x64.size a
  inb_S2104x64_S2048x64_48_0 : ∀ a, (![48, 0] : Fin 2 → Nat) a + S2048x64.size a ≤ S2104x64.size a
  inb_S2104x64_S2048x64_47_0 : ∀ a, (![47, 0] : Fin 2 → Nat) a + S2048x64.size a ≤ S2104x64.size a
  inb_S2104x64_S2048x64_46_0 : ∀ a, (![46, 0] : Fin 2 → Nat) a + S2048x64.size a ≤ S2104x64.size a
  inb_S2104x64_S2048x64_45_0 : ∀ a, (![45, 0] : Fin 2 → Nat) a + S2048x64.size a ≤ S2104x64.size a
  inb_S2104x64_S2048x64_44_0 : ∀ a, (![44, 0] : Fin 2 → Nat) a + S2048x64.size a ≤ S2104x64.size a
  inb_S2104x64_S2048x64_43_0 : ∀ a, (![43, 0] : Fin 2 → Nat) a + S2048x64.size a ≤ S2104x64.size a
  inb_S2104x64_S2048x64_42_0 : ∀ a, (![42, 0] : Fin 2 → Nat) a + S2048x64.size a ≤ S2104x64.size a
  inb_S2104x64_S2048x64_41_0 : ∀ a, (![41, 0] : Fin 2 → Nat) a + S2048x64.size a ≤ S2104x64.size a
  inb_S2104x64_S2048x64_39_0 : ∀ a, (![39, 0] : Fin 2 → Nat) a + S2048x64.size a ≤ S2104x64.size a
  inb_S2104x64_S2048x64_38_0 : ∀ a, (![38, 0] : Fin 2 → Nat) a + S2048x64.size a ≤ S2104x64.size a
  inb_S2104x64_S2048x64_37_0 : ∀ a, (![37, 0] : Fin 2 → Nat) a + S2048x64.size a ≤ S2104x64.size a
  inb_S2104x64_S2048x64_36_0 : ∀ a, (![36, 0] : Fin 2 → Nat) a + S2048x64.size a ≤ S2104x64.size a
  inb_S2104x64_S2048x64_35_0 : ∀ a, (![35, 0] : Fin 2 → Nat) a + S2048x64.size a ≤ S2104x64.size a
  inb_S2104x64_S2048x64_34_0 : ∀ a, (![34, 0] : Fin 2 → Nat) a + S2048x64.size a ≤ S2104x64.size a
  inb_S2104x64_S2048x64_33_0 : ∀ a, (![33, 0] : Fin 2 → Nat) a + S2048x64.size a ≤ S2104x64.size a
  inb_S2104x64_S2048x64_32_0 : ∀ a, (![32, 0] : Fin 2 → Nat) a + S2048x64.size a ≤ S2104x64.size a
  inb_S2104x64_S2048x64_31_0 : ∀ a, (![31, 0] : Fin 2 → Nat) a + S2048x64.size a ≤ S2104x64.size a
  inb_S2104x64_S2048x64_30_0 : ∀ a, (![30, 0] : Fin 2 → Nat) a + S2048x64.size a ≤ S2104x64.size a
  inb_S2104x64_S2048x64_29_0 : ∀ a, (![29, 0] : Fin 2 → Nat) a + S2048x64.size a ≤ S2104x64.size a
  inb_S2104x64_S2048x64_28_0 : ∀ a, (![28, 0] : Fin 2 → Nat) a + S2048x64.size a ≤ S2104x64.size a
  inb_S2104x64_S2048x64_27_0 : ∀ a, (![27, 0] : Fin 2 → Nat) a + S2048x64.size a ≤ S2104x64.size a
  inb_S2104x64_S2048x64_26_0 : ∀ a, (![26, 0] : Fin 2 → Nat) a + S2048x64.size a ≤ S2104x64.size a
  inb_S2104x64_S2048x64_25_0 : ∀ a, (![25, 0] : Fin 2 → Nat) a + S2048x64.size a ≤ S2104x64.size a
  inb_S2104x64_S2048x64_24_0 : ∀ a, (![24, 0] : Fin 2 → Nat) a + S2048x64.size a ≤ S2104x64.size a
  inb_S2104x64_S2048x64_23_0 : ∀ a, (![23, 0] : Fin 2 → Nat) a + S2048x64.size a ≤ S2104x64.size a
  inb_S2104x64_S2048x64_22_0 : ∀ a, (![22, 0] : Fin 2 → Nat) a + S2048x64.size a ≤ S2104x64.size a
  inb_S2104x64_S2048x64_21_0 : ∀ a, (![21, 0] : Fin 2 → Nat) a + S2048x64.size a ≤ S2104x64.size a
  inb_S2104x64_S2048x64_20_0 : ∀ a, (![20, 0] : Fin 2 → Nat) a + S2048x64.size a ≤ S2104x64.size a
  inb_S2104x64_S2048x64_19_0 : ∀ a, (![19, 0] : Fin 2 → Nat) a + S2048x64.size a ≤ S2104x64.size a
  inb_S2104x64_S2048x64_18_0 : ∀ a, (![18, 0] : Fin 2 → Nat) a + S2048x64.size a ≤ S2104x64.size a
  inb_S2104x64_S2048x64_17_0 : ∀ a, (![17, 0] : Fin 2 → Nat) a + S2048x64.size a ≤ S2104x64.size a
  inb_S2104x64_S2048x64_16_0 : ∀ a, (![16, 0] : Fin 2 → Nat) a + S2048x64.size a ≤ S2104x64.size a
  inb_S2104x64_S2048x64_15_0 : ∀ a, (![15, 0] : Fin 2 → Nat) a + S2048x64.size a ≤ S2104x64.size a
  inb_S2104x64_S2048x64_14_0 : ∀ a, (![14, 0] : Fin 2 → Nat) a + S2048x64.size a ≤ S2104x64.size a
  inb_S2104x64_S2048x64_13_0 : ∀ a, (![13, 0] : Fin 2 → Nat) a + S2048x64.size a ≤ S2104x64.size a
  inb_S2104x64_S2048x64_12_0 : ∀ a, (![12, 0] : Fin 2 → Nat) a + S2048x64.size a ≤ S2104x64.size a
  inb_S2104x64_S2048x64_11_0 : ∀ a, (![11, 0] : Fin 2 → Nat) a + S2048x64.size a ≤ S2104x64.size a
  inb_S2104x64_S2048x64_10_0 : ∀ a, (![10, 0] : Fin 2 → Nat) a + S2048x64.size a ≤ S2104x64.size a
  inb_S2104x64_S2048x64_9_0 : ∀ a, (![9, 0] : Fin 2 → Nat) a + S2048x64.size a ≤ S2104x64.size a
  inb_S2104x64_S2048x64_8_0 : ∀ a, (![8, 0] : Fin 2 → Nat) a + S2048x64.size a ≤ S2104x64.size a
  inb_S2104x64_S2048x64_7_0 : ∀ a, (![7, 0] : Fin 2 → Nat) a + S2048x64.size a ≤ S2104x64.size a
  inb_S2104x64_S2048x64_6_0 : ∀ a, (![6, 0] : Fin 2 → Nat) a + S2048x64.size a ≤ S2104x64.size a
  inb_S2104x64_S2048x64_5_0 : ∀ a, (![5, 0] : Fin 2 → Nat) a + S2048x64.size a ≤ S2104x64.size a
  inb_S2104x64_S2048x64_4_0 : ∀ a, (![4, 0] : Fin 2 → Nat) a + S2048x64.size a ≤ S2104x64.size a
  inb_S2104x64_S2048x64_3_0 : ∀ a, (![3, 0] : Fin 2 → Nat) a + S2048x64.size a ≤ S2104x64.size a
  inb_S2104x64_S2048x64_2_0 : ∀ a, (![2, 0] : Fin 2 → Nat) a + S2048x64.size a ≤ S2104x64.size a
  inb_S2104x64_S2048x64_1_0 : ∀ a, (![1, 0] : Fin 2 → Nat) a + S2048x64.size a ≤ S2104x64.size a
  inb_S2104x64_S2048x64_0_0 : ∀ a, (![0, 0] : Fin 2 → Nat) a + S2048x64.size a ≤ S2104x64.size a
  concatenates_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x64_S2048x3328_d1 : Shape.Concatenates (S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: S2048x64 :: []) S2048x3328 1
  inb_S3328x128_S3328x128_0_0 : ∀ a, (![0, 0] : Fin 2 → Nat) a + S3328x128.size a ≤ S3328x128.size a
  h_S3328x128 : 0 < S3328x128.numel
  shapeCasts_S3328x128_S3328x128 : S3328x128.ShapeCasts S3328x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S2048x3328_S3328x128_S2048x128_1_0_0_1_n_n_wf : DotDims.WF S2048x3328 S3328x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x2048x64.size a
  hwx0_0 : ∀ i : grid0.Coords, EltTy.bits .f32 = 32 ∨ (Rect.block (s := S16x2048x64) S1x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3328x128.size a ≤ S3328x128.size a
  hwx0_1 : ∀ i : grid0.Coords, EltTy.bits .bf16 = 32 ∨ (Rect.block (s := S3328x128) S3328x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S16x2048x128.size a
  hwx0_3 : ∀ i : grid0.Coords, EltTy.bits .f32 = 32 ∨ (Rect.block (s := S16x2048x128) S1x2048x128.size (cc0_transform_3 i) (hinb0_3 i)).WholeWords (EltTy.packing .f32)

variable [Facts₀]

def dot_S2048x3328_S3328x128_S2048x128_1_0_0_1_n_n : DotDims S2048x3328 S3328x128 S2048x128 where
  lhsContracting := [1]
  rhsContracting := [0]
  lhsNonContracting := [0]
  rhsNonContracting := [1]
  lhsBatch := []
  rhsBatch := []
  wf := dot_S2048x3328_S3328x128_S2048x128_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3328x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S128x3264 : Shape := ⟨2, ![128, 3264]⟩
abbrev S128 : Shape := ⟨1, ![128]⟩
abbrev S16x2038x64 : Shape := ⟨3, ![16, 2038, 64]⟩
abbrev S_ : Shape := ⟨0, ![]⟩
abbrev S16x2039x64 : Shape := ⟨3, ![16, 2039, 64]⟩
abbrev S16x2040x64 : Shape := ⟨3, ![16, 2040, 64]⟩
abbrev S16x2041x64 : Shape := ⟨3, ![16, 2041, 64]⟩
abbrev S16x2042x64 : Shape := ⟨3, ![16, 2042, 64]⟩
abbrev S16x2043x64 : Shape := ⟨3, ![16, 2043, 64]⟩
abbrev S16x2044x64 : Shape := ⟨3, ![16, 2044, 64]⟩
abbrev S16x2045x64 : Shape := ⟨3, ![16, 2045, 64]⟩
abbrev S16x2046x64 : Shape := ⟨3, ![16, 2046, 64]⟩
abbrev S16x2047x64 : Shape := ⟨3, ![16, 2047, 64]⟩
abbrev S16x2037x64 : Shape := ⟨3, ![16, 2037, 64]⟩
abbrev S16x2036x64 : Shape := ⟨3, ![16, 2036, 64]⟩
abbrev S16x2035x64 : Shape := ⟨3, ![16, 2035, 64]⟩
abbrev S16x2034x64 : Shape := ⟨3, ![16, 2034, 64]⟩
abbrev S16x2033x64 : Shape := ⟨3, ![16, 2033, 64]⟩
abbrev S16x2032x64 : Shape := ⟨3, ![16, 2032, 64]⟩
abbrev S16x2031x64 : Shape := ⟨3, ![16, 2031, 64]⟩
abbrev S16x2030x64 : Shape := ⟨3, ![16, 2030, 64]⟩
abbrev S16x2029x64 : Shape := ⟨3, ![16, 2029, 64]⟩
abbrev S16x2028x64 : Shape := ⟨3, ![16, 2028, 64]⟩
abbrev S16x2027x64 : Shape := ⟨3, ![16, 2027, 64]⟩
abbrev S16x2026x64 : Shape := ⟨3, ![16, 2026, 64]⟩
abbrev S16x2025x64 : Shape := ⟨3, ![16, 2025, 64]⟩
abbrev S16x2024x64 : Shape := ⟨3, ![16, 2024, 64]⟩
abbrev S16x2023x64 : Shape := ⟨3, ![16, 2023, 64]⟩
abbrev S16x2022x64 : Shape := ⟨3, ![16, 2022, 64]⟩
abbrev S16x2021x64 : Shape := ⟨3, ![16, 2021, 64]⟩
abbrev S16x2020x64 : Shape := ⟨3, ![16, 2020, 64]⟩
abbrev S16x2019x64 : Shape := ⟨3, ![16, 2019, 64]⟩
abbrev S16x2018x64 : Shape := ⟨3, ![16, 2018, 64]⟩
abbrev S16x2017x64 : Shape := ⟨3, ![16, 2017, 64]⟩
abbrev S16x2016x64 : Shape := ⟨3, ![16, 2016, 64]⟩
abbrev S16x2015x64 : Shape := ⟨3, ![16, 2015, 64]⟩
abbrev S16x2014x64 : Shape := ⟨3, ![16, 2014, 64]⟩
abbrev S16x2013x64 : Shape := ⟨3, ![16, 2013, 64]⟩
abbrev S16x2012x64 : Shape := ⟨3, ![16, 2012, 64]⟩
abbrev S16x2011x64 : Shape := ⟨3, ![16, 2011, 64]⟩
abbrev S16x2010x64 : Shape := ⟨3, ![16, 2010, 64]⟩
abbrev S16x2009x64 : Shape := ⟨3, ![16, 2009, 64]⟩
abbrev S16x2008x64 : Shape := ⟨3, ![16, 2008, 64]⟩
abbrev S16x2048x1024 : Shape := ⟨3, ![16, 2048, 1024]⟩
abbrev S16x2048x192 : Shape := ⟨3, ![16, 2048, 192]⟩
abbrev S16x2048x3264 : Shape := ⟨3, ![16, 2048, 3264]⟩
abbrev S16x2048x128 : Shape := ⟨3, ![16, 2048, 128]⟩
abbrev S1x1x128 : Shape := ⟨3, ![1, 1, 128]⟩

abbrev nBuf : Space → Nat
  | .hbm => 212
  | .vmem => 0
  | .smem => 0
  | _ => 0

abbrev hbmTy0_0 (i : Nat) : BufTy := match i % 128 with
  | 0 => ⟨S16x2048x64, .f32⟩
  | 1 => ⟨S128x3264, .f32⟩
  | 2 => ⟨S128, .f32⟩
  | 3 => ⟨S16x2038x64, .f32⟩
  | 4 => ⟨S_, .i32⟩
  | 5 => ⟨S_, .f32⟩
  | 6 => ⟨S16x2048x64, .f32⟩
  | 7 => ⟨S16x2039x64, .f32⟩
  | 8 => ⟨S_, .i32⟩
  | 9 => ⟨S_, .f32⟩
  | 10 => ⟨S16x2048x64, .f32⟩
  | 11 => ⟨S16x2040x64, .f32⟩
  | 12 => ⟨S_, .i32⟩
  | 13 => ⟨S_, .f32⟩
  | 14 => ⟨S16x2048x64, .f32⟩
  | 15 => ⟨S16x2041x64, .f32⟩
  | 16 => ⟨S_, .i32⟩
  | 17 => ⟨S_, .f32⟩
  | 18 => ⟨S16x2048x64, .f32⟩
  | 19 => ⟨S16x2042x64, .f32⟩
  | 20 => ⟨S_, .i32⟩
  | 21 => ⟨S_, .f32⟩
  | 22 => ⟨S16x2048x64, .f32⟩
  | 23 => ⟨S16x2043x64, .f32⟩
  | 24 => ⟨S_, .i32⟩
  | 25 => ⟨S_, .f32⟩
  | 26 => ⟨S16x2048x64, .f32⟩
  | 27 => ⟨S16x2044x64, .f32⟩
  | 28 => ⟨S_, .i32⟩
  | 29 => ⟨S_, .f32⟩
  | 30 => ⟨S16x2048x64, .f32⟩
  | 31 => ⟨S16x2045x64, .f32⟩
  | 32 => ⟨S_, .i32⟩
  | 33 => ⟨S_, .f32⟩
  | 34 => ⟨S16x2048x64, .f32⟩
  | 35 => ⟨S16x2046x64, .f32⟩
  | 36 => ⟨S_, .i32⟩
  | 37 => ⟨S_, .f32⟩
  | 38 => ⟨S16x2048x64, .f32⟩
  | 39 => ⟨S16x2047x64, .f32⟩
  | 40 => ⟨S_, .i32⟩
  | 41 => ⟨S_, .f32⟩
  | 42 => ⟨S16x2048x64, .f32⟩
  | 43 => ⟨S16x2047x64, .f32⟩
  | 44 => ⟨S_, .i32⟩
  | 45 => ⟨S_, .f32⟩
  | 46 => ⟨S16x2048x64, .f32⟩
  | 47 => ⟨S16x2046x64, .f32⟩
  | 48 => ⟨S_, .i32⟩
  | 49 => ⟨S_, .f32⟩
  | 50 => ⟨S16x2048x64, .f32⟩
  | 51 => ⟨S16x2045x64, .f32⟩
  | 52 => ⟨S_, .i32⟩
  | 53 => ⟨S_, .f32⟩
  | 54 => ⟨S16x2048x64, .f32⟩
  | 55 => ⟨S16x2044x64, .f32⟩
  | 56 => ⟨S_, .i32⟩
  | 57 => ⟨S_, .f32⟩
  | 58 => ⟨S16x2048x64, .f32⟩
  | 59 => ⟨S16x2043x64, .f32⟩
  | 60 => ⟨S_, .i32⟩
  | 61 => ⟨S_, .f32⟩
  | 62 => ⟨S16x2048x64, .f32⟩
  | 63 => ⟨S16x2042x64, .f32⟩
  | 64 => ⟨S_, .i32⟩
  | 65 => ⟨S_, .f32⟩
  | 66 => ⟨S16x2048x64, .f32⟩
  | 67 => ⟨S16x2041x64, .f32⟩
  | 68 => ⟨S_, .i32⟩
  | 69 => ⟨S_, .f32⟩
  | 70 => ⟨S16x2048x64, .f32⟩
  | 71 => ⟨S16x2040x64, .f32⟩
  | 72 => ⟨S_, .i32⟩
  | 73 => ⟨S_, .f32⟩
  | 74 => ⟨S16x2048x64, .f32⟩
  | 75 => ⟨S16x2039x64, .f32⟩
  | 76 => ⟨S_, .i32⟩
  | 77 => ⟨S_, .f32⟩
  | 78 => ⟨S16x2048x64, .f32⟩
  | 79 => ⟨S16x2038x64, .f32⟩
  | 80 => ⟨S_, .i32⟩
  | 81 => ⟨S_, .f32⟩
  | 82 => ⟨S16x2048x64, .f32⟩
  | 83 => ⟨S16x2037x64, .f32⟩
  | 84 => ⟨S_, .i32⟩
  | 85 => ⟨S_, .f32⟩
  | 86 => ⟨S16x2048x64, .f32⟩
  | 87 => ⟨S16x2036x64, .f32⟩
  | 88 => ⟨S_, .i32⟩
  | 89 => ⟨S_, .f32⟩
  | 90 => ⟨S16x2048x64, .f32⟩
  | 91 => ⟨S16x2035x64, .f32⟩
  | 92 => ⟨S_, .i32⟩
  | 93 => ⟨S_, .f32⟩
  | 94 => ⟨S16x2048x64, .f32⟩
  | 95 => ⟨S16x2034x64, .f32⟩
  | 96 => ⟨S_, .i32⟩
  | 97 => ⟨S_, .f32⟩
  | 98 => ⟨S16x2048x64, .f32⟩
  | 99 => ⟨S16x2033x64, .f32⟩
  | 100 => ⟨S_, .i32⟩
  | 101 => ⟨S_, .f32⟩
  | 102 => ⟨S16x2048x64, .f32⟩
  | 103 => ⟨S16x2032x64, .f32⟩
  | 104 => ⟨S_, .i32⟩
  | 105 => ⟨S_, .f32⟩
  | 106 => ⟨S16x2048x64, .f32⟩
  | 107 => ⟨S16x2031x64, .f32⟩
  | 108 => ⟨S_, .i32⟩
  | 109 => ⟨S_, .f32⟩
  | 110 => ⟨S16x2048x64, .f32⟩
  | 111 => ⟨S16x2030x64, .f32⟩
  | 112 => ⟨S_, .i32⟩
  | 113 => ⟨S_, .f32⟩
  | 114 => ⟨S16x2048x64, .f32⟩
  | 115 => ⟨S16x2029x64, .f32⟩
  | 116 => ⟨S_, .i32⟩
  | 117 => ⟨S_, .f32⟩
  | 118 => ⟨S16x2048x64, .f32⟩
  | 119 => ⟨S16x2028x64, .f32⟩
  | 120 => ⟨S_, .i32⟩
  | 121 => ⟨S_, .f32⟩
  | 122 => ⟨S16x2048x64, .f32⟩
  | 123 => ⟨S16x2027x64, .f32⟩
  | 124 => ⟨S_, .i32⟩
  | 125 => ⟨S_, .f32⟩
  | 126 => ⟨S16x2048x64, .f32⟩
  | 127 => ⟨S16x2026x64, .f32⟩
  | _ => ⟨S16x2048x64, .f32⟩

abbrev hbmTy0_1 (i : Nat) : BufTy := match i % 128 with
  | 0 => ⟨S_, .i32⟩
  | 1 => ⟨S_, .f32⟩
  | 2 => ⟨S16x2048x64, .f32⟩
  | 3 => ⟨S16x2025x64, .f32⟩
  | 4 => ⟨S_, .i32⟩
  | 5 => ⟨S_, .f32⟩
  | 6 => ⟨S16x2048x64, .f32⟩
  | 7 => ⟨S16x2024x64, .f32⟩
  | 8 => ⟨S_, .i32⟩
  | 9 => ⟨S_, .f32⟩
  | 10 => ⟨S16x2048x64, .f32⟩
  | 11 => ⟨S16x2023x64, .f32⟩
  | 12 => ⟨S_, .i32⟩
  | 13 => ⟨S_, .f32⟩
  | 14 => ⟨S16x2048x64, .f32⟩
  | 15 => ⟨S16x2022x64, .f32⟩
  | 16 => ⟨S_, .i32⟩
  | 17 => ⟨S_, .f32⟩
  | 18 => ⟨S16x2048x64, .f32⟩
  | 19 => ⟨S16x2021x64, .f32⟩
  | 20 => ⟨S_, .i32⟩
  | 21 => ⟨S_, .f32⟩
  | 22 => ⟨S16x2048x64, .f32⟩
  | 23 => ⟨S16x2020x64, .f32⟩
  | 24 => ⟨S_, .i32⟩
  | 25 => ⟨S_, .f32⟩
  | 26 => ⟨S16x2048x64, .f32⟩
  | 27 => ⟨S16x2019x64, .f32⟩
  | 28 => ⟨S_, .i32⟩
  | 29 => ⟨S_, .f32⟩
  | 30 => ⟨S16x2048x64, .f32⟩
  | 31 => ⟨S16x2018x64, .f32⟩
  | 32 => ⟨S_, .i32⟩
  | 33 => ⟨S_, .f32⟩
  | 34 => ⟨S16x2048x64, .f32⟩
  | 35 => ⟨S16x2017x64, .f32⟩
  | 36 => ⟨S_, .i32⟩
  | 37 => ⟨S_, .f32⟩
  | 38 => ⟨S16x2048x64, .f32⟩
  | 39 => ⟨S16x2016x64, .f32⟩
  | 40 => ⟨S_, .i32⟩
  | 41 => ⟨S_, .f32⟩
  | 42 => ⟨S16x2048x64, .f32⟩
  | 43 => ⟨S16x2015x64, .f32⟩
  | 44 => ⟨S_, .i32⟩
  | 45 => ⟨S_, .f32⟩
  | 46 => ⟨S16x2048x64, .f32⟩
  | 47 => ⟨S16x2014x64, .f32⟩
  | 48 => ⟨S_, .i32⟩
  | 49 => ⟨S_, .f32⟩
  | 50 => ⟨S16x2048x64, .f32⟩
  | 51 => ⟨S16x2013x64, .f32⟩
  | 52 => ⟨S_, .i32⟩
  | 53 => ⟨S_, .f32⟩
  | 54 => ⟨S16x2048x64, .f32⟩
  | 55 => ⟨S16x2012x64, .f32⟩
  | 56 => ⟨S_, .i32⟩
  | 57 => ⟨S_, .f32⟩
  | 58 => ⟨S16x2048x64, .f32⟩
  | 59 => ⟨S16x2011x64, .f32⟩
  | 60 => ⟨S_, .i32⟩
  | 61 => ⟨S_, .f32⟩
  | 62 => ⟨S16x2048x64, .f32⟩
  | 63 => ⟨S16x2010x64, .f32⟩
  | 64 => ⟨S_, .i32⟩
  | 65 => ⟨S_, .f32⟩
  | 66 => ⟨S16x2048x64, .f32⟩
  | 67 => ⟨S16x2009x64, .f32⟩
  | 68 => ⟨S_, .i32⟩
  | 69 => ⟨S_, .f32⟩
  | 70 => ⟨S16x2048x64, .f32⟩
  | 71 => ⟨S16x2008x64, .f32⟩
  | 72 => ⟨S_, .i32⟩
  | 73 => ⟨S_, .f32⟩
  | 74 => ⟨S16x2048x64, .f32⟩
  | 75 => ⟨S16x2048x1024, .f32⟩
  | 76 => ⟨S16x2048x1024, .f32⟩
  | 77 => ⟨S16x2048x1024, .f32⟩
  | 78 => ⟨S16x2048x192, .f32⟩
  | 79 => ⟨S16x2048x3264, .f32⟩
  | 80 => ⟨S16x2048x128, .f32⟩
  | 81 => ⟨S1x1x128, .f32⟩
  | 82 => ⟨S16x2048x128, .f32⟩
  | 83 => ⟨S16x2048x128, .f32⟩
  | _ => ⟨S16x2048x64, .f32⟩

abbrev hbmTy (i : Nat) : BufTy := match i / 128 with
  | 0 => hbmTy0_0 i
  | 1 => hbmTy0_1 i
  | _ => ⟨S16x2048x64, .f32⟩

abbrev bufTy : (tb : Table) → Fin (tcTables nBuf tb) → BufTy
  | .hbm, ⟨i, _⟩ => hbmTy i
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_call3_v0 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_call4_v0 : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_call5_v0 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_call6_v0 : Ref sig .tc := ⟨.hbm, 29, rfl⟩
abbrev main_v13 : Ref sig .tc := ⟨.hbm, 30, rfl⟩
abbrev main_v14 : Ref sig .tc := ⟨.hbm, 31, rfl⟩
abbrev main_c_6 : Ref sig .tc := ⟨.hbm, 32, rfl⟩
abbrev main_call7_v0 : Ref sig .tc := ⟨.hbm, 33, rfl⟩
abbrev main_v15 : Ref sig .tc := ⟨.hbm, 34, rfl⟩
abbrev main_v16 : Ref sig .tc := ⟨.hbm, 35, rfl⟩
abbrev main_c_7 : Ref sig .tc := ⟨.hbm, 36, rfl⟩
abbrev main_call8_v0 : Ref sig .tc := ⟨.hbm, 37, rfl⟩
abbrev main_v17 : Ref sig .tc := ⟨.hbm, 38, rfl⟩
abbrev main_v18 : Ref sig .tc := ⟨.hbm, 39, rfl⟩
abbrev main_c_8 : Ref sig .tc := ⟨.hbm, 40, rfl⟩
abbrev main_call9_v0 : Ref sig .tc := ⟨.hbm, 41, rfl⟩
abbrev main_v19 : Ref sig .tc := ⟨.hbm, 42, rfl⟩
abbrev main_v20 : Ref sig .tc := ⟨.hbm, 43, rfl⟩
abbrev main_c_9 : Ref sig .tc := ⟨.hbm, 44, rfl⟩
abbrev main_call10_v0 : Ref sig .tc := ⟨.hbm, 45, rfl⟩
abbrev main_v21 : Ref sig .tc := ⟨.hbm, 46, rfl⟩
abbrev main_v22 : Ref sig .tc := ⟨.hbm, 47, rfl⟩
abbrev main_c_10 : Ref sig .tc := ⟨.hbm, 48, rfl⟩
abbrev main_call11_v0 : Ref sig .tc := ⟨.hbm, 49, rfl⟩
abbrev main_v23 : Ref sig .tc := ⟨.hbm, 50, rfl⟩
abbrev main_v24 : Ref sig .tc := ⟨.hbm, 51, rfl⟩
abbrev main_c_11 : Ref sig .tc := ⟨.hbm, 52, rfl⟩
abbrev main_call12_v0 : Ref sig .tc := ⟨.hbm, 53, rfl⟩
abbrev main_v25 : Ref sig .tc := ⟨.hbm, 54, rfl⟩
abbrev main_v26 : Ref sig .tc := ⟨.hbm, 55, rfl⟩
abbrev main_c_12 : Ref sig .tc := ⟨.hbm, 56, rfl⟩
abbrev main_call13_v0 : Ref sig .tc := ⟨.hbm, 57, rfl⟩
abbrev main_v27 : Ref sig .tc := ⟨.hbm, 58, rfl⟩
abbrev main_v28 : Ref sig .tc := ⟨.hbm, 59, rfl⟩
abbrev main_c_13 : Ref sig .tc := ⟨.hbm, 60, rfl⟩
abbrev main_call14_v0 : Ref sig .tc := ⟨.hbm, 61, rfl⟩
abbrev main_v29 : Ref sig .tc := ⟨.hbm, 62, rfl⟩
abbrev main_v30 : Ref sig .tc := ⟨.hbm, 63, rfl⟩
abbrev main_c_14 : Ref sig .tc := ⟨.hbm, 64, rfl⟩
abbrev main_call15_v0 : Ref sig .tc := ⟨.hbm, 65, rfl⟩
abbrev main_v31 : Ref sig .tc := ⟨.hbm, 66, rfl⟩
abbrev main_v32 : Ref sig .tc := ⟨.hbm, 67, rfl⟩
abbrev main_c_15 : Ref sig .tc := ⟨.hbm, 68, rfl⟩
abbrev main_call16_v0 : Ref sig .tc := ⟨.hbm, 69, rfl⟩
abbrev main_v33 : Ref sig .tc := ⟨.hbm, 70, rfl⟩
abbrev main_v34 : Ref sig .tc := ⟨.hbm, 71, rfl⟩
abbrev main_c_16 : Ref sig .tc := ⟨.hbm, 72, rfl⟩
abbrev main_call17_v0 : Ref sig .tc := ⟨.hbm, 73, rfl⟩
abbrev main_v35 : Ref sig .tc := ⟨.hbm, 74, rfl⟩
abbrev main_v36 : Ref sig .tc := ⟨.hbm, 75, rfl⟩
abbrev main_c_17 : Ref sig .tc := ⟨.hbm, 76, rfl⟩
abbrev main_call18_v0 : Ref sig .tc := ⟨.hbm, 77, rfl⟩
abbrev main_v37 : Ref sig .tc := ⟨.hbm, 78, rfl⟩
abbrev main_v38 : Ref sig .tc := ⟨.hbm, 79, rfl⟩
abbrev main_c_18 : Ref sig .tc := ⟨.hbm, 80, rfl⟩
abbrev main_call19_v0 : Ref sig .tc := ⟨.hbm, 81, rfl⟩
abbrev main_v39 : Ref sig .tc := ⟨.hbm, 82, rfl⟩
abbrev main_v40 : Ref sig .tc := ⟨.hbm, 83, rfl⟩
abbrev main_c_19 : Ref sig .tc := ⟨.hbm, 84, rfl⟩
abbrev main_call20_v0 : Ref sig .tc := ⟨.hbm, 85, rfl⟩
abbrev main_v41 : Ref sig .tc := ⟨.hbm, 86, rfl⟩
abbrev main_v42 : Ref sig .tc := ⟨.hbm, 87, rfl⟩
abbrev main_c_20 : Ref sig .tc := ⟨.hbm, 88, rfl⟩
abbrev main_call21_v0 : Ref sig .tc := ⟨.hbm, 89, rfl⟩
abbrev main_v43 : Ref sig .tc := ⟨.hbm, 90, rfl⟩
abbrev main_v44 : Ref sig .tc := ⟨.hbm, 91, rfl⟩
abbrev main_c_21 : Ref sig .tc := ⟨.hbm, 92, rfl⟩
abbrev main_call22_v0 : Ref sig .tc := ⟨.hbm, 93, rfl⟩
abbrev main_v45 : Ref sig .tc := ⟨.hbm, 94, rfl⟩
abbrev main_v46 : Ref sig .tc := ⟨.hbm, 95, rfl⟩
abbrev main_c_22 : Ref sig .tc := ⟨.hbm, 96, rfl⟩
abbrev main_call23_v0 : Ref sig .tc := ⟨.hbm, 97, rfl⟩
abbrev main_v47 : Ref sig .tc := ⟨.hbm, 98, rfl⟩
abbrev main_v48 : Ref sig .tc := ⟨.hbm, 99, rfl⟩
abbrev main_c_23 : Ref sig .tc := ⟨.hbm, 100, rfl⟩
abbrev main_call24_v0 : Ref sig .tc := ⟨.hbm, 101, rfl⟩
abbrev main_v49 : Ref sig .tc := ⟨.hbm, 102, rfl⟩
abbrev main_v50 : Ref sig .tc := ⟨.hbm, 103, rfl⟩
abbrev main_c_24 : Ref sig .tc := ⟨.hbm, 104, rfl⟩
abbrev main_call25_v0 : Ref sig .tc := ⟨.hbm, 105, rfl⟩
abbrev main_v51 : Ref sig .tc := ⟨.hbm, 106, rfl⟩
abbrev main_v52 : Ref sig .tc := ⟨.hbm, 107, rfl⟩
abbrev main_c_25 : Ref sig .tc := ⟨.hbm, 108, rfl⟩
abbrev main_call26_v0 : Ref sig .tc := ⟨.hbm, 109, rfl⟩
abbrev main_v53 : Ref sig .tc := ⟨.hbm, 110, rfl⟩
abbrev main_v54 : Ref sig .tc := ⟨.hbm, 111, rfl⟩
abbrev main_c_26 : Ref sig .tc := ⟨.hbm, 112, rfl⟩
abbrev main_call27_v0 : Ref sig .tc := ⟨.hbm, 113, rfl⟩
abbrev main_v55 : Ref sig .tc := ⟨.hbm, 114, rfl⟩
abbrev main_v56 : Ref sig .tc := ⟨.hbm, 115, rfl⟩
abbrev main_c_27 : Ref sig .tc := ⟨.hbm, 116, rfl⟩
abbrev main_call28_v0 : Ref sig .tc := ⟨.hbm, 117, rfl⟩
abbrev main_v57 : Ref sig .tc := ⟨.hbm, 118, rfl⟩
abbrev main_v58 : Ref sig .tc := ⟨.hbm, 119, rfl⟩
abbrev main_c_28 : Ref sig .tc := ⟨.hbm, 120, rfl⟩
abbrev main_call29_v0 : Ref sig .tc := ⟨.hbm, 121, rfl⟩
abbrev main_v59 : Ref sig .tc := ⟨.hbm, 122, rfl⟩
abbrev main_v60 : Ref sig .tc := ⟨.hbm, 123, rfl⟩
abbrev main_c_29 : Ref sig .tc := ⟨.hbm, 124, rfl⟩
abbrev main_call30_v0 : Ref sig .tc := ⟨.hbm, 125, rfl⟩
abbrev main_v61 : Ref sig .tc := ⟨.hbm, 126, rfl⟩
abbrev main_v62 : Ref sig .tc := ⟨.hbm, 127, rfl⟩
abbrev main_c_30 : Ref sig .tc := ⟨.hbm, 128, rfl⟩
abbrev main_call31_v0 : Ref sig .tc := ⟨.hbm, 129, rfl⟩
abbrev main_v63 : Ref sig .tc := ⟨.hbm, 130, rfl⟩
abbrev main_v64 : Ref sig .tc := ⟨.hbm, 131, rfl⟩
abbrev main_c_31 : Ref sig .tc := ⟨.hbm, 132, rfl⟩
abbrev main_call32_v0 : Ref sig .tc := ⟨.hbm, 133, rfl⟩
abbrev main_v65 : Ref sig .tc := ⟨.hbm, 134, rfl⟩
abbrev main_v66 : Ref sig .tc := ⟨.hbm, 135, rfl⟩
abbrev main_c_32 : Ref sig .tc := ⟨.hbm, 136, rfl⟩
abbrev main_call33_v0 : Ref sig .tc := ⟨.hbm, 137, rfl⟩
abbrev main_v67 : Ref sig .tc := ⟨.hbm, 138, rfl⟩
abbrev main_v68 : Ref sig .tc := ⟨.hbm, 139, rfl⟩
abbrev main_c_33 : Ref sig .tc := ⟨.hbm, 140, rfl⟩
abbrev main_call34_v0 : Ref sig .tc := ⟨.hbm, 141, rfl⟩
abbrev main_v69 : Ref sig .tc := ⟨.hbm, 142, rfl⟩
abbrev main_v70 : Ref sig .tc := ⟨.hbm, 143, rfl⟩
abbrev main_c_34 : Ref sig .tc := ⟨.hbm, 144, rfl⟩
abbrev main_call35_v0 : Ref sig .tc := ⟨.hbm, 145, rfl⟩
abbrev main_v71 : Ref sig .tc := ⟨.hbm, 146, rfl⟩
abbrev main_v72 : Ref sig .tc := ⟨.hbm, 147, rfl⟩
abbrev main_c_35 : Ref sig .tc := ⟨.hbm, 148, rfl⟩
abbrev main_call36_v0 : Ref sig .tc := ⟨.hbm, 149, rfl⟩
abbrev main_v73 : Ref sig .tc := ⟨.hbm, 150, rfl⟩
abbrev main_v74 : Ref sig .tc := ⟨.hbm, 151, rfl⟩
abbrev main_c_36 : Ref sig .tc := ⟨.hbm, 152, rfl⟩
abbrev main_call37_v0 : Ref sig .tc := ⟨.hbm, 153, rfl⟩
abbrev main_v75 : Ref sig .tc := ⟨.hbm, 154, rfl⟩
abbrev main_v76 : Ref sig .tc := ⟨.hbm, 155, rfl⟩
abbrev main_c_37 : Ref sig .tc := ⟨.hbm, 156, rfl⟩
abbrev main_call38_v0 : Ref sig .tc := ⟨.hbm, 157, rfl⟩
abbrev main_v77 : Ref sig .tc := ⟨.hbm, 158, rfl⟩
abbrev main_v78 : Ref sig .tc := ⟨.hbm, 159, rfl⟩
abbrev main_c_38 : Ref sig .tc := ⟨.hbm, 160, rfl⟩
abbrev main_call39_v0 : Ref sig .tc := ⟨.hbm, 161, rfl⟩
abbrev main_v79 : Ref sig .tc := ⟨.hbm, 162, rfl⟩
abbrev main_v80 : Ref sig .tc := ⟨.hbm, 163, rfl⟩
abbrev main_c_39 : Ref sig .tc := ⟨.hbm, 164, rfl⟩
abbrev main_call40_v0 : Ref sig .tc := ⟨.hbm, 165, rfl⟩
abbrev main_v81 : Ref sig .tc := ⟨.hbm, 166, rfl⟩
abbrev main_v82 : Ref sig .tc := ⟨.hbm, 167, rfl⟩
abbrev main_c_40 : Ref sig .tc := ⟨.hbm, 168, rfl⟩
abbrev main_call41_v0 : Ref sig .tc := ⟨.hbm, 169, rfl⟩
abbrev main_v83 : Ref sig .tc := ⟨.hbm, 170, rfl⟩
abbrev main_v84 : Ref sig .tc := ⟨.hbm, 171, rfl⟩
abbrev main_c_41 : Ref sig .tc := ⟨.hbm, 172, rfl⟩
abbrev main_call42_v0 : Ref sig .tc := ⟨.hbm, 173, rfl⟩
abbrev main_v85 : Ref sig .tc := ⟨.hbm, 174, rfl⟩
abbrev main_v86 : Ref sig .tc := ⟨.hbm, 175, rfl⟩
abbrev main_c_42 : Ref sig .tc := ⟨.hbm, 176, rfl⟩
abbrev main_call43_v0 : Ref sig .tc := ⟨.hbm, 177, rfl⟩
abbrev main_v87 : Ref sig .tc := ⟨.hbm, 178, rfl⟩
abbrev main_v88 : Ref sig .tc := ⟨.hbm, 179, rfl⟩
abbrev main_c_43 : Ref sig .tc := ⟨.hbm, 180, rfl⟩
abbrev main_call44_v0 : Ref sig .tc := ⟨.hbm, 181, rfl⟩
abbrev main_v89 : Ref sig .tc := ⟨.hbm, 182, rfl⟩
abbrev main_v90 : Ref sig .tc := ⟨.hbm, 183, rfl⟩
abbrev main_c_44 : Ref sig .tc := ⟨.hbm, 184, rfl⟩
abbrev main_call45_v0 : Ref sig .tc := ⟨.hbm, 185, rfl⟩
abbrev main_v91 : Ref sig .tc := ⟨.hbm, 186, rfl⟩
abbrev main_v92 : Ref sig .tc := ⟨.hbm, 187, rfl⟩
abbrev main_c_45 : Ref sig .tc := ⟨.hbm, 188, rfl⟩
abbrev main_call46_v0 : Ref sig .tc := ⟨.hbm, 189, rfl⟩
abbrev main_v93 : Ref sig .tc := ⟨.hbm, 190, rfl⟩
abbrev main_v94 : Ref sig .tc := ⟨.hbm, 191, rfl⟩
abbrev main_c_46 : Ref sig .tc := ⟨.hbm, 192, rfl⟩
abbrev main_call47_v0 : Ref sig .tc := ⟨.hbm, 193, rfl⟩
abbrev main_v95 : Ref sig .tc := ⟨.hbm, 194, rfl⟩
abbrev main_v96 : Ref sig .tc := ⟨.hbm, 195, rfl⟩
abbrev main_c_47 : Ref sig .tc := ⟨.hbm, 196, rfl⟩
abbrev main_call48_v0 : Ref sig .tc := ⟨.hbm, 197, rfl⟩
abbrev main_v97 : Ref sig .tc := ⟨.hbm, 198, rfl⟩
abbrev main_v98 : Ref sig .tc := ⟨.hbm, 199, rfl⟩
abbrev main_c_48 : Ref sig .tc := ⟨.hbm, 200, rfl⟩
abbrev main_call49_v0 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩

abbrev nD : Nat := 1
abbrev τ : Topo := Topo.v7x

variable {F : FTy → Type} [FloatOps F]

class Facts₀ : Prop where
  slices_S16x2048x64_S16x2038x64_0_10_0 : S16x2048x64.Slices ![0, 10, 0] S16x2038x64
  pads_S16x2038x64_S16x2048x64_000_0100_000 : S16x2038x64.Pads (![0, 0, 0] : Fin 3 → Nat) ![0, 10, 0] ![0, 0, 0] S16x2048x64
  h_S_ : 0 < S_.numel
  slices_S16x2048x64_S16x2039x64_0_9_0 : S16x2048x64.Slices ![0, 9, 0] S16x2039x64
  pads_S16x2039x64_S16x2048x64_000_090_000 : S16x2039x64.Pads (![0, 0, 0] : Fin 3 → Nat) ![0, 9, 0] ![0, 0, 0] S16x2048x64
  slices_S16x2048x64_S16x2040x64_0_8_0 : S16x2048x64.Slices ![0, 8, 0] S16x2040x64
  pads_S16x2040x64_S16x2048x64_000_080_000 : S16x2040x64.Pads (![0, 0, 0] : Fin 3 → Nat) ![0, 8, 0] ![0, 0, 0] S16x2048x64
  slices_S16x2048x64_S16x2041x64_0_7_0 : S16x2048x64.Slices ![0, 7, 0] S16x2041x64
  pads_S16x2041x64_S16x2048x64_000_070_000 : S16x2041x64.Pads (![0, 0, 0] : Fin 3 → Nat) ![0, 7, 0] ![0, 0, 0] S16x2048x64
  slices_S16x2048x64_S16x2042x64_0_6_0 : S16x2048x64.Slices ![0, 6, 0] S16x2042x64
  pads_S16x2042x64_S16x2048x64_000_060_000 : S16x2042x64.Pads (![0, 0, 0] : Fin 3 → Nat) ![0, 6, 0] ![0, 0, 0] S16x2048x64
  slices_S16x2048x64_S16x2043x64_0_5_0 : S16x2048x64.Slices ![0, 5, 0] S16x2043x64
  pads_S16x2043x64_S16x2048x64_000_050_000 : S16x2043x64.Pads (![0, 0, 0] : Fin 3 → Nat) ![0, 5, 0] ![0, 0, 0] S16x2048x64
  slices_S16x2048x64_S16x2044x64_0_4_0 : S16x2048x64.Slices ![0, 4, 0] S16x2044x64
  pads_S16x2044x64_S16x2048x64_000_040_000 : S16x2044x64.Pads (![0, 0, 0] : Fin 3 → Nat) ![0, 4, 0] ![0, 0, 0] S16x2048x64
  slices_S16x2048x64_S16x2045x64_0_3_0 : S16x2048x64.Slices ![0, 3, 0] S16x2045x64
  pads_S16x2045x64_S16x2048x64_000_030_000 : S16x2045x64.Pads (![0, 0, 0] : Fin 3 → Nat) ![0, 3, 0] ![0, 0, 0] S16x2048x64
  slices_S16x2048x64_S16x2046x64_0_2_0 : S16x2048x64.Slices ![0, 2, 0] S16x2046x64
  pads_S16x2046x64_S16x2048x64_000_020_000 : S16x2046x64.Pads (![0, 0, 0] : Fin 3 → Nat) ![0, 2, 0] ![0, 0, 0] S16x2048x64
  slices_S16x2048x64_S16x2047x64_0_1_0 : S16x2048x64.Slices ![0, 1, 0] S16x2047x64
  pads_S16x2047x64_S16x2048x64_000_010_000 : S16x2047x64.Pads (![0, 0, 0] : Fin 3 → Nat) ![0, 1, 0] ![0, 0, 0] S16x2048x64
  slices_S16x2048x64_S16x2047x64_0_0_0 : S16x2048x64.Slices ![0, 0, 0] S16x2047x64
  pads_S16x2047x64_S16x2048x64_000_100_000 : S16x2047x64.Pads (![0, 1, 0] : Fin 3 → Nat) ![0, 0, 0] ![0, 0, 0] S16x2048x64
  slices_S16x2048x64_S16x2046x64_0_0_0 : S16x2048x64.Slices ![0, 0, 0] S16x2046x64
  pads_S16x2046x64_S16x2048x64_000_200_000 : S16x2046x64.Pads (![0, 2, 0] : Fin 3 → Nat) ![0, 0, 0] ![0, 0, 0] S16x2048x64
  slices_S16x2048x64_S16x2045x64_0_0_0 : S16x2048x64.Slices ![0, 0, 0] S16x2045x64
  pads_S16x2045x64_S16x2048x64_000_300_000 : S16x2045x64.Pads (![0, 3, 0] : Fin 3 → Nat) ![0, 0, 0] ![0, 0, 0] S16x2048x64
  slices_S16x2048x64_S16x2044x64_0_0_0 : S16x2048x64.Slices ![0, 0, 0] S16x2044x64
  pads_S16x2044x64_S16x2048x64_000_400_000 : S16x2044x64.Pads (![0, 4, 0] : Fin 3 → Nat) ![0, 0, 0] ![0, 0, 0] S16x2048x64
  slices_S16x2048x64_S16x2043x64_0_0_0 : S16x2048x64.Slices ![0, 0, 0] S16x2043x64
  pads_S16x2043x64_S16x2048x64_000_500_000 : S16x2043x64.Pads (![0, 5, 0] : Fin 3 → Nat) ![0, 0, 0] ![0, 0, 0] S16x2048x64
  slices_S16x2048x64_S16x2042x64_0_0_0 : S16x2048x64.Slices ![0, 0, 0] S16x2042x64
  pads_S16x2042x64_S16x2048x64_000_600_000 : S16x2042x64.Pads (![0, 6, 0] : Fin 3 → Nat) ![0, 0, 0] ![0, 0, 0] S16x2048x64
  slices_S16x2048x64_S16x2041x64_0_0_0 : S16x2048x64.Slices ![0, 0, 0] S16x2041x64
  pads_S16x2041x64_S16x2048x64_000_700_000 : S16x2041x64.Pads (![0, 7, 0] : Fin 3 → Nat) ![0, 0, 0] ![0, 0, 0] S16x2048x64
  slices_S16x2048x64_S16x2040x64_0_0_0 : S16x2048x64.Slices ![0, 0, 0] S16x2040x64
  pads_S16x2040x64_S16x2048x64_000_800_000 : S16x2040x64.Pads (![0, 8, 0] : Fin 3 → Nat) ![0, 0, 0] ![0, 0, 0] S16x2048x64
  slices_S16x2048x64_S16x2039x64_0_0_0 : S16x2048x64.Slices ![0, 0, 0] S16x2039x64
  pads_S16x2039x64_S16x2048x64_000_900_000 : S16x2039x64.Pads (![0, 9, 0] : Fin 3 → Nat) ![0, 0, 0] ![0, 0, 0] S16x2048x64
  slices_S16x2048x64_S16x2038x64_0_0_0 : S16x2048x64.Slices ![0, 0, 0] S16x2038x64
  pads_S16x2038x64_S16x2048x64_000_1000_000 : S16x2038x64.Pads (![0, 10, 0] : Fin 3 → Nat) ![0, 0, 0] ![0, 0, 0] S16x2048x64
  slices_S16x2048x64_S16x2037x64_0_0_0 : S16x2048x64.Slices ![0, 0, 0] S16x2037x64
  pads_S16x2037x64_S16x2048x64_000_1100_000 : S16x2037x64.Pads (![0, 11, 0] : Fin 3 → Nat) ![0, 0, 0] ![0, 0, 0] S16x2048x64
  slices_S16x2048x64_S16x2036x64_0_0_0 : S16x2048x64.Slices ![0, 0, 0] S16x2036x64
  pads_S16x2036x64_S16x2048x64_000_1200_000 : S16x2036x64.Pads (![0, 12, 0] : Fin 3 → Nat) ![0, 0, 0] ![0, 0, 0] S16x2048x64
  slices_S16x2048x64_S16x2035x64_0_0_0 : S16x2048x64.Slices ![0, 0, 0] S16x2035x64
  pads_S16x2035x64_S16x2048x64_000_1300_000 : S16x2035x64.Pads (![0, 13, 0] : Fin 3 → Nat) ![0, 0, 0] ![0, 0, 0] S16x2048x64
  slices_S16x2048x64_S16x2034x64_0_0_0 : S16x2048x64.Slices ![0, 0, 0] S16x2034x64
  pads_S16x2034x64_S16x2048x64_000_1400_000 : S16x2034x64.Pads (![0, 14, 0] : Fin 3 → Nat) ![0, 0, 0] ![0, 0, 0] S16x2048x64
  slices_S16x2048x64_S16x2033x64_0_0_0 : S16x2048x64.Slices ![0, 0, 0] S16x2033x64
  pads_S16x2033x64_S16x2048x64_000_1500_000 : S16x2033x64.Pads (![0, 15, 0] : Fin 3 → Nat) ![0, 0, 0] ![0, 0, 0] S16x2048x64
  slices_S16x2048x64_S16x2032x64_0_0_0 : S16x2048x64.Slices ![0, 0, 0] S16x2032x64
  pads_S16x2032x64_S16x2048x64_000_1600_000 : S16x2032x64.Pads (![0, 16, 0] : Fin 3 → Nat) ![0, 0, 0] ![0, 0, 0] S16x2048x64
  slices_S16x2048x64_S16x2031x64_0_0_0 : S16x2048x64.Slices ![0, 0, 0] S16x2031x64
  pads_S16x2031x64_S16x2048x64_000_1700_000 : S16x2031x64.Pads (![0, 17, 0] : Fin 3 → Nat) ![0, 0, 0] ![0, 0, 0] S16x2048x64
  slices_S16x2048x64_S16x2030x64_0_0_0 : S16x2048x64.Slices ![0, 0, 0] S16x2030x64
  pads_S16x2030x64_S16x2048x64_000_1800_000 : S16x2030x64.Pads (![0, 18, 0] : Fin 3 → Nat) ![0, 0, 0] ![0, 0, 0] S16x2048x64
  slices_S16x2048x64_S16x2029x64_0_0_0 : S16x2048x64.Slices ![0, 0, 0] S16x2029x64
  pads_S16x2029x64_S16x2048x64_000_1900_000 : S16x2029x64.Pads (![0, 19, 0] : Fin 3 → Nat) ![0, 0, 0] ![0, 0, 0] S16x2048x64
  slices_S16x2048x64_S16x2028x64_0_0_0 : S16x2048x64.Slices ![0, 0, 0] S16x2028x64
  pads_S16x2028x64_S16x2048x64_000_2000_000 : S16x2028x64.Pads (![0, 20, 0] : Fin 3 → Nat) ![0, 0, 0] ![0, 0, 0] S16x2048x64
  slices_S16x2048x64_S16x2027x64_0_0_0 : S16x2048x64.Slices ![0, 0, 0] S16x2027x64
  pads_S16x2027x64_S16x2048x64_000_2100_000 : S16x2027x64.Pads (![0, 21, 0] : Fin 3 → Nat) ![0, 0, 0] ![0, 0, 0] S16x2048x64
  slices_S16x2048x64_S16x2026x64_0_0_0 : S16x2048x64.Slices ![0, 0, 0] S16x2026x64
  pads_S16x2026x64_S16x2048x64_000_2200_000 : S16x2026x64.Pads (![0, 22, 0] : Fin 3 → Nat) ![0, 0, 0] ![0, 0, 0] S16x2048x64
  slices_S16x2048x64_S16x2025x64_0_0_0 : S16x2048x64.Slices ![0, 0, 0] S16x2025x64
  pads_S16x2025x64_S16x2048x64_000_2300_000 : S16x2025x64.Pads (![0, 23, 0] : Fin 3 → Nat) ![0, 0, 0] ![0, 0, 0] S16x2048x64
  slices_S16x2048x64_S16x2024x64_0_0_0 : S16x2048x64.Slices ![0, 0, 0] S16x2024x64
  pads_S16x2024x64_S16x2048x64_000_2400_000 : S16x2024x64.Pads (![0, 24, 0] : Fin 3 → Nat) ![0, 0, 0] ![0, 0, 0] S16x2048x64
  slices_S16x2048x64_S16x2023x64_0_0_0 : S16x2048x64.Slices ![0, 0, 0] S16x2023x64
  pads_S16x2023x64_S16x2048x64_000_2500_000 : S16x2023x64.Pads (![0, 25, 0] : Fin 3 → Nat) ![0, 0, 0] ![0, 0, 0] S16x2048x64
  slices_S16x2048x64_S16x2022x64_0_0_0 : S16x2048x64.Slices ![0, 0, 0] S16x2022x64
  pads_S16x2022x64_S16x2048x64_000_2600_000 : S16x2022x64.Pads (![0, 26, 0] : Fin 3 → Nat) ![0, 0, 0] ![0, 0, 0] S16x2048x64
  slices_S16x2048x64_S16x2021x64_0_0_0 : S16x2048x64.Slices ![0, 0, 0] S16x2021x64
  pads_S16x2021x64_S16x2048x64_000_2700_000 : S16x2021x64.Pads (![0, 27, 0] : Fin 3 → Nat) ![0, 0, 0] ![0, 0, 0] S16x2048x64
  slices_S16x2048x64_S16x2020x64_0_0_0 : S16x2048x64.Slices ![0, 0, 0] S16x2020x64
  pads_S16x2020x64_S16x2048x64_000_2800_000 : S16x2020x64.Pads (![0, 28, 0] : Fin 3 → Nat) ![0, 0, 0] ![0, 0, 0] S16x2048x64
  slices_S16x2048x64_S16x2019x64_0_0_0 : S16x2048x64.Slices ![0, 0, 0] S16x2019x64
  pads_S16x2019x64_S16x2048x64_000_2900_000 : S16x2019x64.Pads (![0, 29, 0] : Fin 3 → Nat) ![0, 0, 0] ![0, 0, 0] S16x2048x64
  slices_S16x2048x64_S16x2018x64_0_0_0 : S16x2048x64.Slices ![0, 0, 0] S16x2018x64
  pads_S16x2018x64_S16x2048x64_000_3000_000 : S16x2018x64.Pads (![0, 30, 0] : Fin 3 → Nat) ![0, 0, 0] ![0, 0, 0] S16x2048x64
  slices_S16x2048x64_S16x2017x64_0_0_0 : S16x2048x64.Slices ![0, 0, 0] S16x2017x64
  pads_S16x2017x64_S16x2048x64_000_3100_000 : S16x2017x64.Pads (![0, 31, 0] : Fin 3 → Nat) ![0, 0, 0] ![0, 0, 0] S16x2048x64
  slices_S16x2048x64_S16x2016x64_0_0_0 : S16x2048x64.Slices ![0, 0, 0] S16x2016x64
  pads_S16x2016x64_S16x2048x64_000_3200_000 : S16x2016x64.Pads (![0, 32, 0] : Fin 3 → Nat) ![0, 0, 0] ![0, 0, 0] S16x2048x64
  slices_S16x2048x64_S16x2015x64_0_0_0 : S16x2048x64.Slices ![0, 0, 0] S16x2015x64
  pads_S16x2015x64_S16x2048x64_000_3300_000 : S16x2015x64.Pads (![0, 33, 0] : Fin 3 → Nat) ![0, 0, 0] ![0, 0, 0] S16x2048x64
  slices_S16x2048x64_S16x2014x64_0_0_0 : S16x2048x64.Slices ![0, 0, 0] S16x2014x64
  pads_S16x2014x64_S16x2048x64_000_3400_000 : S16x2014x64.Pads (![0, 34, 0] : Fin 3 → Nat) ![0, 0, 0] ![0, 0, 0] S16x2048x64
  slices_S16x2048x64_S16x2013x64_0_0_0 : S16x2048x64.Slices ![0, 0, 0] S16x2013x64
  pads_S16x2013x64_S16x2048x64_000_3500_000 : S16x2013x64.Pads (![0, 35, 0] : Fin 3 → Nat) ![0, 0, 0] ![0, 0, 0] S16x2048x64
  slices_S16x2048x64_S16x2012x64_0_0_0 : S16x2048x64.Slices ![0, 0, 0] S16x2012x64
  pads_S16x2012x64_S16x2048x64_000_3600_000 : S16x2012x64.Pads (![0, 36, 0] : Fin 3 → Nat) ![0, 0, 0] ![0, 0, 0] S16x2048x64
  slices_S16x2048x64_S16x2011x64_0_0_0 : S16x2048x64.Slices ![0, 0, 0] S16x2011x64
  pads_S16x2011x64_S16x2048x64_000_3700_000 : S16x2011x64.Pads (![0, 37, 0] : Fin 3 → Nat) ![0, 0, 0] ![0, 0, 0] S16x2048x64
  slices_S16x2048x64_S16x2010x64_0_0_0 : S16x2048x64.Slices ![0, 0, 0] S16x2010x64
  pads_S16x2010x64_S16x2048x64_000_3800_000 : S16x2010x64.Pads (![0, 38, 0] : Fin 3 → Nat) ![0, 0, 0] ![0, 0, 0] S16x2048x64
  slices_S16x2048x64_S16x2009x64_0_0_0 : S16x2048x64.Slices ![0, 0, 0] S16x2009x64
  pads_S16x2009x64_S16x2048x64_000_3900_000 : S16x2009x64.Pads (![0, 39, 0] : Fin 3 → Nat) ![0, 0, 0] ![0, 0, 0] S16x2048x64
  slices_S16x2048x64_S16x2008x64_0_0_0 : S16x2048x64.Slices ![0, 0, 0] S16x2008x64
  pads_S16x2008x64_S16x2048x64_000_4000_000 : S16x2008x64.Pads (![0, 40, 0] : Fin 3 → Nat) ![0, 0, 0] ![0, 0, 0] S16x2048x64
  concatenates_S16x2048x64_S16x2048x64_S16x2048x64_S16x2048x64_S16x2048x64_S16x2048x64_S16x2048x64_S16x2048x64_S16x2048x64_S16x2048x64_S16x2048x64_S16x2048x64_S16x2048x64_S16x2048x64_S16x2048x64_S16x2048x64_S16x2048x1024_d2 : Shape.Concatenates [S16x2048x64, S16x2048x64, S16x2048x64, S16x2048x64, S16x2048x64, S16x2048x64, S16x2048x64, S16x2048x64, S16x2048x64, S16x2048x64, S16x2048x64, S16x2048x64, S16x2048x64, S16x2048x64, S16x2048x64, S16x2048x64] S16x2048x1024 2
  concatenates_S16x2048x64_S16x2048x64_S16x2048x64_S16x2048x192_d2 : Shape.Concatenates [S16x2048x64, S16x2048x64, S16x2048x64] S16x2048x192 2
  concatenates_S16x2048x1024_S16x2048x1024_S16x2048x1024_S16x2048x192_S16x2048x3264_d2 : Shape.Concatenates [S16x2048x1024, S16x2048x1024, S16x2048x1024, S16x2048x192] S16x2048x3264 2
  bcast_S128_S1x1x128_2 : S128.BroadcastsInDim S1x1x128 (![2] : Fin 1 → Fin S1x1x128.rank)
  bcast_S1x1x128_S16x2048x128_0_1_2 : S1x1x128.BroadcastsInDim S16x2048x128 (![0, 1, 2] : Fin 3 → Fin S16x2048x128.rank)
  dot_S16x2048x3264_S128x3264_S16x2048x128_2_1_01_0_n_n_wf : DotDims.WF S16x2048x3264 S128x3264 S16x2048x128 [2] [1] [0, 1] [0] [] []

variable [Facts₀]

def dot_S16x2048x3264_S128x3264_S16x2048x128_2_1_01_0_n_n : DotDims S16x2048x3264 S128x3264 S16x2048x128 where
  lhsContracting := [2]
  rhsContracting := [1]
  lhsNonContracting := [0, 1]
  rhsNonContracting := [0]
  lhsBatch := []
  rhsBatch := []
  wf := dot_S16x2048x3264_S128x3264_S16x2048x128_2_1_01_0_n_n_wf

class Facts : Prop extends Facts₀ where

variable [Facts]
-- ==== Proof.Scratch.lean ====
/-
  What the kernel's scratch buffer holds when the 52 lag slices are loaded from it.

  The buffer has 2104 rows of 64 channels. The body fills all of it with zeros and then stores the signal block
  (2048 rows) into rows 40 … 2087. So row `r` of the buffer is row `r - 40` of the signal block for `40 ≤ r < 2088`, and
  zero on the 40 rows before and the 16 rows after. A load of 2048 rows starting at row `off` reads row `off + t` of the
  buffer at its row `t`: this is the time shift that realises one lag.
-/
import proofs.«154770_j36764920054343_2_alg».proof.Proof.Gen.KernelIdeal.Frame
import Idealize.ShloMosaic.Lib.Pipeline.Value
import Idealize.ShloMosaic.Lib.ValueIdx

noncomputable section

namespace Cert.KernelIdeal.Lag

open Cert.KernelIdeal Cert.KernelIdeal.Gen Idealize.ShloMosaic Idealize.ShloMosaic.TcCoe Idealize.SL.Sem
open Idealize.ShloMosaic.ValueIdx

variable {F : FTy → Type} [FloatOps F]

/-- A window of 2048 rows starting at row `off` lies inside the 2104-row buffer when `off + 2048 ≤ 2104`. -/
theorem inbRows (off : ℕ) (h : off + 2048 ≤ 2104) :
    ∀ a, (![off, 0] : Fin 2 → Nat) a + S2048x64.size a ≤ S2104x64.size a := fun a =>
  match a with
  | ⟨0, _⟩ => h
  | ⟨1, _⟩ => Nat.le_refl 64

/-- The whole buffer is a window of itself. -/
theorem inbAll : ∀ a, (![0, 0] : Fin 2 → Nat) a + S2104x64.size a ≤ S2104x64.size a := fun a =>
  match a with
  | ⟨0, _⟩ => Nat.le_refl 2104
  | ⟨1, _⟩ => Nat.le_refl 64

/-- The zero offsets of a rank-two window. -/
theorem hz2 : (![0, 0] : Fin 2 → Nat) = fun _ => 0 := funext fun a => by fin_cases a <;> rfl

/-- Rows 40 … 2087 of the buffer, where the signal block is stored. -/
abbrev rowsMid : Rect S2104x64 := Rect.unit (s := S2104x64) ![40, 0] S2048x64.size (inbRows 40 (by decide))

/-- Every row of the buffer. -/
abbrev rowsAll : Rect S2104x64 := Rect.unit (s := S2104x64) ![0, 0] S2104x64.size inbAll

/-- The zero fill, as the second (earlier) of the two stores. -/
abbrev fillPiece : View.Piece (Elt F) S2104x64 .bf16 := ⟨rowsAll, k0_pay2⟩

/-- The buffer's two stores, the last first: the block `P` into rows 40 … 2087, over the zero fill of every row. -/
abbrev stores (P : Vec F S2048x64 .bf16) : List (View.Piece (Elt F) S2104x64 .bf16) :=
  [⟨rowsMid, P⟩, fillPiece]

/-- The zero the fill stores. -/
abbrev zero16 : F .bf16 := Scalar.ofBits .bf16 0x0000#16

/-- The fill is zero at every index. -/
theorem fill_apply (j : S2104x64.Idx) : (k0_pay2 (F := F)) j = zero16 := by
  unfold k0_pay2
  rw [shapeCast_self]
  rfl

/-- On rows 40 … 2087 the buffer holds the stored block. -/
theorem canon_inside (P : Vec F S2048x64 .bf16) (r : Fin 2104) (d : Fin 64) (h : 40 ≤ r.val ∧ r.val < 2088) :
    View.canon (stores P) (ix2 r d) = P (ix2 ⟨r.val - 40, by omega⟩ d) := by
  have hr : r.val - 40 < 2048 := by omega
  have e : (ix2 r d : S2104x64.Idx) = rowsMid.emb (ix2 (⟨r.val - 40, hr⟩ : Fin 2048) d) := by
    funext a; apply Fin.ext
    match a with
    | ⟨0, _⟩ => show r.val = 40 + 1 * (r.val - 40); omega
    | ⟨1, _⟩ => show d.val = 0 + 1 * d.val; omega
  rw [e]
  exact View.canon_cons_emb (Val := Elt F) rowsMid P [fillPiece] (ix2 (⟨r.val - 40, hr⟩ : Fin 2048) d)

/-- On the other rows it holds the fill's zero. -/
theorem canon_outside (P : Vec F S2048x64 .bf16) (r : Fin 2104) (d : Fin 64) (h : r.val < 40 ∨ 2088 ≤ r.val) :
    View.canon (stores P) (ix2 r d) = zero16 := by
  have hn : (ix2 r d : S2104x64.Idx) ∉ rowsMid.set := by
    rw [Rect.mem_set_unit]
    intro hm
    have h0 : 40 ≤ r.val ∧ r.val < 40 + 2048 := hm 0
    omega
  have h1 : View.canon (stores P) (ix2 r d) = View.canon [fillPiece (F := F)] (ix2 r d) :=
    View.canon_cons_of_not_mem (Val := Elt F) (⟨rowsMid, P⟩ : View.Piece (Elt F) S2104x64 .bf16) [fillPiece] hn
  have h2 : View.canon [fillPiece (F := F)] = (k0_pay2 : Vec F S2104x64 .bf16) :=
    View.canon_unit_zero (S := S2104x64) (Val := Elt F) (e := EltTy.bf16) hz2 inbAll (k0_pay2 : Vec F S2104x64 .bf16)
  rw [h1, h2]
  exact fill_apply _

/-- Row `r` of the buffer after the two stores. -/
def padRow (P : Vec F S2048x64 .bf16) (r : ℕ) (d : Fin 64) : F .bf16 :=
  if h : 40 ≤ r ∧ r < 2088 then P (ix2 ⟨r - 40, by omega⟩ d) else zero16

theorem canon_apply (P : Vec F S2048x64 .bf16) (r : Fin 2104) (d : Fin 64) :
    View.canon (stores P) (ix2 r d) = padRow P r.val d := by
  unfold padRow
  by_cases h : 40 ≤ r.val ∧ r.val < 2088
  · rw [dif_pos h]; exact canon_inside P r d h
  · rw [dif_neg h]; exact canon_outside P r d (by omega)

/-- A load of 2048 rows from row `off`, after the two stores, reads buffer row `off + t` at its row `t`. -/
theorem load_apply {sig' : RefSig} {κ : Kind} {sp : Space} (v : View sig' κ sp S2104x64 .bf16) (P : Vec F S2048x64 .bf16)
    (off : ℕ) (h : off + 2048 ≤ 2104) (t : Fin 2048) (d : Fin 64) :
    v.readCov (stores P) (Rect.unit (s := S2104x64) ![off, 0] S2048x64.size (inbRows off h)).toLoadRect (ix2 t d)
      = padRow P (off + t.val) d := by
  rw [View.readCov_eq_canon']
  have e : (Rect.unit (s := S2104x64) ![off, 0] S2048x64.size (inbRows off h)).toLoadRect.idx (ix2 t d)
      = (ix2 ⟨off + t.val, by have := t.isLt; omega⟩ d : S2104x64.Idx) := by
    funext a; apply Fin.ext
    match a with
    | ⟨0, _⟩ => show off + 1 * t.val = off + t.val; omega
    | ⟨1, _⟩ => show 0 + 1 * d.val = d.val; omega
  show View.canon (stores P) _ = _
  rw [e]
  exact canon_apply P _ d

end Cert.KernelIdeal.Lag

end
-- ==== Proof.Payload.lean ====
/-
  The block the body leaves in the output window, as a formula of the blocks it loads.

  The body loads 52 slices of 2048 rows from the scratch buffer, at rows 50, 49, …, 1, 0 and once more 0 — the slice at
  row `50 - l` is the signal delayed to lag position `l`, and the last one duplicates lag position 50 to fill the
  contraction to 52 · 64 = 3328 columns —, lays them side by side (column `64·l + d` is channel `d` of slice `l`),
  multiplies the 2048 × 3328 matrix with the 3328 × 128 weights into a zero accumulator and adds the bias row.
  At the ideal values this is, at row `t` and output channel `o`,
      Σ_{k < 3328} lagged[t, k] · weights[k, o] + bias[o].
-/
import proofs.«154770_j36764920054343_2_alg».proof.Proof.Scratch
import Idealize.ShloMosaic.PureOps.Ideal.Laws
import Idealize.ShloMosaic.Lib.Tactic

noncomputable section

namespace Cert.KernelIdeal.Lag

open Cert.KernelIdeal Cert.KernelIdeal.Gen Idealize.ShloMosaic Idealize.ShloMosaic.TcCoe Idealize.ShloMosaic.Tactic Idealize.SL.Sem
open Idealize.ShloMosaic.ValueIdx

variable {F : FTy → Type} [FloatOps F]

theorem hz3 : (![0, 0, 0] : Fin 3 → Nat) = fun _ => 0 := funext fun a => by fin_cases a <;> rfl

/-- The 2048 rows of the buffer from row `off`, after the two stores, loaded through the view `v`. -/
abbrev slice (v : View sig .tc .vmem S2104x64 .bf16) (P : Vec F S2048x64 .bf16) (off : ℕ) (h : off + 2048 ≤ 2104) :
    Vec F S2048x64 .bf16 :=
  v.readCov (stores P) (Rect.unit (s := S2104x64) ![off, 0] S2048x64.size (inbRows off h)).toLoadRect

/-- The 52 slices in the order the body concatenates them. -/
def slices (v : View sig .tc .vmem S2104x64 .bf16) (P : Vec F S2048x64 .bf16) : List ((s : Shape) × (s.Idx → F .bf16)) :=
  [⟨S2048x64, slice v P 50 (by decide)⟩,
   ⟨S2048x64, slice v P 49 (by decide)⟩,
   ⟨S2048x64, slice v P 48 (by decide)⟩,
   ⟨S2048x64, slice v P 47 (by decide)⟩,
   ⟨S2048x64, slice v P 46 (by decide)⟩,
   ⟨S2048x64, slice v P 45 (by decide)⟩,
   ⟨S2048x64, slice v P 44 (by decide)⟩,
   ⟨S2048x64, slice v P 43 (by decide)⟩,
   ⟨S2048x64, slice v P 42 (by decide)⟩,
   ⟨S2048x64, slice v P 41 (by decide)⟩,
   ⟨S2048x64, slice v P 40 (by decide)⟩,
   ⟨S2048x64, slice v P 39 (by decide)⟩,
   ⟨S2048x64, slice v P 38 (by decide)⟩,
   ⟨S2048x64, slice v P 37 (by decide)⟩,
   ⟨S2048x64, slice v P 36 (by decide)⟩,
   ⟨S2048x64, slice v P 35 (by decide)⟩,
   ⟨S2048x64, slice v P 34 (by decide)⟩,
   ⟨S2048x64, slice v P 33 (by decide)⟩,
   ⟨S2048x64, slice v P 32 (by decide)⟩,
   ⟨S2048x64, slice v P 31 (by decide)⟩,
   ⟨S2048x64, slice v P 30 (by decide)⟩,
   ⟨S2048x64, slice v P 29 (by decide)⟩,
   ⟨S2048x64, slice v P 28 (by decide)⟩,
   ⟨S2048x64, slice v P 27 (by decide)⟩,
   ⟨S2048x64, slice v P 26 (by decide)⟩,
   ⟨S2048x64, slice v P 25 (by decide)⟩,
   ⟨S2048x64, slice v P 24 (by decide)⟩,
   ⟨S2048x64, slice v P 23 (by decide)⟩,
   ⟨S2048x64, slice v P 22 (by decide)⟩,
   ⟨S2048x64, slice v P 21 (by decide)⟩,
   ⟨S2048x64, slice v P 20 (by decide)⟩,
   ⟨S2048x64, slice v P 19 (by decide)⟩,
   ⟨S2048x64, slice v P 18 (by decide)⟩,
   ⟨S2048x64, slice v P 17 (by decide)⟩,
   ⟨S2048x64, slice v P 16 (by decide)⟩,
   ⟨S2048x64, slice v P 15 (by decide)⟩,
   ⟨S2048x64, slice v P 14 (by decide)⟩,
   ⟨S2048x64, slice v P 13 (by decide)⟩,
   ⟨S2048x64, slice v P 12 (by decide)⟩,
   ⟨S2048x64, slice v P 11 (by decide)⟩,
   ⟨S2048x64, slice v P 10 (by decide)⟩,
   ⟨S2048x64, slice v P 9 (by decide)⟩,
   ⟨S2048x64, slice v P 8 (by decide)⟩,
   ⟨S2048x64, slice v P 7 (by decide)⟩,
   ⟨S2048x64, slice v P 6 (by decide)⟩,
   ⟨S2048x64, slice v P 5 (by decide)⟩,
   ⟨S2048x64, slice v P 4 (by decide)⟩,
   ⟨S2048x64, slice v P 3 (by decide)⟩,
   ⟨S2048x64, slice v P 2 (by decide)⟩,
   ⟨S2048x64, slice v P 1 (by decide)⟩,
   ⟨S2048x64, slice v P 0 (by decide)⟩,
   ⟨S2048x64, slice v P 0 (by decide)⟩]

/-- The lagged operand as the body builds it: its concatenation of the 52 slices. -/
def lagMat (v : View sig .tc .vmem S2104x64 .bf16) (P : Vec F S2048x64 .bf16) : FVec F S2048x3328 .bf16 :=
  k0_pay4 (slice v P 50 (by decide)) (slice v P 49 (by decide)) (slice v P 48 (by decide)) (slice v P 47 (by decide)) (slice v P 46 (by decide)) (slice v P 45 (by decide)) (slice v P 44 (by decide)) (slice v P 43 (by decide)) (slice v P 42 (by decide)) (slice v P 41 (by decide)) (slice v P 40 (by decide)) (slice v P 39 (by decide)) (slice v P 38 (by decide)) (slice v P 37 (by decide)) (slice v P 36 (by decide)) (slice v P 35 (by decide)) (slice v P 34 (by decide)) (slice v P 33 (by decide)) (slice v P 32 (by decide)) (slice v P 31 (by decide)) (slice v P 30 (by decide)) (slice v P 29 (by decide)) (slice v P 28 (by decide)) (slice v P 27 (by decide)) (slice v P 26 (by decide)) (slice v P 25 (by decide)) (slice v P 24 (by decide)) (slice v P 23 (by decide)) (slice v P 22 (by decide)) (slice v P 21 (by decide)) (slice v P 20 (by decide)) (slice v P 19 (by decide)) (slice v P 18 (by decide)) (slice v P 17 (by decide)) (slice v P 16 (by decide)) (slice v P 15 (by decide)) (slice v P 14 (by decide)) (slice v P 13 (by decide)) (slice v P 12 (by decide)) (slice v P 11 (by decide)) (slice v P 10 (by decide)) (slice v P 9 (by decide)) (slice v P 8 (by decide)) (slice v P 7 (by decide)) (slice v P 6 (by decide)) (slice v P 5 (by decide)) (slice v P 4 (by decide)) (slice v P 3 (by decide)) (slice v P 2 (by decide)) (slice v P 1 (by decide)) (slice v P 0 (by decide)) (slice v P 0 (by decide))

theorem slices_length (v : View sig .tc .vmem S2104x64 .bf16) (P : Vec F S2048x64 .bf16) : (slices v P).length = 52 := rfl

theorem slices_shapes (v : View sig .tc .vmem S2104x64 .bf16) (P : Vec F S2048x64 .bf16) :
    (slices v P).map (·.1) = List.replicate 52 S2048x64 := rfl

theorem hcat : Shape.Concatenates (List.replicate 52 S2048x64) S2048x3328 1 := by decide

theorem lagMat_eq (v : View sig .tc .vmem S2104x64 .bf16) (P : Vec F S2048x64 .bf16) :
    lagMat v P = concatenate S2048x3328 1 (slices v P) ((slices_shapes v P).symm ▸ hcat) := rfl

/-- Entry `l` of the list, for the 51 lag positions, is the slice at row `50 - l`. -/
theorem slices_get (v : View sig .tc .vmem S2104x64 .bf16) (P : Vec F S2048x64 .bf16) (l : ℕ) (hl : l < 51)
    (hlen : l < (slices v P).length) :
    (slices v P)[l]'hlen = ⟨S2048x64, slice v P (50 - l) (by omega)⟩ := by
  interval_cases l <;> rfl

/-- The `l` slices before entry `l` take up `64·l` columns. -/
theorem slices_pre (v : View sig .tc .vmem S2104x64 .bf16) (P : Vec F S2048x64 .bf16) (l : ℕ) (hl : l < 51) :
    ((((slices v P).take l).map (·.1)).map fun s =>
      if h : s.rank = S2048x3328.rank then s.size ((1 : Fin S2048x3328.rank).cast h.symm) else 0).sum = 64 * l := by
  rw [List.map_take, slices_shapes, List.take_replicate, List.map_replicate, List.sum_replicate,
    Nat.min_eq_left (by omega : l ≤ 52)]
  show l * 64 = 64 * l
  omega

/-- Column `64·l + d` of the lagged operand, for the 51 lag positions, is channel `d` of the slice at row `50 - l`. -/
theorem lagMat_apply (v : View sig .tc .vmem S2104x64 .bf16) (P : Vec F S2048x64 .bf16) (t : Fin 2048) (l : ℕ) (hl : l < 51)
    (d : Fin 64) :
    lagMat v P (ix2 t (⟨64 * l + d.val, by have := d.isLt; omega⟩ : Fin 3328)) = slice v P (50 - l) (by omega) (ix2 t d) := by
  rw [lagMat_eq]
  exact concatenate_apply_piece (1 : Fin S2048x3328.rank) (slices v P) _ _ l (by rw [slices_length]; omega) S2048x64 _
    (slices_get v P l hl _) rfl (64 * l) (slices_pre v P l hl) (ix2 t d)
    (fun b hb => match b with
      | ⟨0, _⟩ => rfl
      | ⟨1, _⟩ => absurd rfl hb)
    rfl

/-- So, with the buffer's rows read back: zero where the source time `t + 10 - l` is not a time of the block, the block's
    row `t + 10 - l` where it is. -/
theorem lagMat_apply_pad (v : View sig .tc .vmem S2104x64 .bf16) (P : Vec F S2048x64 .bf16) (t : Fin 2048) (l : ℕ) (hl : l < 51)
    (d : Fin 64) :
    lagMat v P (ix2 t (⟨64 * l + d.val, by have := d.isLt; omega⟩ : Fin 3328)) = padRow P (50 - l + t.val) d := by
  rw [lagMat_apply v P t l hl d]
  exact load_apply v P (50 - l) (by omega) t d

/-- What the body leaves in the output's staging buffer: its one store's payload — the matrix product and the bias — of
    the lagged operand built from the signal block `x0`, the weights block `x1` and the bias block `x2`. -/
theorem out_eq (c : Dev nD) (i : grid0.Coords) (arg1 : Memref sig .tc .vmem S1x2048x64 .f32) (harg1 : arg1.IsWhole)
    (arg2 : Memref sig .tc .vmem S3328x128 .bf16) (harg2 : arg2.IsWhole) (arg3 : Memref sig .tc .vmem S1x128 .f32) (harg3 : arg3.IsWhole)
    (arg4 : Memref sig .tc .vmem S1x2048x128 .f32) (harg4 : arg4.IsWhole) (arg5 : Memref sig .tc .vmem S2104x64 .bf16) (harg5 : arg5.IsWhole)
    (x0 : Vec F S1x2048x64 .f32) (x1 : Vec F S3328x128 .bf16) (x2 : Vec F S1x128 .f32) :
    out0_A_3 c i arg1 harg1 arg2 harg2 arg3 harg3 arg4 harg4 arg5 harg5 x0 x1 x2
      = k0_pay1 (lagMat arg5.view (k0_pay3 x0)) x1 x2 := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero hz3]
  simp only [View.readAt_eq_ld, harg1.read_unread, harg2.read_unread, harg3.read_unread,
    View.ld_unit_zero (S := S1x2048x64) hz3, View.ld_unit_zero (S := S3328x128) hz2, View.ld_unit_zero (S := S1x128) hz2]
  rfl

end Cert.KernelIdeal.Lag

end
-- ==== Proof.KernelAt.lean ====
/-
  The output block at the ideal values, entry by entry.

  At the ideal values a matrix product into a zero accumulator is the plain sum over the contracted axis, a change of
  float format is the identity, and the stored zero is the extended real 0. So the block the body leaves, at row `t` and
  output channel `o`, is
      Σ_{k < 3328} lagged[t, k] · weights[k, o] + bias[o],
  and, for the 51 lag positions, `lagged[t, 64·l + d]` is the signal block's row `t + 10 - l` at channel `d` when that row
  exists and 0 otherwise.
-/
import proofs.«154770_j36764920054343_2_alg».proof.Proof.Payload
import Idealize.ShloMosaic.Lib.ValueLayout

noncomputable section

namespace Cert.KernelIdeal.Lag

open Cert.KernelIdeal Cert.KernelIdeal.Gen Idealize.ShloMosaic Idealize.ShloMosaic.TcCoe Idealize.SL.Sem
open Idealize.ShloMosaic.ValueIdx

/-- The body's contraction: axis 1 of the lagged operand against axis 0 of the weights. -/
abbrev DD : DotDims S2048x3328 S3328x128 S2048x128 := dot_S2048x3328_S3328x128_S2048x128_1_0_0_1_n_n

theorem lhs0 (i : S2048x128.Idx) (q : DD.contr.Idx) : (DD.lhsIdx i q 0).val = (i 0).val := by
  unfold DotDims.lhsIdx
  rw [dif_neg (show ¬(0 : Fin S2048x3328.rank) ∈ DD.lhsBatch by decide),
    dif_pos (show (0 : Fin S2048x3328.rank) ∈ DD.lhsNonContracting by decide)]
  rfl

theorem lhs1 (i : S2048x128.Idx) (q : DD.contr.Idx) : (DD.lhsIdx i q 1).val = (q ⟨0, by decide⟩).val :=
  DD.lhsIdx_val_of_single rfl i q

theorem rhs0 (i : S2048x128.Idx) (q : DD.contr.Idx) : (DD.rhsIdx i q 0).val = (q ⟨0, by decide⟩).val :=
  DD.rhsIdx_val_of_single rfl i q

theorem rhs1 (i : S2048x128.Idx) (q : DD.contr.Idx) : (DD.rhsIdx i q 1).val = (i 1).val := by
  unfold DotDims.rhsIdx
  rw [dif_neg (show ¬(1 : Fin S3328x128.rank) ∈ DD.rhsBatch by decide),
    dif_pos (show (1 : Fin S3328x128.rank) ∈ DD.rhsNonContracting by decide)]
  rfl

/-- The matrix product into the zero accumulator, at row `t` and column `o`: the sum over the 3328 contracted columns. -/
theorem matmul_ix (M : FVec Ideal S2048x3328 .bf16) (R : FVec Ideal S3328x128 .bf16) (t : Fin 2048) (o : Fin 128) :
    matmul DD none M R (constant (F := Ideal) S2048x128 .f32 0x00000000#32) (ix2 t o)
      = ∑ k : Fin 3328, M (ix2 t k) * R (ix2 k o) := by
  simp only [matmul]
  rw [Ideal.matmul_constant_zero_apply, ← Equiv.sum_comp (ValueIdx.contrEquiv1 DD 3328 rfl rfl).symm]
  refine Finset.sum_congr rfl fun k _ => ?_
  have hk := ValueIdx.contrEquiv1_symm_val DD 3328 rfl rfl k
  have el : DD.lhsIdx (ix2 t o) ((ValueIdx.contrEquiv1 DD 3328 rfl rfl).symm k) = ix2 t k := funext fun a => Fin.ext (by
    match a with
    | ⟨0, _⟩ => exact lhs0 _ _
    | ⟨1, _⟩ => exact (lhs1 _ _).trans hk)
  have er : DD.rhsIdx (ix2 t o) ((ValueIdx.contrEquiv1 DD 3328 rfl rfl).symm k) = ix2 k o := funext fun a => Fin.ext (by
    match a with
    | ⟨0, _⟩ => exact (rhs0 _ _).trans hk
    | ⟨1, _⟩ => exact rhs1 _ _)
  rw [el, er]

/-- The body's stored value at `(0, t, o)`: the product's entry plus the bias. -/
theorem pay1_apply (M : FVec Ideal S2048x3328 .bf16) (x1 : Vec Ideal S3328x128 .bf16) (x2 : Vec Ideal S1x128 .f32)
    (t : Fin 2048) (o : Fin 128) :
    k0_pay1 (F := Ideal) M x1 x2 (ix3 (0 : Fin 1) t o)
      = (∑ k : Fin 3328, M (ix2 t k) * x1 (ix2 k o)) + x2 (ix2 (0 : Fin 1) o) := by
  unfold k0_pay1
  have hj : (fun a : Fin 2 => (ix3 (0 : Fin 1) t o : S1x2048x128.Idx) a.succ) = (ix2 t o : S2048x128.Idx) :=
    funext fun a => by
      match a with
      | ⟨0, _⟩ => rfl
      | ⟨1, _⟩ => rfl
  refine (shapeCast_addUnit_apply ![2048, 128] _ _ (ix3 (0 : Fin 1) t o)).trans ?_
  rw [hj, addf_apply, shapeCast_self, shapeCast_self, matmul_ix]
  congr 1
  exact broadcastTo_apply x2 _ (ix2 t o) (ix2 (0 : Fin 1) o) (fun a => match a with
    | ⟨0, _⟩ => by show 0 = if (1 : Nat) = 1 then 0 else _; rw [if_pos rfl]
    | ⟨1, _⟩ => by show o.val = if (128 : Nat) = 1 then 0 else o.val; rw [if_neg (by decide)])

/-- The stored zero is the extended real 0. -/
theorem zero16_ideal : (zero16 (F := Ideal)) = (0 : EReal) := by
  show Ideal.ofBits .bf16 0x0000#16 = 0
  simp [Ideal.ofBits, Ideal.ieee]

/-- The block the body stores into the buffer is the signal block with its leading unit axis dropped. -/
theorem pay3_apply (x0 : Vec Ideal S1x2048x64 .f32) (r : Fin 2048) (d : Fin 64) :
    k0_pay3 (F := Ideal) x0 (ix2 r d) = x0 (ix3 (0 : Fin 1) r d) := by
  unfold k0_pay3
  rw [shapeCast_self]
  show shapeCast S2048x64 x0 _ (ix2 r d) = _
  refine (shapeCast_dropUnit_apply ![2048, 64] x0 _ (ix2 r d)).trans (congrArg x0 (funext fun a => ?_))
  match a with
  | ⟨0, _⟩ => rfl
  | ⟨1, _⟩ => rfl
  | ⟨2, _⟩ => rfl

/-- Lag position `l` of the signal block `x0` at row `t`, channel `d`: row `t + 10 - l` when the block has it, else 0. -/
def blockLag (x0 : Vec Ideal S1x2048x64 .f32) (t l : ℕ) (d : Fin 64) : EReal :=
  if h : l ≤ t + 10 ∧ t + 10 - l < 2048 then x0 (ix3 (0 : Fin 1) ⟨t + 10 - l, h.2⟩ d) else 0

/-- Column `64·l + d` of the lagged operand built from the signal block, for the 51 lag positions. -/
theorem lagMat_ideal (v : View sig .tc .vmem S2104x64 .bf16) (x0 : Vec Ideal S1x2048x64 .f32) (t : Fin 2048) (l : ℕ)
    (hl : l < 51) (d : Fin 64) :
    lagMat (F := Ideal) v (k0_pay3 (F := Ideal) x0) (ix2 t (⟨64 * l + d.val, by have := d.isLt; omega⟩ : Fin 3328))
      = blockLag x0 t.val l d := by
  rw [lagMat_apply_pad v _ t l hl d]
  unfold padRow blockLag
  have ht := t.isLt
  by_cases h : l ≤ t.val + 10 ∧ t.val + 10 - l < 2048
  · have h' : 40 ≤ 50 - l + t.val ∧ 50 - l + t.val < 2088 := by omega
    rw [dif_pos h, dif_pos h', pay3_apply]
    exact congrArg x0 (congrArg (fun r => ix3 (0 : Fin 1) r d) (Fin.ext (by show 50 - l + t.val - 40 = t.val + 10 - l; omega)))
  · have h' : ¬(40 ≤ 50 - l + t.val ∧ 50 - l + t.val < 2088) := by omega
    rw [dif_neg h, dif_neg h']
    exact zero16_ideal

end Cert.KernelIdeal.Lag

end
-- ==== Proof.Spec.lean ====
/-
  The specification both programs are compared with, and the one algebraic law that joins them.

  The signal is `x[b, t, d]` (16 batches, 2048 times, 64 channels). For each of 51 lag positions `l = 0 … 50` (lag
  `l - 10`, from -10 to 40) the lagged copy reads the signal at the source time `t - (l - 10) = t + 10 - l`, and is zero
  where that time falls outside `[0, 2048)`. The 51 copies are laid side by side along the channel axis, column
  `k = 64·l + d`, and the result is the affine map
      out[b, t, o] = Σ_{k < 3264} lagged[b, t, k] · W[o, k] + bias[o].
  The law: a sum over `m + n` columns whose last `n` terms vanish is the sum over the first `m` — a product with a zero
  weight is zero on the extended reals, whatever the other factor, so the law needs no finiteness.
-/
import Idealize.ShloMosaic.PureOps.Ideal
import Idealize.ShloMosaic.Lib.ValueIdx

noncomputable section

namespace Cert.LagSpec

open Idealize.ShloMosaic Idealize.ShloMosaic.ValueIdx

/-- The lagged signal: lag position `l` at time `t` reads the source time `t + 10 - l` when that is a time of the signal
    (`l ≤ t + 10` and `t + 10 - l < 2048`), and is zero otherwise. -/
def lagv (x : (⟨3, ![16, 2048, 64]⟩ : Shape).Idx → EReal) (b : Fin 16) (t l : ℕ) (d : Fin 64) : EReal :=
  if h : l ≤ t + 10 ∧ t + 10 - l < 2048 then x (ix3 b ⟨t + 10 - l, h.2⟩ d) else 0

/-- The lagged signal's column `k = 64·l + d`. -/
def lagcol (x : (⟨3, ![16, 2048, 64]⟩ : Shape).Idx → EReal) (b : Fin 16) (t k : ℕ) : EReal :=
  lagv x b t (k / 64) ⟨k % 64, Nat.mod_lt _ (by decide)⟩

/-- The result at `(b, t, o)`: the lagged row against row `o` of the weights, plus the bias. -/
def out (x : (⟨3, ![16, 2048, 64]⟩ : Shape).Idx → EReal) (W : (⟨2, ![128, 3264]⟩ : Shape).Idx → EReal)
    (bias : (⟨1, ![128]⟩ : Shape).Idx → EReal) (b : Fin 16) (t : Fin 2048) (o : Fin 128) : EReal :=
  (∑ k : Fin 3264, lagcol x b t.val k.val * W (ix2 o k)) + bias (ix1 o)

/-- The result array. -/
def G (x : (⟨3, ![16, 2048, 64]⟩ : Shape).Idx → EReal) (W : (⟨2, ![128, 3264]⟩ : Shape).Idx → EReal)
    (bias : (⟨1, ![128]⟩ : Shape).Idx → EReal) : (⟨3, ![16, 2048, 128]⟩ : Shape).Idx → EReal :=
  fun i => out x W bias ⟨(i 0).val, (i 0).isLt⟩ ⟨(i 1).val, (i 1).isLt⟩ ⟨(i 2).val, (i 2).isLt⟩

theorem G_ix3 (x : (⟨3, ![16, 2048, 64]⟩ : Shape).Idx → EReal) (W : (⟨2, ![128, 3264]⟩ : Shape).Idx → EReal)
    (bias : (⟨1, ![128]⟩ : Shape).Idx → EReal) (b : Fin 16) (t : Fin 2048) (o : Fin 128) :
    G x W bias (ix3 b t o) = out x W bias b t o := rfl

/-- A sum over `m + n` terms whose last `n` vanish is the sum of the first `m`. -/
theorem sum_zero_tail {m n : ℕ} (f : Fin (m + n) → EReal) (h : ∀ k : Fin n, f (Fin.natAdd m k) = 0) :
    ∑ k, f k = ∑ k : Fin m, f (Fin.castAdd n k) := by
  rw [Fin.sum_univ_add, Finset.sum_eq_zero (fun k _ => h k), add_zero]

/-- The same over the literal extents: 3328 columns of which the last 64 carry a zero weight. -/
theorem sum_3328 (f : Fin 3328 → EReal) (h : ∀ k : Fin 3328, 3264 ≤ k.val → f k = 0) :
    ∑ k, f k = ∑ k : Fin 3264, f ⟨k.val, by have := k.isLt; omega⟩ :=
  sum_zero_tail (m := 3264) (n := 64) f (fun k => h _ (by show 3264 ≤ 3264 + k.val; omega))

end Cert.LagSpec

end
-- ==== Proof.Blocks.lean ====
/-
  From the blocks each grid point writes to the kernel's result array, and the kernel's run.

  The grid has 16 points, one per batch. At point `p` the signal window holds batch `p` of the signal
  (block index `(p, 0, 0)`), the weights and the bias windows hold their whole arrays (block index `(0, 0)`), and the
  output window writes batch `p` of the result (block index `(p, 0, 0)`). The weights the region finds are the transposed
  weight matrix with 64 zero rows appended and rounded to bf16 (the identity at the ideal values): entry `(k, o)` is
  `W[o, k]` for `k < 3264` and 0 for the last 64 rows; the bias it finds is the bias as one row. So the 64 columns of the
  duplicated lag slice meet a zero weight and drop out of the contraction (the law of Spec.lean), what point `p` writes
  is batch `p` of the specification's array, and the 16 blocks cover the array.
-/
import proofs.«154770_j36764920054343_2_alg».proof.Proof.KernelAt
import proofs.«154770_j36764920054343_2_alg».proof.Proof.Spec
import proofs.«154770_j36764920054343_2_alg».proof.Proof.Gen.KernelIdeal.Value
import Idealize.ShloMosaic.Lib.StableHlo.Run

noncomputable section

namespace Cert.KernelIdeal.Lag

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays as the region finds them -/

/-- The weights operand as the region finds it: the host's transpose, zero rows, concatenation and rounding of `W`. -/
theorem V_weights (c : Dev nD) :
    (V m c main_v3 : S3328x128.Idx → EReal)
      = truncf .bf16 (concatenate S3328x128 0
          [⟨S3264x128, transpose S3264x128 [1, 0] (m ((c : Thread nD τ).loc main_arg1)) Facts₀.transposes_S128x3264_S3264x128_1_0⟩,
           ⟨S64x128, broadcastInDim S64x128 ![] Facts₀.bcast_S_S64x128 (constant (F := Ideal) S_ .f32 0x00000000#32)⟩]
          Facts₀.concatenates_S3264x128_S64x128_S3328x128_d0) Facts₀.bitsLt_bf16_f32 := by
  dsimp only [Gen.V, Gen.hostOps0]
  after_results
  all_goals rfl

/-- The bias operand as the region finds it: the bias as one row. -/
theorem V_bias (c : Dev nD) :
    (V m c main_v4 : S1x128.Idx → EReal) = shapeCast S1x128 (m ((c : Thread nD τ).loc main_arg2)) Facts₀.shapeCasts_S128_S1x128 := by
  dsimp only [Gen.V, Gen.hostOps0]
  after_results
  all_goals rfl

/-- Rows 0 … 3263 of the weights operand are the weight matrix transposed. -/
theorem weights_lo (c : Dev nD) (k : Fin 3328) (hk : k.val < 3264) (o : Fin 128) :
    (V m c main_v3 : S3328x128.Idx → EReal) (ix2 k o) = m ((c : Thread nD τ).loc main_arg1) (ix2 o (⟨k.val, hk⟩ : Fin 3264)) := by
  rw [V_weights, truncf_apply]
  refine (concatenate_pair_apply_left (s₁ := S3264x128) (s₂ := S64x128) (0 : Fin S3328x128.rank) _ _ _ (ix2 k o) rfl
    (ix2 (⟨k.val, hk⟩ : Fin 3264) o) (fun b => ?_)).trans ?_
  · match b with
    | ⟨0, _⟩ => rfl
    | ⟨1, _⟩ => rfl
  · exact transpose_apply [1, 0] _ _ (ix2 (⟨k.val, hk⟩ : Fin 3264) o) (ix2 o (⟨k.val, hk⟩ : Fin 3264)) (fun b => by
      match b with
      | ⟨0, _⟩ => rfl
      | ⟨1, _⟩ => rfl)

/-- Rows 3264 … 3327 of the weights operand are zero. -/
theorem weights_hi (c : Dev nD) (k : Fin 3328) (hk : 3264 ≤ k.val) (o : Fin 128) :
    (V m c main_v3 : S3328x128.Idx → EReal) (ix2 k o) = (0 : EReal) := by
  have hk' : k.val - 3264 < 64 := by have := k.isLt; omega
  rw [V_weights, truncf_apply]
  refine (concatenate_pair_apply_right (s₁ := S3264x128) (s₂ := S64x128) (0 : Fin S3328x128.rank) _ _ _ (ix2 k o) rfl rfl
    (ix2 (⟨k.val - 3264, hk'⟩ : Fin 64) o) (fun b hb => ?_) ?_).trans ?_
  · match b with
    | ⟨0, _⟩ => exact absurd rfl hb
    | ⟨1, _⟩ => rfl
  · show k.val - 3264 + 3264 = k.val; omega
  · exact (broadcastInDim_apply _ _ _ _ ix0 (fun a => a.elim0)).trans Ideal.ofBits_zero_f32

/-- The bias operand's one row is the bias. -/
theorem bias_apply (c : Dev nD) (o : Fin 128) :
    (V m c main_v4 : S1x128.Idx → EReal) (ix2 (0 : Fin 1) o) = m ((c : Thread nD τ).loc main_arg2) (ix1 o) := by
  rw [V_bias]
  refine (shapeCast_addUnit_apply ![128] _ _ (ix2 (0 : Fin 1) o)).trans (congrArg _ (funext fun a => ?_))
  match a with
  | ⟨0, _⟩ => rfl

/-! ## The windows' blocks -/

/-- The printed index maps over the 16 grid points. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point is one of the 16 batches. -/
theorem lt16 (t : Fin cfg0.N) : t.val < 16 := by
  have := t.isLt
  have hN : cfg0.N = 16 := N_0
  omega

/-- The batch a grid point works on. -/
abbrev batch (t : Fin cfg0.N) : Fin 16 := ⟨t.val, lt16 t⟩

/-- The signal window's block at point `t` is batch `t` of the signal. -/
theorem iblk0_apply (c : Dev nD) (t : Fin cfg0.N) (r : Fin 2048) (d : Fin 64) :
    iblk m c 0 t (ix3 (0 : Fin 1) r d)
      = m ((c : Thread nD τ).loc main_arg0) (ix3 (batch t) r d) := by
  obtain ⟨e0, e1, e2, -⟩ := idx_facts t
  unfold iblk
  rw [View.read_apply]
  show V m c main_arg0 (((cfg0.win 0).blk t).view.emb (ix3 (0 : Fin 1) r d)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 2048 + 1 * r.val = r.val; omega
  | ⟨2, _⟩ => show win0_0.index t (2 : Fin 3) * 64 + 1 * d.val = d.val; omega

/-- The weights window's block at any point is the whole weights operand. -/
theorem iblk1_apply (c : Dev nD) (t : Fin cfg0.N) (k : Fin 3328) (o : Fin 128) :
    iblk m c 1 t (ix2 k o) = (V m c main_v3 : S3328x128.Idx → EReal) (ix2 k o) := by
  obtain ⟨-, -, -, e0, e1, -⟩ := idx_facts t
  unfold iblk
  rw [View.read_apply]
  show V m c main_v3 (((cfg0.win 1).blk t).view.emb (ix2 k o)) = _
  refine congrArg _ (funext fun a => Fin.ext ?_)
  match a with
  | ⟨0, _⟩ => show win0_1.index t (0 : Fin 2) * 3328 + 1 * k.val = k.val; omega
  | ⟨1, _⟩ => show win0_1.index t (1 : Fin 2) * 128 + 1 * o.val = o.val; omega

/-- The bias window's block at any point is the whole bias operand. -/
theorem iblk2_apply (c : Dev nD) (t : Fin cfg0.N) (o : Fin 128) :
    iblk m c 2 t (ix2 (0 : Fin 1) o) = (V m c main_v4 : S1x128.Idx → EReal) (ix2 (0 : Fin 1) o) := by
  obtain ⟨-, -, -, -, -, e0, e1, -⟩ := idx_facts t
  unfold iblk
  rw [View.read_apply]
  show V m c main_v4 (((cfg0.win 2).blk t).view.emb (ix2 (0 : Fin 1) o)) = _
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * o.val = o.val; omega

/-! ## What a point writes is its batch of the specification -/

/-- The specification's array of the argument arrays at launch. -/
abbrev spec (c : Dev nD) : S16x2048x128.Idx → EReal :=
  Cert.LagSpec.G (m ((c : Thread nD τ).loc main_arg0)) (m ((c : Thread nD τ).loc main_arg1)) (m ((c : Thread nD τ).loc main_arg2))

/-- Lag position `l` of a signal block that is batch `b` of the signal `xs` is the specification's lagged signal. -/
theorem blockLag_eq (x0 : Vec Ideal S1x2048x64 .f32) (xs : S16x2048x64.Idx → EReal) (b : Fin 16)
    (h0 : ∀ (r' : Fin 2048) (d : Fin 64), x0 (ix3 (0 : Fin 1) r' d) = xs (ix3 b r' d)) (r l : ℕ) (d : Fin 64) :
    blockLag x0 r l d = Cert.LagSpec.lagv xs b r l d := by
  unfold blockLag Cert.LagSpec.lagv
  by_cases h : l ≤ r + 10 ∧ r + 10 - l < 2048
  · rw [dif_pos h, dif_pos h]; exact h0 _ d
  · rw [dif_neg h, dif_neg h]

/-- The entry the body stores at row `r`, output channel `o`, from a signal block that is batch `b` of `xs`, a weights
    block that is `W` transposed over 64 zero rows, and a bias block that is `bias` as a row: the specification's entry.
    The 64 columns of the duplicated lag slice meet the zero rows and vanish. -/
theorem entry_of_blocks (v : View sig .tc .vmem S2104x64 .bf16) (x0 : Vec Ideal S1x2048x64 .f32) (x1 : Vec Ideal S3328x128 .bf16)
    (x2 : Vec Ideal S1x128 .f32) (xs : S16x2048x64.Idx → EReal) (W : S128x3264.Idx → EReal) (bias : S128.Idx → EReal)
    (b : Fin 16) (r : Fin 2048) (o : Fin 128)
    (h0 : ∀ (r' : Fin 2048) (d : Fin 64), x0 (ix3 (0 : Fin 1) r' d) = xs (ix3 b r' d))
    (h1lo : ∀ (k : Fin 3328) (hk : k.val < 3264), x1 (ix2 k o) = W (ix2 o (⟨k.val, hk⟩ : Fin 3264)))
    (h1hi : ∀ k : Fin 3328, 3264 ≤ k.val → x1 (ix2 k o) = (0 : EReal))
    (h2 : x2 (ix2 (0 : Fin 1) o) = bias (ix1 o)) :
    k0_pay1 (F := Ideal) (lagMat (F := Ideal) v (k0_pay3 (F := Ideal) x0)) x1 x2 (ix3 (0 : Fin 1) r o)
      = Cert.LagSpec.out xs W bias b r o := by
  rw [pay1_apply]
  unfold Cert.LagSpec.out
  refine congrArg₂ (· + ·) ?_ h2
  rw [Cert.LagSpec.sum_3328 _ (fun k hk => by rw [h1hi k hk, mul_zero])]
  refine Finset.sum_congr rfl fun k _ => ?_
  have hk := k.isLt
  have hl : k.val / 64 < 51 := by omega
  have hkd : (⟨k.val, by omega⟩ : Fin 3328)
      = (⟨64 * (k.val / 64) + (⟨k.val % 64, Nat.mod_lt _ (by decide)⟩ : Fin 64).val,
          by show 64 * (k.val / 64) + k.val % 64 < 3328; omega⟩ : Fin 3328) :=
    Fin.ext (by show k.val = 64 * (k.val / 64) + k.val % 64; omega)
  rw [hkd, lagMat_ideal v x0 r (k.val / 64) hl, blockLag_eq x0 xs b h0, ← hkd, h1lo _ hk]
  rfl

/-- The entry the body leaves at row `r`, output channel `o`, at point `t`: the specification's entry of batch `t`. -/
theorem out_entry (c : Dev nD) (t : Fin cfg0.N) (r : Fin 2048) (o : Fin 128) :
    outsAt0 m c t (ix3 (0 : Fin 1) r o)
      = Cert.LagSpec.out (m ((c : Thread nD τ).loc main_arg0)) (m ((c : Thread nD τ).loc main_arg1)) (m ((c : Thread nD τ).loc main_arg2))
          (batch t) r o := by
  unfold outsAt0
  refine (congrFun (out_eq (F := Ideal) c (grid0.coords t) (ms0_0 t) (hs0_0 t) (ms0_1 t) (hs0_1 t) (ms0_2 t) (hs0_2 t) (ms0_3 t) (hs0_3 t)
    scM0_0 (Memref.isWhole_whole _) (iblk m c 0 t) (iblk m c 1 t) (iblk m c 2 t)) (ix3 (0 : Fin 1) r o)).trans ?_
  exact entry_of_blocks scM0_0.view (iblk m c 0 t) (iblk m c 1 t) (iblk m c 2 t) _ _ _ (batch t) r o
    (fun r' d => iblk0_apply m c t r' d)
    (fun k hk => (iblk1_apply m c t k o).trans (weights_lo m c k hk o))
    (fun k hk => (iblk1_apply m c t k o).trans (weights_hi m c k hk o))
    ((iblk2_apply m c t o).trans (bias_apply m c o))

/-- WHAT POINT `t` WRITES BACK is block `t` of the specification's array. -/
theorem flushed_eq (c : Dev nD) (t : Fin cfg0.N) :
    (dats m 0 c).flushed 3 t = ((cfg0.win 3).blk t).view.read (Elt Ideal) (spec m c) := by
  obtain ⟨-, -, -, -, -, -, -, e0, e1, e2⟩ := idx_facts t
  rw [Cert.KernelIdeal.Value.flushed3]
  funext y
  obtain ⟨y0, r, o, rfl⟩ : ∃ (y0 : Fin 1) (r : Fin 2048) (o : Fin 128), y = ix3 y0 r o := ⟨y 0, y 1, y 2, eq_ix3 y⟩
  obtain rfl : y0 = 0 := Subsingleton.elim _ _
  rw [View.read_apply]
  show outsAt0 m c t (ix3 (0 : Fin 1) r o) = spec m c (((cfg0.win 3).blk t).view.emb (ix3 (0 : Fin 1) r o))
  have e : ((cfg0.win 3).blk t).view.emb (ix3 (0 : Fin 1) r o) = (ix3 (batch t) r o : S16x2048x128.Idx) := by
    funext a; apply Fin.ext
    match a with
    | ⟨0, _⟩ => show win0_3.index t (0 : Fin 3) * 1 + 1 * 0 = t.val; omega
    | ⟨1, _⟩ => show win0_3.index t (1 : Fin 3) * 2048 + 1 * r.val = r.val; omega
    | ⟨2, _⟩ => show win0_3.index t (2 : Fin 3) * 128 + 1 * o.val = o.val; omega
  rw [e, out_entry]
  rfl

/-- An index of the result array is in point `t`'s block iff each coordinate is in the block's range on its axis. -/
theorem mem_blk (t : Fin cfg0.N) (i : S16x2048x128.Idx) :
    i ∈ ((cfg0.win 3).blk t).view.set ↔ ∀ a : Fin 3, win0_3.index t a * S1x2048x128.size a ≤ (i a).val
      ∧ (i a).val < win0_3.index t a * S1x2048x128.size a + S1x2048x128.size a := by
  show i ∈ ((View.whole main_v5).slice (win0_3.rect t)).set ↔ _
  rw [View.set_slice_whole, Rect.mem_set_unit]
  exact Iff.rfl

/-- THE ARRAY after the run is the specification's: batch `b` is written by point `b`. -/
theorem final (c : Dev nD) : (dats m 0 c).arrAt 3 cfg0.N = spec m c :=
  (dats m 0 c).arrAt_eq_of_cover 3 (spec m c) (fun t _ => flushed_eq m c t) fun i => by
    have hi0 : (i 0).val < 16 := (i 0).isLt
    have hi1 : (i 1).val < 2048 := (i 1).isLt
    have hi2 : (i 2).val < 128 := (i 2).isLt
    have hN : cfg0.N = 16 := N_0
    refine ⟨⟨(i 0).val, by rw [hN]; exact hi0⟩, flush0_3 _, ?_⟩
    obtain ⟨-, -, -, -, -, -, -, e0, e1, e2⟩ := idx_facts ⟨(i 0).val, by rw [hN]; exact hi0⟩
    rw [mem_blk]
    intro a
    match a with
    | ⟨0, _⟩ => show win0_3.index _ (0 : Fin 3) * 1 ≤ (i 0).val ∧ (i 0).val < win0_3.index _ (0 : Fin 3) * 1 + 1; rw [e0]; show (i 0).val * 1 ≤ (i 0).val ∧ (i 0).val < (i 0).val * 1 + 1; omega
    | ⟨1, _⟩ => show win0_3.index _ (1 : Fin 3) * 2048 ≤ (i 1).val ∧ (i 1).val < win0_3.index _ (1 : Fin 3) * 2048 + 2048; rw [e1]; omega
    | ⟨2, _⟩ => show win0_3.index _ (2 : Fin 3) * 128 ≤ (i 2).val ∧ (i 2).val < win0_3.index _ (2 : Fin 3) * 128 + 128; rw [e2]; omega

/-! ## The run, read -/

/-- The kernel's run: the result array ends at the specification's array of the arguments, the arguments unchanged. -/
theorem run : θ_run defs (onTc (τ := τ) (main (F := Ideal))) ⟨m, fun _ => 0, ρ⟩ fun r => ∀ c : Dev nD,
      r.2.mem ((c : Thread nD τ).loc main_v5) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Lag

end
-- ==== Proof.RefValsA.lean ====
/-
  What the reference's slice–pad lists 0 … 4 leave in the buffers, read off the contents `W` they start from: each pad
  buffer holds its stage of the signal (the time-shifted, zero-padded slice), as the function of the signal buffer's
  contents that the stage definitions name; and a buffer none of a list's operations writes keeps its contents.
-/
import proofs.«154770_j36764920054343_2_alg».proof.Proof.RefOps
import proofs.«154770_j36764920054343_2_alg».proof.Proof.RefRead

noncomputable section

namespace Cert.ReferenceIdeal.Ops

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The buffers list 0's operations write. -/
def w0 : List (Ref sig .tc) := [main_v0, main_c, main_call0_v0, main_v1, main_v2, main_c_0, main_call1_v0, main_v3, main_v4, main_c_1, main_call2_v0, main_v5, main_v6, main_c_2, main_call3_v0, main_v7, main_v8, main_c_3, main_call4_v0, main_v9]

theorem c0_writes : (c0 : List (HloOp τ sig (Elt F))).Forall fun op =>
    op.writes ⊆ (w0.map (Proc.devRef (τ := τ) .tc)).toFinset := by
  unfold c0
  simp only [List.Forall, unary_writes, nullary_writes, binary_writes, Finset.singleton_subset_iff, List.mem_toFinset]
  repeat' apply And.intro
  all_goals exact List.mem_map_of_mem (by decide)

/-- A buffer list 0 does not write keeps its contents. -/
theorem c0_keeps (W : Valuation τ sig (Elt F)) (r : Ref sig .tc) (hr : r ∉ w0) :
    after c0 W (no_index (Proc.devRef .tc r)) = W (Proc.devRef .tc r) :=
  after_of_writes_sub c0 W c0_writes hr

theorem c0_main_v1 (W : Valuation τ sig (Elt F)) :
    after c0 W (no_index (Proc.devRef .tc main_v1)) = val_main_v1 (F := F) (W (Proc.devRef .tc main_arg0)) := by
  unfold c0
  after_results_simp <;> rfl

theorem c0_main_v3 (W : Valuation τ sig (Elt F)) :
    after c0 W (no_index (Proc.devRef .tc main_v3)) = val_main_v3 (F := F) (W (Proc.devRef .tc main_arg0)) := by
  unfold c0
  after_results_simp <;> rfl

theorem c0_main_v5 (W : Valuation τ sig (Elt F)) :
    after c0 W (no_index (Proc.devRef .tc main_v5)) = val_main_v5 (F := F) (W (Proc.devRef .tc main_arg0)) := by
  unfold c0
  after_results_simp <;> rfl

theorem c0_main_v7 (W : Valuation τ sig (Elt F)) :
    after c0 W (no_index (Proc.devRef .tc main_v7)) = val_main_v7 (F := F) (W (Proc.devRef .tc main_arg0)) := by
  unfold c0
  after_results_simp <;> rfl

theorem c0_main_v9 (W : Valuation τ sig (Elt F)) :
    after c0 W (no_index (Proc.devRef .tc main_v9)) = val_main_v9 (F := F) (W (Proc.devRef .tc main_arg0)) := by
  unfold c0
  after_results_simp <;> rfl

/-- The buffers list 1's operations write. -/
def w1 : List (Ref sig .tc) := [main_v10, main_c_4, main_call5_v0, main_v11, main_v12, main_c_5, main_call6_v0, main_v13, main_v14, main_c_6, main_call7_v0, main_v15, main_v16, main_c_7, main_call8_v0, main_v17, main_v18, main_c_8, main_call9_v0, main_v19]

theorem c1_writes : (c1 : List (HloOp τ sig (Elt F))).Forall fun op =>
    op.writes ⊆ (w1.map (Proc.devRef (τ := τ) .tc)).toFinset := by
  unfold c1
  simp only [List.Forall, unary_writes, nullary_writes, binary_writes, Finset.singleton_subset_iff, List.mem_toFinset]
  repeat' apply And.intro
  all_goals exact List.mem_map_of_mem (by decide)

/-- A buffer list 1 does not write keeps its contents. -/
theorem c1_keeps (W : Valuation τ sig (Elt F)) (r : Ref sig .tc) (hr : r ∉ w1) :
    after c1 W (no_index (Proc.devRef .tc r)) = W (Proc.devRef .tc r) :=
  after_of_writes_sub c1 W c1_writes hr

theorem c1_main_v11 (W : Valuation τ sig (Elt F)) :
    after c1 W (no_index (Proc.devRef .tc main_v11)) = val_main_v11 (F := F) (W (Proc.devRef .tc main_arg0)) := by
  unfold c1
  after_results_simp <;> rfl

theorem c1_main_v13 (W : Valuation τ sig (Elt F)) :
    after c1 W (no_index (Proc.devRef .tc main_v13)) = val_main_v13 (F := F) (W (Proc.devRef .tc main_arg0)) := by
  unfold c1
  after_results_simp <;> rfl

theorem c1_main_v15 (W : Valuation τ sig (Elt F)) :
    after c1 W (no_index (Proc.devRef .tc main_v15)) = val_main_v15 (F := F) (W (Proc.devRef .tc main_arg0)) := by
  unfold c1
  after_results_simp <;> rfl

theorem c1_main_v17 (W : Valuation τ sig (Elt F)) :
    after c1 W (no_index (Proc.devRef .tc main_v17)) = val_main_v17 (F := F) (W (Proc.devRef .tc main_arg0)) := by
  unfold c1
  after_results_simp <;> rfl

theorem c1_main_v19 (W : Valuation τ sig (Elt F)) :
    after c1 W (no_index (Proc.devRef .tc main_v19)) = val_main_v19 (F := F) (W (Proc.devRef .tc main_arg0)) := by
  unfold c1
  after_results_simp <;> rfl

/-- The buffers list 2's operations write. -/
def w2 : List (Ref sig .tc) := [main_v20, main_c_9, main_call10_v0, main_v21, main_v22, main_c_10, main_call11_v0, main_v23, main_v24, main_c_11, main_call12_v0, main_v25, main_v26, main_c_12, main_call13_v0, main_v27, main_v28, main_c_13, main_call14_v0, main_v29]

theorem c2_writes : (c2 : List (HloOp τ sig (Elt F))).Forall fun op =>
    op.writes ⊆ (w2.map (Proc.devRef (τ := τ) .tc)).toFinset := by
  unfold c2
  simp only [List.Forall, unary_writes, nullary_writes, binary_writes, Finset.singleton_subset_iff, List.mem_toFinset]
  repeat' apply And.intro
  all_goals exact List.mem_map_of_mem (by decide)

/-- A buffer list 2 does not write keeps its contents. -/
theorem c2_keeps (W : Valuation τ sig (Elt F)) (r : Ref sig .tc) (hr : r ∉ w2) :
    after c2 W (no_index (Proc.devRef .tc r)) = W (Proc.devRef .tc r) :=
  after_of_writes_sub c2 W c2_writes hr

theorem c2_main_v21 (W : Valuation τ sig (Elt F)) :
    after c2 W (no_index (Proc.devRef .tc main_v21)) = val_main_v21 (F := F) (W (Proc.devRef .tc main_arg0)) := by
  unfold c2
  after_results_simp <;> rfl

theorem c2_main_v23 (W : Valuation τ sig (Elt F)) :
    after c2 W (no_index (Proc.devRef .tc main_v23)) = val_main_v23 (F := F) (W (Proc.devRef .tc main_arg0)) := by
  unfold c2
  after_results_simp <;> rfl

theorem c2_main_v25 (W : Valuation τ sig (Elt F)) :
    after c2 W (no_index (Proc.devRef .tc main_v25)) = val_main_v25 (F := F) (W (Proc.devRef .tc main_arg0)) := by
  unfold c2
  after_results_simp <;> rfl

theorem c2_main_v27 (W : Valuation τ sig (Elt F)) :
    after c2 W (no_index (Proc.devRef .tc main_v27)) = val_main_v27 (F := F) (W (Proc.devRef .tc main_arg0)) := by
  unfold c2
  after_results_simp <;> rfl

theorem c2_main_v29 (W : Valuation τ sig (Elt F)) :
    after c2 W (no_index (Proc.devRef .tc main_v29)) = val_main_v29 (F := F) (W (Proc.devRef .tc main_arg0)) := by
  unfold c2
  after_results_simp <;> rfl

/-- The buffers list 3's operations write. -/
def w3 : List (Ref sig .tc) := [main_v30, main_c_14, main_call15_v0, main_v31, main_v32, main_c_15, main_call16_v0, main_v33, main_v34, main_c_16, main_call17_v0, main_v35, main_v36, main_c_17, main_call18_v0, main_v37, main_v38, main_c_18, main_call19_v0, main_v39]

theorem c3_writes : (c3 : List (HloOp τ sig (Elt F))).Forall fun op =>
    op.writes ⊆ (w3.map (Proc.devRef (τ := τ) .tc)).toFinset := by
  unfold c3
  simp only [List.Forall, unary_writes, nullary_writes, binary_writes, Finset.singleton_subset_iff, List.mem_toFinset]
  repeat' apply And.intro
  all_goals exact List.mem_map_of_mem (by decide)

/-- A buffer list 3 does not write keeps its contents. -/
theorem c3_keeps (W : Valuation τ sig (Elt F)) (r : Ref sig .tc) (hr : r ∉ w3) :
    after c3 W (no_index (Proc.devRef .tc r)) = W (Proc.devRef .tc r) :=
  after_of_writes_sub c3 W c3_writes hr

theorem c3_main_v31 (W : Valuation τ sig (Elt F)) :
    after c3 W (no_index (Proc.devRef .tc main_v31)) = val_main_v31 (F := F) (W (Proc.devRef .tc main_arg0)) := by
  unfold c3
  after_results_simp <;> rfl

theorem c3_main_v33 (W : Valuation τ sig (Elt F)) :
    after c3 W (no_index (Proc.devRef .tc main_v33)) = val_main_v33 (F := F) (W (Proc.devRef .tc main_arg0)) := by
  unfold c3
  after_results_simp <;> rfl

theorem c3_main_v35 (W : Valuation τ sig (Elt F)) :
    after c3 W (no_index (Proc.devRef .tc main_v35)) = val_main_v35 (F := F) (W (Proc.devRef .tc main_arg0)) := by
  unfold c3
  after_results_simp <;> rfl

theorem c3_main_v37 (W : Valuation τ sig (Elt F)) :
    after c3 W (no_index (Proc.devRef .tc main_v37)) = val_main_v37 (F := F) (W (Proc.devRef .tc main_arg0)) := by
  unfold c3
  after_results_simp <;> rfl

theorem c3_main_v39 (W : Valuation τ sig (Elt F)) :
    after c3 W (no_index (Proc.devRef .tc main_v39)) = val_main_v39 (F := F) (W (Proc.devRef .tc main_arg0)) := by
  unfold c3
  after_results_simp <;> rfl

/-- The buffers list 4's operations write. -/
def w4 : List (Ref sig .tc) := [main_v40, main_c_19, main_call20_v0, main_v41, main_v42, main_c_20, main_call21_v0, main_v43, main_v44, main_c_21, main_call22_v0, main_v45, main_v46, main_c_22, main_call23_v0, main_v47, main_v48, main_c_23, main_call24_v0, main_v49]

theorem c4_writes : (c4 : List (HloOp τ sig (Elt F))).Forall fun op =>
    op.writes ⊆ (w4.map (Proc.devRef (τ := τ) .tc)).toFinset := by
  unfold c4
  simp only [List.Forall, unary_writes, nullary_writes, binary_writes, Finset.singleton_subset_iff, List.mem_toFinset]
  repeat' apply And.intro
  all_goals exact List.mem_map_of_mem (by decide)

/-- A buffer list 4 does not write keeps its contents. -/
theorem c4_keeps (W : Valuation τ sig (Elt F)) (r : Ref sig .tc) (hr : r ∉ w4) :
    after c4 W (no_index (Proc.devRef .tc r)) = W (Proc.devRef .tc r) :=
  after_of_writes_sub c4 W c4_writes hr

theorem c4_main_v41 (W : Valuation τ sig (Elt F)) :
    after c4 W (no_index (Proc.devRef .tc main_v41)) = val_main_v41 (F := F) (W (Proc.devRef .tc main_arg0)) := by
  unfold c4
  after_results_simp <;> rfl

theorem c4_main_v43 (W : Valuation τ sig (Elt F)) :
    after c4 W (no_index (Proc.devRef .tc main_v43)) = val_main_v43 (F := F) (W (Proc.devRef .tc main_arg0)) := by
  unfold c4
  after_results_simp <;> rfl

theorem c4_main_v45 (W : Valuation τ sig (Elt F)) :
    after c4 W (no_index (Proc.devRef .tc main_v45)) = val_main_v45 (F := F) (W (Proc.devRef .tc main_arg0)) := by
  unfold c4
  after_results_simp <;> rfl

theorem c4_main_v47 (W : Valuation τ sig (Elt F)) :
    after c4 W (no_index (Proc.devRef .tc main_v47)) = val_main_v47 (F := F) (W (Proc.devRef .tc main_arg0)) := by
  unfold c4
  after_results_simp <;> rfl

theorem c4_main_v49 (W : Valuation τ sig (Elt F)) :
    after c4 W (no_index (Proc.devRef .tc main_v49)) = val_main_v49 (F := F) (W (Proc.devRef .tc main_arg0)) := by
  unfold c4
  after_results_simp <;> rfl

end Cert.ReferenceIdeal.Ops

end
-- ==== Proof.RefValsB.lean ====
/-
  What the reference's slice–pad lists 5 … 9 leave in the buffers, read off the contents `W` they start from: each pad
  buffer holds its stage of the signal (the time-shifted, zero-padded slice), as the function of the signal buffer's
  contents that the stage definitions name; and a buffer none of a list's operations writes keeps its contents.
-/
import proofs.«154770_j36764920054343_2_alg».proof.Proof.RefOps
import proofs.«154770_j36764920054343_2_alg».proof.Proof.RefRead

noncomputable section

namespace Cert.ReferenceIdeal.Ops

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The buffers list 5's operations write. -/
def w5 : List (Ref sig .tc) := [main_v50, main_c_24, main_call25_v0, main_v51, main_v52, main_c_25, main_call26_v0, main_v53, main_v54, main_c_26, main_call27_v0, main_v55, main_v56, main_c_27, main_call28_v0, main_v57, main_v58, main_c_28, main_call29_v0, main_v59]

theorem c5_writes : (c5 : List (HloOp τ sig (Elt F))).Forall fun op =>
    op.writes ⊆ (w5.map (Proc.devRef (τ := τ) .tc)).toFinset := by
  unfold c5
  simp only [List.Forall, unary_writes, nullary_writes, binary_writes, Finset.singleton_subset_iff, List.mem_toFinset]
  repeat' apply And.intro
  all_goals exact List.mem_map_of_mem (by decide)

/-- A buffer list 5 does not write keeps its contents. -/
theorem c5_keeps (W : Valuation τ sig (Elt F)) (r : Ref sig .tc) (hr : r ∉ w5) :
    after c5 W (no_index (Proc.devRef .tc r)) = W (Proc.devRef .tc r) :=
  after_of_writes_sub c5 W c5_writes hr

theorem c5_main_v51 (W : Valuation τ sig (Elt F)) :
    after c5 W (no_index (Proc.devRef .tc main_v51)) = val_main_v51 (F := F) (W (Proc.devRef .tc main_arg0)) := by
  unfold c5
  after_results_simp <;> rfl

theorem c5_main_v53 (W : Valuation τ sig (Elt F)) :
    after c5 W (no_index (Proc.devRef .tc main_v53)) = val_main_v53 (F := F) (W (Proc.devRef .tc main_arg0)) := by
  unfold c5
  after_results_simp <;> rfl

theorem c5_main_v55 (W : Valuation τ sig (Elt F)) :
    after c5 W (no_index (Proc.devRef .tc main_v55)) = val_main_v55 (F := F) (W (Proc.devRef .tc main_arg0)) := by
  unfold c5
  after_results_simp <;> rfl

theorem c5_main_v57 (W : Valuation τ sig (Elt F)) :
    after c5 W (no_index (Proc.devRef .tc main_v57)) = val_main_v57 (F := F) (W (Proc.devRef .tc main_arg0)) := by
  unfold c5
  after_results_simp <;> rfl

theorem c5_main_v59 (W : Valuation τ sig (Elt F)) :
    after c5 W (no_index (Proc.devRef .tc main_v59)) = val_main_v59 (F := F) (W (Proc.devRef .tc main_arg0)) := by
  unfold c5
  after_results_simp <;> rfl

/-- The buffers list 6's operations write. -/
def w6 : List (Ref sig .tc) := [main_v60, main_c_29, main_call30_v0, main_v61, main_v62, main_c_30, main_call31_v0, main_v63, main_v64, main_c_31, main_call32_v0, main_v65, main_v66, main_c_32, main_call33_v0, main_v67, main_v68, main_c_33, main_call34_v0, main_v69]

theorem c6_writes : (c6 : List (HloOp τ sig (Elt F))).Forall fun op =>
    op.writes ⊆ (w6.map (Proc.devRef (τ := τ) .tc)).toFinset := by
  unfold c6
  simp only [List.Forall, unary_writes, nullary_writes, binary_writes, Finset.singleton_subset_iff, List.mem_toFinset]
  repeat' apply And.intro
  all_goals exact List.mem_map_of_mem (by decide)

/-- A buffer list 6 does not write keeps its contents. -/
theorem c6_keeps (W : Valuation τ sig (Elt F)) (r : Ref sig .tc) (hr : r ∉ w6) :
    after c6 W (no_index (Proc.devRef .tc r)) = W (Proc.devRef .tc r) :=
  after_of_writes_sub c6 W c6_writes hr

theorem c6_main_v61 (W : Valuation τ sig (Elt F)) :
    after c6 W (no_index (Proc.devRef .tc main_v61)) = val_main_v61 (F := F) (W (Proc.devRef .tc main_arg0)) := by
  unfold c6
  after_results_simp <;> rfl

theorem c6_main_v63 (W : Valuation τ sig (Elt F)) :
    after c6 W (no_index (Proc.devRef .tc main_v63)) = val_main_v63 (F := F) (W (Proc.devRef .tc main_arg0)) := by
  unfold c6
  after_results_simp <;> rfl

theorem c6_main_v65 (W : Valuation τ sig (Elt F)) :
    after c6 W (no_index (Proc.devRef .tc main_v65)) = val_main_v65 (F := F) (W (Proc.devRef .tc main_arg0)) := by
  unfold c6
  after_results_simp <;> rfl

theorem c6_main_v67 (W : Valuation τ sig (Elt F)) :
    after c6 W (no_index (Proc.devRef .tc main_v67)) = val_main_v67 (F := F) (W (Proc.devRef .tc main_arg0)) := by
  unfold c6
  after_results_simp <;> rfl

theorem c6_main_v69 (W : Valuation τ sig (Elt F)) :
    after c6 W (no_index (Proc.devRef .tc main_v69)) = val_main_v69 (F := F) (W (Proc.devRef .tc main_arg0)) := by
  unfold c6
  after_results_simp <;> rfl

/-- The buffers list 7's operations write. -/
def w7 : List (Ref sig .tc) := [main_v70, main_c_34, main_call35_v0, main_v71, main_v72, main_c_35, main_call36_v0, main_v73, main_v74, main_c_36, main_call37_v0, main_v75, main_v76, main_c_37, main_call38_v0, main_v77, main_v78, main_c_38, main_call39_v0, main_v79]

theorem c7_writes : (c7 : List (HloOp τ sig (Elt F))).Forall fun op =>
    op.writes ⊆ (w7.map (Proc.devRef (τ := τ) .tc)).toFinset := by
  unfold c7
  simp only [List.Forall, unary_writes, nullary_writes, binary_writes, Finset.singleton_subset_iff, List.mem_toFinset]
  repeat' apply And.intro
  all_goals exact List.mem_map_of_mem (by decide)

/-- A buffer list 7 does not write keeps its contents. -/
theorem c7_keeps (W : Valuation τ sig (Elt F)) (r : Ref sig .tc) (hr : r ∉ w7) :
    after c7 W (no_index (Proc.devRef .tc r)) = W (Proc.devRef .tc r) :=
  after_of_writes_sub c7 W c7_writes hr

theorem c7_main_v71 (W : Valuation τ sig (Elt F)) :
    after c7 W (no_index (Proc.devRef .tc main_v71)) = val_main_v71 (F := F) (W (Proc.devRef .tc main_arg0)) := by
  unfold c7
  after_results_simp <;> rfl

theorem c7_main_v73 (W : Valuation τ sig (Elt F)) :
    after c7 W (no_index (Proc.devRef .tc main_v73)) = val_main_v73 (F := F) (W (Proc.devRef .tc main_arg0)) := by
  unfold c7
  after_results_simp <;> rfl

theorem c7_main_v75 (W : Valuation τ sig (Elt F)) :
    after c7 W (no_index (Proc.devRef .tc main_v75)) = val_main_v75 (F := F) (W (Proc.devRef .tc main_arg0)) := by
  unfold c7
  after_results_simp <;> rfl

theorem c7_main_v77 (W : Valuation τ sig (Elt F)) :
    after c7 W (no_index (Proc.devRef .tc main_v77)) = val_main_v77 (F := F) (W (Proc.devRef .tc main_arg0)) := by
  unfold c7
  after_results_simp <;> rfl

theorem c7_main_v79 (W : Valuation τ sig (Elt F)) :
    after c7 W (no_index (Proc.devRef .tc main_v79)) = val_main_v79 (F := F) (W (Proc.devRef .tc main_arg0)) := by
  unfold c7
  after_results_simp <;> rfl

/-- The buffers list 8's operations write. -/
def w8 : List (Ref sig .tc) := [main_v80, main_c_39, main_call40_v0, main_v81, main_v82, main_c_40, main_call41_v0, main_v83, main_v84, main_c_41, main_call42_v0, main_v85, main_v86, main_c_42, main_call43_v0, main_v87, main_v88, main_c_43, main_call44_v0, main_v89]

theorem c8_writes : (c8 : List (HloOp τ sig (Elt F))).Forall fun op =>
    op.writes ⊆ (w8.map (Proc.devRef (τ := τ) .tc)).toFinset := by
  unfold c8
  simp only [List.Forall, unary_writes, nullary_writes, binary_writes, Finset.singleton_subset_iff, List.mem_toFinset]
  repeat' apply And.intro
  all_goals exact List.mem_map_of_mem (by decide)

/-- A buffer list 8 does not write keeps its contents. -/
theorem c8_keeps (W : Valuation τ sig (Elt F)) (r : Ref sig .tc) (hr : r ∉ w8) :
    after c8 W (no_index (Proc.devRef .tc r)) = W (Proc.devRef .tc r) :=
  after_of_writes_sub c8 W c8_writes hr

theorem c8_main_v81 (W : Valuation τ sig (Elt F)) :
    after c8 W (no_index (Proc.devRef .tc main_v81)) = val_main_v81 (F := F) (W (Proc.devRef .tc main_arg0)) := by
  unfold c8
  after_results_simp <;> rfl

theorem c8_main_v83 (W : Valuation τ sig (Elt F)) :
    after c8 W (no_index (Proc.devRef .tc main_v83)) = val_main_v83 (F := F) (W (Proc.devRef .tc main_arg0)) := by
  unfold c8
  after_results_simp <;> rfl

theorem c8_main_v85 (W : Valuation τ sig (Elt F)) :
    after c8 W (no_index (Proc.devRef .tc main_v85)) = val_main_v85 (F := F) (W (Proc.devRef .tc main_arg0)) := by
  unfold c8
  after_results_simp <;> rfl

theorem c8_main_v87 (W : Valuation τ sig (Elt F)) :
    after c8 W (no_index (Proc.devRef .tc main_v87)) = val_main_v87 (F := F) (W (Proc.devRef .tc main_arg0)) := by
  unfold c8
  after_results_simp <;> rfl

theorem c8_main_v89 (W : Valuation τ sig (Elt F)) :
    after c8 W (no_index (Proc.devRef .tc main_v89)) = val_main_v89 (F := F) (W (Proc.devRef .tc main_arg0)) := by
  unfold c8
  after_results_simp <;> rfl

/-- The buffers list 9's operations write. -/
def w9 : List (Ref sig .tc) := [main_v90, main_c_44, main_call45_v0, main_v91, main_v92, main_c_45, main_call46_v0, main_v93, main_v94, main_c_46, main_call47_v0, main_v95, main_v96, main_c_47, main_call48_v0, main_v97, main_v98, main_c_48, main_call49_v0, main_v99]

theorem c9_writes : (c9 : List (HloOp τ sig (Elt F))).Forall fun op =>
    op.writes ⊆ (w9.map (Proc.devRef (τ := τ) .tc)).toFinset := by
  unfold c9
  simp only [List.Forall, unary_writes, nullary_writes, binary_writes, Finset.singleton_subset_iff, List.mem_toFinset]
  repeat' apply And.intro
  all_goals exact List.mem_map_of_mem (by decide)

/-- A buffer list 9 does not write keeps its contents. -/
theorem c9_keeps (W : Valuation τ sig (Elt F)) (r : Ref sig .tc) (hr : r ∉ w9) :
    after c9 W (no_index (Proc.devRef .tc r)) = W (Proc.devRef .tc r) :=
  after_of_writes_sub c9 W c9_writes hr

theorem c9_main_v91 (W : Valuation τ sig (Elt F)) :
    after c9 W (no_index (Proc.devRef .tc main_v91)) = val_main_v91 (F := F) (W (Proc.devRef .tc main_arg0)) := by
  unfold c9
  after_results_simp <;> rfl

theorem c9_main_v93 (W : Valuation τ sig (Elt F)) :
    after c9 W (no_index (Proc.devRef .tc main_v93)) = val_main_v93 (F := F) (W (Proc.devRef .tc main_arg0)) := by
  unfold c9
  after_results_simp <;> rfl

theorem c9_main_v95 (W : Valuation τ sig (Elt F)) :
    after c9 W (no_index (Proc.devRef .tc main_v95)) = val_main_v95 (F := F) (W (Proc.devRef .tc main_arg0)) := by
  unfold c9
  after_results_simp <;> rfl

theorem c9_main_v97 (W : Valuation τ sig (Elt F)) :
    after c9 W (no_index (Proc.devRef .tc main_v97)) = val_main_v97 (F := F) (W (Proc.devRef .tc main_arg0)) := by
  unfold c9
  after_results_simp <;> rfl

theorem c9_main_v99 (W : Valuation τ sig (Elt F)) :
    after c9 W (no_index (Proc.devRef .tc main_v99)) = val_main_v99 (F := F) (W (Proc.devRef .tc main_arg0)) := by
  unfold c9
  after_results_simp <;> rfl

end Cert.ReferenceIdeal.Ops

end
-- ==== Proof.RefRun.lean ====
/-
  The reference's run, read back: every weakly fair execution of the reference's @main terminates with the result buffer
  at the last stage (the sum of the contraction and the broadcast bias) of the argument buffers' launch contents, the
  arguments unchanged.

  The contents after the joined list are those after its last part from the contents after the parts before it. The last
  part's nine operations give the result as the stage functions of the 50 pad buffers and the three arguments; each pad
  buffer keeps its contents through the lists after the one that writes it, where it holds its stage of the signal
  buffer; and no operation writes an argument.
-/
import proofs.«154770_j36764920054343_2_alg».proof.Proof.RefValsA
import proofs.«154770_j36764920054343_2_alg».proof.Proof.RefValsB

noncomputable section

namespace Cert.ReferenceIdeal.Ops

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The buffers the last nine operations write. -/
def wTail : List (Ref sig .tc) := [main_v100, main_v101, main_v102, main_v103, main_v104, main_v105, main_v106, main_v107, main_v108]

theorem tail_writes : (tail : List (HloOp τ sig (Elt F))).Forall fun op =>
    op.writes ⊆ (wTail.map (Proc.devRef (τ := τ) .tc)).toFinset := by
  unfold tail
  simp only [List.Forall, unary_writes, binary_writes, nary_writes, Finset.singleton_subset_iff, List.mem_toFinset]
  repeat' apply And.intro
  all_goals exact List.mem_map_of_mem (by decide)

theorem tail_keeps (W : Valuation τ sig (Elt F)) (r : Ref sig .tc) (hr : r ∉ wTail) :
    after tail W (no_index (Proc.devRef .tc r)) = W (Proc.devRef .tc r) :=
  after_of_writes_sub tail W tail_writes hr

/-- The 51 copies joined along the channel axis, as the reference joins them: three groups of 16 and one of 3, then the
    four groups. -/
def joinAll (a0 : S16x2048x64.Idx → Elt F .f32) (a1 : S16x2048x64.Idx → Elt F .f32) (a2 : S16x2048x64.Idx → Elt F .f32) (a3 : S16x2048x64.Idx → Elt F .f32) (a4 : S16x2048x64.Idx → Elt F .f32) (a5 : S16x2048x64.Idx → Elt F .f32) (a6 : S16x2048x64.Idx → Elt F .f32) (a7 : S16x2048x64.Idx → Elt F .f32) (a8 : S16x2048x64.Idx → Elt F .f32) (a9 : S16x2048x64.Idx → Elt F .f32) (a10 : S16x2048x64.Idx → Elt F .f32) (a11 : S16x2048x64.Idx → Elt F .f32) (a12 : S16x2048x64.Idx → Elt F .f32) (a13 : S16x2048x64.Idx → Elt F .f32) (a14 : S16x2048x64.Idx → Elt F .f32) (a15 : S16x2048x64.Idx → Elt F .f32) (a16 : S16x2048x64.Idx → Elt F .f32) (a17 : S16x2048x64.Idx → Elt F .f32) (a18 : S16x2048x64.Idx → Elt F .f32) (a19 : S16x2048x64.Idx → Elt F .f32) (a20 : S16x2048x64.Idx → Elt F .f32) (a21 : S16x2048x64.Idx → Elt F .f32) (a22 : S16x2048x64.Idx → Elt F .f32) (a23 : S16x2048x64.Idx → Elt F .f32) (a24 : S16x2048x64.Idx → Elt F .f32) (a25 : S16x2048x64.Idx → Elt F .f32) (a26 : S16x2048x64.Idx → Elt F .f32) (a27 : S16x2048x64.Idx → Elt F .f32) (a28 : S16x2048x64.Idx → Elt F .f32) (a29 : S16x2048x64.Idx → Elt F .f32) (a30 : S16x2048x64.Idx → Elt F .f32) (a31 : S16x2048x64.Idx → Elt F .f32) (a32 : S16x2048x64.Idx → Elt F .f32) (a33 : S16x2048x64.Idx → Elt F .f32) (a34 : S16x2048x64.Idx → Elt F .f32) (a35 : S16x2048x64.Idx → Elt F .f32) (a36 : S16x2048x64.Idx → Elt F .f32) (a37 : S16x2048x64.Idx → Elt F .f32) (a38 : S16x2048x64.Idx → Elt F .f32) (a39 : S16x2048x64.Idx → Elt F .f32) (a40 : S16x2048x64.Idx → Elt F .f32) (a41 : S16x2048x64.Idx → Elt F .f32) (a42 : S16x2048x64.Idx → Elt F .f32) (a43 : S16x2048x64.Idx → Elt F .f32) (a44 : S16x2048x64.Idx → Elt F .f32) (a45 : S16x2048x64.Idx → Elt F .f32) (a46 : S16x2048x64.Idx → Elt F .f32) (a47 : S16x2048x64.Idx → Elt F .f32) (a48 : S16x2048x64.Idx → Elt F .f32) (a49 : S16x2048x64.Idx → Elt F .f32) (a50 : S16x2048x64.Idx → Elt F .f32) : S16x2048x3264.Idx → Elt F .f32 :=
  concatenate S16x2048x3264 2
    [⟨S16x2048x1024, concatenate S16x2048x1024 2 [⟨S16x2048x64, a0⟩, ⟨S16x2048x64, a1⟩, ⟨S16x2048x64, a2⟩, ⟨S16x2048x64, a3⟩, ⟨S16x2048x64, a4⟩, ⟨S16x2048x64, a5⟩, ⟨S16x2048x64, a6⟩, ⟨S16x2048x64, a7⟩, ⟨S16x2048x64, a8⟩, ⟨S16x2048x64, a9⟩, ⟨S16x2048x64, a10⟩, ⟨S16x2048x64, a11⟩, ⟨S16x2048x64, a12⟩, ⟨S16x2048x64, a13⟩, ⟨S16x2048x64, a14⟩, ⟨S16x2048x64, a15⟩] concatenates_S16x2048x64_S16x2048x64_S16x2048x64_S16x2048x64_S16x2048x64_S16x2048x64_S16x2048x64_S16x2048x64_S16x2048x64_S16x2048x64_S16x2048x64_S16x2048x64_S16x2048x64_S16x2048x64_S16x2048x64_S16x2048x64_S16x2048x1024_d2⟩,
     ⟨S16x2048x1024, concatenate S16x2048x1024 2 [⟨S16x2048x64, a16⟩, ⟨S16x2048x64, a17⟩, ⟨S16x2048x64, a18⟩, ⟨S16x2048x64, a19⟩, ⟨S16x2048x64, a20⟩, ⟨S16x2048x64, a21⟩, ⟨S16x2048x64, a22⟩, ⟨S16x2048x64, a23⟩, ⟨S16x2048x64, a24⟩, ⟨S16x2048x64, a25⟩, ⟨S16x2048x64, a26⟩, ⟨S16x2048x64, a27⟩, ⟨S16x2048x64, a28⟩, ⟨S16x2048x64, a29⟩, ⟨S16x2048x64, a30⟩, ⟨S16x2048x64, a31⟩] concatenates_S16x2048x64_S16x2048x64_S16x2048x64_S16x2048x64_S16x2048x64_S16x2048x64_S16x2048x64_S16x2048x64_S16x2048x64_S16x2048x64_S16x2048x64_S16x2048x64_S16x2048x64_S16x2048x64_S16x2048x64_S16x2048x64_S16x2048x1024_d2⟩,
     ⟨S16x2048x1024, concatenate S16x2048x1024 2 [⟨S16x2048x64, a32⟩, ⟨S16x2048x64, a33⟩, ⟨S16x2048x64, a34⟩, ⟨S16x2048x64, a35⟩, ⟨S16x2048x64, a36⟩, ⟨S16x2048x64, a37⟩, ⟨S16x2048x64, a38⟩, ⟨S16x2048x64, a39⟩, ⟨S16x2048x64, a40⟩, ⟨S16x2048x64, a41⟩, ⟨S16x2048x64, a42⟩, ⟨S16x2048x64, a43⟩, ⟨S16x2048x64, a44⟩, ⟨S16x2048x64, a45⟩, ⟨S16x2048x64, a46⟩, ⟨S16x2048x64, a47⟩] concatenates_S16x2048x64_S16x2048x64_S16x2048x64_S16x2048x64_S16x2048x64_S16x2048x64_S16x2048x64_S16x2048x64_S16x2048x64_S16x2048x64_S16x2048x64_S16x2048x64_S16x2048x64_S16x2048x64_S16x2048x64_S16x2048x64_S16x2048x1024_d2⟩,
     ⟨S16x2048x192, concatenate S16x2048x192 2 [⟨S16x2048x64, a48⟩, ⟨S16x2048x64, a49⟩, ⟨S16x2048x64, a50⟩] concatenates_S16x2048x64_S16x2048x64_S16x2048x64_S16x2048x192_d2⟩]
    concatenates_S16x2048x1024_S16x2048x1024_S16x2048x1024_S16x2048x192_S16x2048x3264_d2

set_option maxRecDepth 8192 in
set_option maxHeartbeats 1000000 in
/-- The last nine operations give the result as the contraction of the joined pad buffers with the weights, plus the
    broadcast bias: each operand read where the operations find it. -/
theorem tail_result (W : Valuation τ sig (Elt F)) :
    after tail W (Proc.devRef .tc main_v108)
      = addf (Host.dotGeneral dot_S16x2048x3264_S128x3264_S16x2048x128_2_1_01_0_n_n none
          (joinAll (W (Proc.devRef .tc main_v1)) (W (Proc.devRef .tc main_v3)) (W (Proc.devRef .tc main_v5)) (W (Proc.devRef .tc main_v7)) (W (Proc.devRef .tc main_v9)) (W (Proc.devRef .tc main_v11)) (W (Proc.devRef .tc main_v13)) (W (Proc.devRef .tc main_v15)) (W (Proc.devRef .tc main_v17)) (W (Proc.devRef .tc main_v19)) (W (Proc.devRef .tc main_arg0)) (W (Proc.devRef .tc main_v21)) (W (Proc.devRef .tc main_v23)) (W (Proc.devRef .tc main_v25)) (W (Proc.devRef .tc main_v27)) (W (Proc.devRef .tc main_v29)) (W (Proc.devRef .tc main_v31)) (W (Proc.devRef .tc main_v33)) (W (Proc.devRef .tc main_v35)) (W (Proc.devRef .tc main_v37)) (W (Proc.devRef .tc main_v39)) (W (Proc.devRef .tc main_v41)) (W (Proc.devRef .tc main_v43)) (W (Proc.devRef .tc main_v45)) (W (Proc.devRef .tc main_v47)) (W (Proc.devRef .tc main_v49)) (W (Proc.devRef .tc main_v51)) (W (Proc.devRef .tc main_v53)) (W (Proc.devRef .tc main_v55)) (W (Proc.devRef .tc main_v57)) (W (Proc.devRef .tc main_v59)) (W (Proc.devRef .tc main_v61)) (W (Proc.devRef .tc main_v63)) (W (Proc.devRef .tc main_v65)) (W (Proc.devRef .tc main_v67)) (W (Proc.devRef .tc main_v69)) (W (Proc.devRef .tc main_v71)) (W (Proc.devRef .tc main_v73)) (W (Proc.devRef .tc main_v75)) (W (Proc.devRef .tc main_v77)) (W (Proc.devRef .tc main_v79)) (W (Proc.devRef .tc main_v81)) (W (Proc.devRef .tc main_v83)) (W (Proc.devRef .tc main_v85)) (W (Proc.devRef .tc main_v87)) (W (Proc.devRef .tc main_v89)) (W (Proc.devRef .tc main_v91)) (W (Proc.devRef .tc main_v93)) (W (Proc.devRef .tc main_v95)) (W (Proc.devRef .tc main_v97)) (W (Proc.devRef .tc main_v99))) (W (Proc.devRef .tc main_arg1)))
          (broadcastInDim S16x2048x128 ![0, 1, 2] bcast_S1x1x128_S16x2048x128_0_1_2
            (broadcastInDim S1x1x128 ![2] bcast_S128_S1x1x128_2 (W (Proc.devRef .tc main_arg2)))) := by
  unfold tail joinAll
  after_results_simp
  rfl

/-- The join of the 51 stages of a signal is the stage the reference contracts. -/
theorem join_stages (x0 : (⟨S16x2048x64, .f32⟩ : BufTy).Contents (Elt F)) :
    joinAll (val_main_v1 (F := F) x0) (val_main_v3 (F := F) x0) (val_main_v5 (F := F) x0) (val_main_v7 (F := F) x0) (val_main_v9 (F := F) x0) (val_main_v11 (F := F) x0) (val_main_v13 (F := F) x0) (val_main_v15 (F := F) x0) (val_main_v17 (F := F) x0) (val_main_v19 (F := F) x0) x0 (val_main_v21 (F := F) x0) (val_main_v23 (F := F) x0) (val_main_v25 (F := F) x0) (val_main_v27 (F := F) x0) (val_main_v29 (F := F) x0) (val_main_v31 (F := F) x0) (val_main_v33 (F := F) x0) (val_main_v35 (F := F) x0) (val_main_v37 (F := F) x0) (val_main_v39 (F := F) x0) (val_main_v41 (F := F) x0) (val_main_v43 (F := F) x0) (val_main_v45 (F := F) x0) (val_main_v47 (F := F) x0) (val_main_v49 (F := F) x0) (val_main_v51 (F := F) x0) (val_main_v53 (F := F) x0) (val_main_v55 (F := F) x0) (val_main_v57 (F := F) x0) (val_main_v59 (F := F) x0) (val_main_v61 (F := F) x0) (val_main_v63 (F := F) x0) (val_main_v65 (F := F) x0) (val_main_v67 (F := F) x0) (val_main_v69 (F := F) x0) (val_main_v71 (F := F) x0) (val_main_v73 (F := F) x0) (val_main_v75 (F := F) x0) (val_main_v77 (F := F) x0) (val_main_v79 (F := F) x0) (val_main_v81 (F := F) x0) (val_main_v83 (F := F) x0) (val_main_v85 (F := F) x0) (val_main_v87 (F := F) x0) (val_main_v89 (F := F) x0) (val_main_v91 (F := F) x0) (val_main_v93 (F := F) x0) (val_main_v95 (F := F) x0) (val_main_v97 (F := F) x0) (val_main_v99 (F := F) x0) = val_main_v104 (F := F) x0 := rfl

set_option maxRecDepth 8192 in
set_option maxHeartbeats 2000000 in
/-- The result buffer after all operations is the last stage of the arguments' contents before them. -/
theorem after_ops_result (V : Valuation τ sig (Elt F)) :
    after ops V (Proc.devRef .tc main_v108)
      = val_main_v108 (F := F) (V (Proc.devRef .tc main_arg0)) (V (Proc.devRef .tc main_arg1)) (V (Proc.devRef .tc main_arg2)) := by
  unfold ops
  simp only [after_append]
  rw [tail_result]
  simp (disch := decide) only [c0_keeps, c1_keeps, c2_keeps, c3_keeps, c4_keeps, c5_keeps, c6_keeps, c7_keeps, c8_keeps, c9_keeps,
    c0_main_v1, c0_main_v3, c0_main_v5, c0_main_v7, c0_main_v9, c1_main_v11, c1_main_v13, c1_main_v15, c1_main_v17, c1_main_v19, c2_main_v21, c2_main_v23, c2_main_v25, c2_main_v27, c2_main_v29, c3_main_v31, c3_main_v33, c3_main_v35, c3_main_v37, c3_main_v39, c4_main_v41, c4_main_v43, c4_main_v45, c4_main_v47, c4_main_v49, c5_main_v51, c5_main_v53, c5_main_v55, c5_main_v57, c5_main_v59, c6_main_v61, c6_main_v63, c6_main_v65, c6_main_v67, c6_main_v69, c7_main_v71, c7_main_v73, c7_main_v75, c7_main_v77, c7_main_v79, c8_main_v81, c8_main_v83, c8_main_v85, c8_main_v87, c8_main_v89, c9_main_v91, c9_main_v93, c9_main_v95, c9_main_v97, c9_main_v99]
  rw [join_stages]
  rfl

/-- An argument buffer after all operations is as before them. -/
theorem after_ops_arg (V : Valuation τ sig (Elt F)) (r : Ref sig .tc)
    (h0 : r ∉ w0) (h1 : r ∉ w1) (h2 : r ∉ w2) (h3 : r ∉ w3) (h4 : r ∉ w4) (h5 : r ∉ w5) (h6 : r ∉ w6) (h7 : r ∉ w7)
    (h8 : r ∉ w8) (h9 : r ∉ w9) (ht : r ∉ wTail) :
    after ops V (Proc.devRef .tc r) = V (Proc.devRef .tc r) := by
  unfold ops
  simp only [after_append]
  rw [tail_keeps _ r ht, c9_keeps _ r h9, c8_keeps _ r h8, c7_keeps _ r h7, c6_keeps _ r h6, c5_keeps _ r h5, c4_keeps _ r h4,
    c3_keeps _ r h3, c2_keeps _ r h2, c1_keeps _ r h1, c0_keeps _ r h0]

/-- On every device, from any memory with zero counters: every weakly fair execution of @main terminates with the result
    at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v108)
          = val_main_v108 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v108).trans (after_ops_result _),
      (h c main_arg0).trans (after_ops_arg _ main_arg0 (by decide) (by decide) (by decide) (by decide) (by decide) (by decide) (by decide) (by decide) (by decide) (by decide) (by decide)),
      (h c main_arg1).trans (after_ops_arg _ main_arg1 (by decide) (by decide) (by decide) (by decide) (by decide) (by decide) (by decide) (by decide) (by decide) (by decide) (by decide)),
      (h c main_arg2).trans (after_ops_arg _ main_arg2 (by decide) (by decide) (by decide) (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.Ops

end
-- ==== Proof.RefLag.lean ====
/-
  The reference's result as the specification.

  The reference builds the lagged signal from 50 time-shifted, zero-padded copies of the signal and the signal itself:
  for a negative lag it cuts the first `n` times off and pads `n` zero times after (lag positions 0 … 9, `n = 10 - l`);
  for a positive lag it cuts the last `n` times off and pads `n` zero times before (lag positions 11 … 50, `n = l - 10`);
  lag position 10 is the signal. Read at an index, each copy is the specification's lagged signal at its position. The 51
  copies are joined along the channel axis in four groups (16, 16, 16 and 3 copies) and the groups joined in turn, so column
  `k` of the joined array is channel `k mod 64` of copy `k / 64`: the specification's lagged column. The contraction with
  the weights and the broadcast bias then give the specification's result.
-/
import proofs.«154770_j36764920054343_2_alg».proof.Proof.RefRead
import proofs.«154770_j36764920054343_2_alg».proof.Proof.Spec
import Idealize.ShloMosaic.Lib.KernelVsHost

noncomputable section

namespace Cert.ReferenceIdeal.Lag

open Cert.ReferenceIdeal Cert.ReferenceIdeal.Gen Cert.ReferenceIdeal.Read Idealize.ShloMosaic Idealize.ShloMosaic.TcCoe Idealize.SL.Sem
open Idealize.ShloMosaic.ValueIdx
open Cert.LagSpec (lagv lagcol)

/-! ## A time-shifted, zero-padded copy read at an index -/

/-- The first `n` times cut off and `n` padding times appended: time `t` reads time `t + n` while that is a time of the
    signal, and the padding value after. -/
theorem pad_high_apply (mm n : ℕ) (x : S16x2048x64.Idx → EReal)
    (hs : S16x2048x64.Slices ![0, n, 0] (⟨3, ![16, mm, 64]⟩ : Shape)) {u : Shape} (v : u.Idx → EReal)
    (hp : (⟨3, ![16, mm, 64]⟩ : Shape).Pads ![0, 0, 0] ![0, n, 0] ![0, 0, 0] S16x2048x64) (hu : 0 < u.numel)
    (hmn : mm + n = 2048) (b : Fin 16) (t : Fin 2048) (d : Fin 64) :
    pad S16x2048x64 ![0, 0, 0] ![0, n, 0] ![0, 0, 0] (extractStridedSlice (⟨3, ![16, mm, 64]⟩ : Shape) ![0, n, 0] x hs) v hp hu (ix3 b t d)
      = if h : t.val + n < 2048 then x (ix3 b ⟨t.val + n, h⟩ d) else v (Shape.Idx.first hu) := by
  by_cases h : t.val + n < 2048
  · rw [dif_pos h]
    have htm : t.val < mm := by omega
    refine (pad_apply_of_inside ![0, 0, 0] ![0, n, 0] ![0, 0, 0] _ v hp hu (ix3 b t d) (ix3 b (⟨t.val, htm⟩ : Fin mm) d) (fun a => ?_)).trans ?_
    · match a with
      | ⟨0, _⟩ => show b.val = 0 + b.val * (0 + 1); omega
      | ⟨1, _⟩ => show t.val = 0 + t.val * (0 + 1); omega
      | ⟨2, _⟩ => show d.val = 0 + d.val * (0 + 1); omega
    · exact extractStridedSlice_apply ![0, n, 0] x hs (ix3 b (⟨t.val, htm⟩ : Fin mm) d) (ix3 b ⟨t.val + n, h⟩ d) (fun a => by
        match a with
        | ⟨0, _⟩ => show b.val = 0 + b.val; omega
        | ⟨1, _⟩ => show t.val + n = n + t.val; omega
        | ⟨2, _⟩ => show d.val = 0 + d.val; omega)
  · rw [dif_neg h]
    refine pad_apply_of_not_inside (s := (⟨3, ![16, mm, 64]⟩ : Shape)) ![0, 0, 0] ![0, n, 0] ![0, 0, 0] _ v hp hu (ix3 b t d) (1 : Fin 3) (fun hc => ?_)
    have h3 : (t.val - 0) / (0 + 1) < mm := hc.2.2
    simp only [Nat.sub_zero, Nat.zero_add, Nat.div_one] at h3
    omega

/-- The last `n` times cut off and `n` padding times put in front: time `t` reads time `t - n` from time `n` on, and the
    padding value before. -/
theorem pad_low_apply (mm n : ℕ) (x : S16x2048x64.Idx → EReal)
    (hs : S16x2048x64.Slices ![0, 0, 0] (⟨3, ![16, mm, 64]⟩ : Shape)) {u : Shape} (v : u.Idx → EReal)
    (hp : (⟨3, ![16, mm, 64]⟩ : Shape).Pads ![0, n, 0] ![0, 0, 0] ![0, 0, 0] S16x2048x64) (hu : 0 < u.numel)
    (hmn : mm + n = 2048) (b : Fin 16) (t : Fin 2048) (d : Fin 64) :
    pad S16x2048x64 ![0, n, 0] ![0, 0, 0] ![0, 0, 0] (extractStridedSlice (⟨3, ![16, mm, 64]⟩ : Shape) ![0, 0, 0] x hs) v hp hu (ix3 b t d)
      = if h : n ≤ t.val then x (ix3 b ⟨t.val - n, by have := t.isLt; omega⟩ d) else v (Shape.Idx.first hu) := by
  have ht := t.isLt
  by_cases h : n ≤ t.val
  · rw [dif_pos h]
    have htm : t.val - n < mm := by omega
    refine (pad_apply_of_inside ![0, n, 0] ![0, 0, 0] ![0, 0, 0] _ v hp hu (ix3 b t d) (ix3 b (⟨t.val - n, htm⟩ : Fin mm) d) (fun a => ?_)).trans ?_
    · match a with
      | ⟨0, _⟩ => show b.val = 0 + b.val * (0 + 1); omega
      | ⟨1, _⟩ => show t.val = n + (t.val - n) * (0 + 1); omega
      | ⟨2, _⟩ => show d.val = 0 + d.val * (0 + 1); omega
    · exact extractStridedSlice_apply ![0, 0, 0] x hs (ix3 b (⟨t.val - n, htm⟩ : Fin mm) d) (ix3 b ⟨t.val - n, by omega⟩ d) (fun a => by
        match a with
        | ⟨0, _⟩ => show b.val = 0 + b.val; omega
        | ⟨1, _⟩ => show t.val - n = 0 + (t.val - n); omega
        | ⟨2, _⟩ => show d.val = 0 + d.val; omega)
  · rw [dif_neg h]
    refine pad_apply_of_not_inside (s := (⟨3, ![16, mm, 64]⟩ : Shape)) ![0, n, 0] ![0, 0, 0] ![0, 0, 0] _ v hp hu (ix3 b t d) (1 : Fin 3) (fun hc => ?_)
    have h1 : n ≤ t.val := hc.1
    exact h h1

/-- A copy shifted `n` times back, with zero padding, is the lagged signal at position `l = 10 - n`. -/
theorem lagv_of_high (x : S16x2048x64.Idx → EReal) (b : Fin 16) (t : Fin 2048) (l n : ℕ) (hln : l + n = 10) (d : Fin 64)
    (z : EReal) (hz : z = 0) :
    (if h : t.val + n < 2048 then x (ix3 b ⟨t.val + n, h⟩ d) else z) = lagv x b t.val l d := by
  unfold lagv
  by_cases h : t.val + n < 2048
  · have h' : l ≤ t.val + 10 ∧ t.val + 10 - l < 2048 := by omega
    rw [dif_pos h, dif_pos h']
    exact congrArg x (congrArg (fun r : Fin 2048 => ix3 b r d) (Fin.ext (by show t.val + n = t.val + 10 - l; omega)))
  · have h' : ¬(l ≤ t.val + 10 ∧ t.val + 10 - l < 2048) := by omega
    rw [dif_neg h, dif_neg h', hz]

/-- A copy shifted `n` times forward, with zero padding, is the lagged signal at position `l = n + 10`. -/
theorem lagv_of_low (x : S16x2048x64.Idx → EReal) (b : Fin 16) (t : Fin 2048) (l n : ℕ) (hln : l = n + 10) (d : Fin 64)
    (z : EReal) (hz : z = 0) :
    (if h : n ≤ t.val then x (ix3 b ⟨t.val - n, by have := t.isLt; omega⟩ d) else z) = lagv x b t.val l d := by
  have ht := t.isLt
  unfold lagv
  by_cases h : n ≤ t.val
  · have h' : l ≤ t.val + 10 ∧ t.val + 10 - l < 2048 := by omega
    rw [dif_pos h, dif_pos h']
    exact congrArg x (congrArg (fun r : Fin 2048 => ix3 b r d) (Fin.ext (by show t.val - n = t.val + 10 - l; omega)))
  · have h' : ¬(l ≤ t.val + 10 ∧ t.val + 10 - l < 2048) := by omega
    rw [dif_neg h, dif_neg h', hz]

/-- The lagged signal depends on the position and the channel only through their values. -/
theorem lagv_congr (x : S16x2048x64.Idx → EReal) (b : Fin 16) (t : ℕ) {l l' : ℕ} {d d' : Fin 64} (hl : l = l') (hd : d.val = d'.val) :
    lagv x b t l d = lagv x b t l' d' := by
  obtain rfl := hl
  obtain rfl : d = d' := Fin.ext hd
  rfl

/-- The padding value, the integer zero converted to a float, is the extended real 0. -/
theorem padval (i : S_.Idx) : (sitofp (F := Ideal) .f32 (constantI S_ 32 0#32) : FVec Ideal S_ .f32) i = (0 : EReal) := by
  show (((0#32 : BitVec 32).toInt : ℝ) : EReal) = 0
  simp

/-! ## The 50 copies -/

theorem v1_apply (x0 : S16x2048x64.Idx → EReal) (b : Fin 16) (t : Fin 2048) (d : Fin 64) :
    val_main_v1 (F := Ideal) x0 (ix3 b t d) = lagv x0 b t.val 0 d :=
  (pad_high_apply 2038 10 x0 _ _ _ _ rfl b t d).trans (lagv_of_high x0 b t 0 10 rfl d _ (padval _))

theorem v3_apply (x0 : S16x2048x64.Idx → EReal) (b : Fin 16) (t : Fin 2048) (d : Fin 64) :
    val_main_v3 (F := Ideal) x0 (ix3 b t d) = lagv x0 b t.val 1 d :=
  (pad_high_apply 2039 9 x0 _ _ _ _ rfl b t d).trans (lagv_of_high x0 b t 1 9 rfl d _ (padval _))

theorem v5_apply (x0 : S16x2048x64.Idx → EReal) (b : Fin 16) (t : Fin 2048) (d : Fin 64) :
    val_main_v5 (F := Ideal) x0 (ix3 b t d) = lagv x0 b t.val 2 d :=
  (pad_high_apply 2040 8 x0 _ _ _ _ rfl b t d).trans (lagv_of_high x0 b t 2 8 rfl d _ (padval _))

theorem v7_apply (x0 : S16x2048x64.Idx → EReal) (b : Fin 16) (t : Fin 2048) (d : Fin 64) :
    val_main_v7 (F := Ideal) x0 (ix3 b t d) = lagv x0 b t.val 3 d :=
  (pad_high_apply 2041 7 x0 _ _ _ _ rfl b t d).trans (lagv_of_high x0 b t 3 7 rfl d _ (padval _))

theorem v9_apply (x0 : S16x2048x64.Idx → EReal) (b : Fin 16) (t : Fin 2048) (d : Fin 64) :
    val_main_v9 (F := Ideal) x0 (ix3 b t d) = lagv x0 b t.val 4 d :=
  (pad_high_apply 2042 6 x0 _ _ _ _ rfl b t d).trans (lagv_of_high x0 b t 4 6 rfl d _ (padval _))

theorem v11_apply (x0 : S16x2048x64.Idx → EReal) (b : Fin 16) (t : Fin 2048) (d : Fin 64) :
    val_main_v11 (F := Ideal) x0 (ix3 b t d) = lagv x0 b t.val 5 d :=
  (pad_high_apply 2043 5 x0 _ _ _ _ rfl b t d).trans (lagv_of_high x0 b t 5 5 rfl d _ (padval _))

theorem v13_apply (x0 : S16x2048x64.Idx → EReal) (b : Fin 16) (t : Fin 2048) (d : Fin 64) :
    val_main_v13 (F := Ideal) x0 (ix3 b t d) = lagv x0 b t.val 6 d :=
  (pad_high_apply 2044 4 x0 _ _ _ _ rfl b t d).trans (lagv_of_high x0 b t 6 4 rfl d _ (padval _))

theorem v15_apply (x0 : S16x2048x64.Idx → EReal) (b : Fin 16) (t : Fin 2048) (d : Fin 64) :
    val_main_v15 (F := Ideal) x0 (ix3 b t d) = lagv x0 b t.val 7 d :=
  (pad_high_apply 2045 3 x0 _ _ _ _ rfl b t d).trans (lagv_of_high x0 b t 7 3 rfl d _ (padval _))

theorem v17_apply (x0 : S16x2048x64.Idx → EReal) (b : Fin 16) (t : Fin 2048) (d : Fin 64) :
    val_main_v17 (F := Ideal) x0 (ix3 b t d) = lagv x0 b t.val 8 d :=
  (pad_high_apply 2046 2 x0 _ _ _ _ rfl b t d).trans (lagv_of_high x0 b t 8 2 rfl d _ (padval _))

theorem v19_apply (x0 : S16x2048x64.Idx → EReal) (b : Fin 16) (t : Fin 2048) (d : Fin 64) :
    val_main_v19 (F := Ideal) x0 (ix3 b t d) = lagv x0 b t.val 9 d :=
  (pad_high_apply 2047 1 x0 _ _ _ _ rfl b t d).trans (lagv_of_high x0 b t 9 1 rfl d _ (padval _))

theorem v21_apply (x0 : S16x2048x64.Idx → EReal) (b : Fin 16) (t : Fin 2048) (d : Fin 64) :
    val_main_v21 (F := Ideal) x0 (ix3 b t d) = lagv x0 b t.val 11 d :=
  (pad_low_apply 2047 1 x0 _ _ _ _ rfl b t d).trans (lagv_of_low x0 b t 11 1 rfl d _ (padval _))

theorem v23_apply (x0 : S16x2048x64.Idx → EReal) (b : Fin 16) (t : Fin 2048) (d : Fin 64) :
    val_main_v23 (F := Ideal) x0 (ix3 b t d) = lagv x0 b t.val 12 d :=
  (pad_low_apply 2046 2 x0 _ _ _ _ rfl b t d).trans (lagv_of_low x0 b t 12 2 rfl d _ (padval _))

theorem v25_apply (x0 : S16x2048x64.Idx → EReal) (b : Fin 16) (t : Fin 2048) (d : Fin 64) :
    val_main_v25 (F := Ideal) x0 (ix3 b t d) = lagv x0 b t.val 13 d :=
  (pad_low_apply 2045 3 x0 _ _ _ _ rfl b t d).trans (lagv_of_low x0 b t 13 3 rfl d _ (padval _))

theorem v27_apply (x0 : S16x2048x64.Idx → EReal) (b : Fin 16) (t : Fin 2048) (d : Fin 64) :
    val_main_v27 (F := Ideal) x0 (ix3 b t d) = lagv x0 b t.val 14 d :=
  (pad_low_apply 2044 4 x0 _ _ _ _ rfl b t d).trans (lagv_of_low x0 b t 14 4 rfl d _ (padval _))

theorem v29_apply (x0 : S16x2048x64.Idx → EReal) (b : Fin 16) (t : Fin 2048) (d : Fin 64) :
    val_main_v29 (F := Ideal) x0 (ix3 b t d) = lagv x0 b t.val 15 d :=
  (pad_low_apply 2043 5 x0 _ _ _ _ rfl b t d).trans (lagv_of_low x0 b t 15 5 rfl d _ (padval _))

theorem v31_apply (x0 : S16x2048x64.Idx → EReal) (b : Fin 16) (t : Fin 2048) (d : Fin 64) :
    val_main_v31 (F := Ideal) x0 (ix3 b t d) = lagv x0 b t.val 16 d :=
  (pad_low_apply 2042 6 x0 _ _ _ _ rfl b t d).trans (lagv_of_low x0 b t 16 6 rfl d _ (padval _))

theorem v33_apply (x0 : S16x2048x64.Idx → EReal) (b : Fin 16) (t : Fin 2048) (d : Fin 64) :
    val_main_v33 (F := Ideal) x0 (ix3 b t d) = lagv x0 b t.val 17 d :=
  (pad_low_apply 2041 7 x0 _ _ _ _ rfl b t d).trans (lagv_of_low x0 b t 17 7 rfl d _ (padval _))

theorem v35_apply (x0 : S16x2048x64.Idx → EReal) (b : Fin 16) (t : Fin 2048) (d : Fin 64) :
    val_main_v35 (F := Ideal) x0 (ix3 b t d) = lagv x0 b t.val 18 d :=
  (pad_low_apply 2040 8 x0 _ _ _ _ rfl b t d).trans (lagv_of_low x0 b t 18 8 rfl d _ (padval _))

theorem v37_apply (x0 : S16x2048x64.Idx → EReal) (b : Fin 16) (t : Fin 2048) (d : Fin 64) :
    val_main_v37 (F := Ideal) x0 (ix3 b t d) = lagv x0 b t.val 19 d :=
  (pad_low_apply 2039 9 x0 _ _ _ _ rfl b t d).trans (lagv_of_low x0 b t 19 9 rfl d _ (padval _))

theorem v39_apply (x0 : S16x2048x64.Idx → EReal) (b : Fin 16) (t : Fin 2048) (d : Fin 64) :
    val_main_v39 (F := Ideal) x0 (ix3 b t d) = lagv x0 b t.val 20 d :=
  (pad_low_apply 2038 10 x0 _ _ _ _ rfl b t d).trans (lagv_of_low x0 b t 20 10 rfl d _ (padval _))

theorem v41_apply (x0 : S16x2048x64.Idx → EReal) (b : Fin 16) (t : Fin 2048) (d : Fin 64) :
    val_main_v41 (F := Ideal) x0 (ix3 b t d) = lagv x0 b t.val 21 d :=
  (pad_low_apply 2037 11 x0 _ _ _ _ rfl b t d).trans (lagv_of_low x0 b t 21 11 rfl d _ (padval _))

theorem v43_apply (x0 : S16x2048x64.Idx → EReal) (b : Fin 16) (t : Fin 2048) (d : Fin 64) :
    val_main_v43 (F := Ideal) x0 (ix3 b t d) = lagv x0 b t.val 22 d :=
  (pad_low_apply 2036 12 x0 _ _ _ _ rfl b t d).trans (lagv_of_low x0 b t 22 12 rfl d _ (padval _))

theorem v45_apply (x0 : S16x2048x64.Idx → EReal) (b : Fin 16) (t : Fin 2048) (d : Fin 64) :
    val_main_v45 (F := Ideal) x0 (ix3 b t d) = lagv x0 b t.val 23 d :=
  (pad_low_apply 2035 13 x0 _ _ _ _ rfl b t d).trans (lagv_of_low x0 b t 23 13 rfl d _ (padval _))

theorem v47_apply (x0 : S16x2048x64.Idx → EReal) (b : Fin 16) (t : Fin 2048) (d : Fin 64) :
    val_main_v47 (F := Ideal) x0 (ix3 b t d) = lagv x0 b t.val 24 d :=
  (pad_low_apply 2034 14 x0 _ _ _ _ rfl b t d).trans (lagv_of_low x0 b t 24 14 rfl d _ (padval _))

theorem v49_apply (x0 : S16x2048x64.Idx → EReal) (b : Fin 16) (t : Fin 2048) (d : Fin 64) :
    val_main_v49 (F := Ideal) x0 (ix3 b t d) = lagv x0 b t.val 25 d :=
  (pad_low_apply 2033 15 x0 _ _ _ _ rfl b t d).trans (lagv_of_low x0 b t 25 15 rfl d _ (padval _))

theorem v51_apply (x0 : S16x2048x64.Idx → EReal) (b : Fin 16) (t : Fin 2048) (d : Fin 64) :
    val_main_v51 (F := Ideal) x0 (ix3 b t d) = lagv x0 b t.val 26 d :=
  (pad_low_apply 2032 16 x0 _ _ _ _ rfl b t d).trans (lagv_of_low x0 b t 26 16 rfl d _ (padval _))

theorem v53_apply (x0 : S16x2048x64.Idx → EReal) (b : Fin 16) (t : Fin 2048) (d : Fin 64) :
    val_main_v53 (F := Ideal) x0 (ix3 b t d) = lagv x0 b t.val 27 d :=
  (pad_low_apply 2031 17 x0 _ _ _ _ rfl b t d).trans (lagv_of_low x0 b t 27 17 rfl d _ (padval _))

theorem v55_apply (x0 : S16x2048x64.Idx → EReal) (b : Fin 16) (t : Fin 2048) (d : Fin 64) :
    val_main_v55 (F := Ideal) x0 (ix3 b t d) = lagv x0 b t.val 28 d :=
  (pad_low_apply 2030 18 x0 _ _ _ _ rfl b t d).trans (lagv_of_low x0 b t 28 18 rfl d _ (padval _))

theorem v57_apply (x0 : S16x2048x64.Idx → EReal) (b : Fin 16) (t : Fin 2048) (d : Fin 64) :
    val_main_v57 (F := Ideal) x0 (ix3 b t d) = lagv x0 b t.val 29 d :=
  (pad_low_apply 2029 19 x0 _ _ _ _ rfl b t d).trans (lagv_of_low x0 b t 29 19 rfl d _ (padval _))

theorem v59_apply (x0 : S16x2048x64.Idx → EReal) (b : Fin 16) (t : Fin 2048) (d : Fin 64) :
    val_main_v59 (F := Ideal) x0 (ix3 b t d) = lagv x0 b t.val 30 d :=
  (pad_low_apply 2028 20 x0 _ _ _ _ rfl b t d).trans (lagv_of_low x0 b t 30 20 rfl d _ (padval _))

theorem v61_apply (x0 : S16x2048x64.Idx → EReal) (b : Fin 16) (t : Fin 2048) (d : Fin 64) :
    val_main_v61 (F := Ideal) x0 (ix3 b t d) = lagv x0 b t.val 31 d :=
  (pad_low_apply 2027 21 x0 _ _ _ _ rfl b t d).trans (lagv_of_low x0 b t 31 21 rfl d _ (padval _))

theorem v63_apply (x0 : S16x2048x64.Idx → EReal) (b : Fin 16) (t : Fin 2048) (d : Fin 64) :
    val_main_v63 (F := Ideal) x0 (ix3 b t d) = lagv x0 b t.val 32 d :=
  (pad_low_apply 2026 22 x0 _ _ _ _ rfl b t d).trans (lagv_of_low x0 b t 32 22 rfl d _ (padval _))

theorem v65_apply (x0 : S16x2048x64.Idx → EReal) (b : Fin 16) (t : Fin 2048) (d : Fin 64) :
    val_main_v65 (F := Ideal) x0 (ix3 b t d) = lagv x0 b t.val 33 d :=
  (pad_low_apply 2025 23 x0 _ _ _ _ rfl b t d).trans (lagv_of_low x0 b t 33 23 rfl d _ (padval _))

theorem v67_apply (x0 : S16x2048x64.Idx → EReal) (b : Fin 16) (t : Fin 2048) (d : Fin 64) :
    val_main_v67 (F := Ideal) x0 (ix3 b t d) = lagv x0 b t.val 34 d :=
  (pad_low_apply 2024 24 x0 _ _ _ _ rfl b t d).trans (lagv_of_low x0 b t 34 24 rfl d _ (padval _))

theorem v69_apply (x0 : S16x2048x64.Idx → EReal) (b : Fin 16) (t : Fin 2048) (d : Fin 64) :
    val_main_v69 (F := Ideal) x0 (ix3 b t d) = lagv x0 b t.val 35 d :=
  (pad_low_apply 2023 25 x0 _ _ _ _ rfl b t d).trans (lagv_of_low x0 b t 35 25 rfl d _ (padval _))

theorem v71_apply (x0 : S16x2048x64.Idx → EReal) (b : Fin 16) (t : Fin 2048) (d : Fin 64) :
    val_main_v71 (F := Ideal) x0 (ix3 b t d) = lagv x0 b t.val 36 d :=
  (pad_low_apply 2022 26 x0 _ _ _ _ rfl b t d).trans (lagv_of_low x0 b t 36 26 rfl d _ (padval _))

theorem v73_apply (x0 : S16x2048x64.Idx → EReal) (b : Fin 16) (t : Fin 2048) (d : Fin 64) :
    val_main_v73 (F := Ideal) x0 (ix3 b t d) = lagv x0 b t.val 37 d :=
  (pad_low_apply 2021 27 x0 _ _ _ _ rfl b t d).trans (lagv_of_low x0 b t 37 27 rfl d _ (padval _))

theorem v75_apply (x0 : S16x2048x64.Idx → EReal) (b : Fin 16) (t : Fin 2048) (d : Fin 64) :
    val_main_v75 (F := Ideal) x0 (ix3 b t d) = lagv x0 b t.val 38 d :=
  (pad_low_apply 2020 28 x0 _ _ _ _ rfl b t d).trans (lagv_of_low x0 b t 38 28 rfl d _ (padval _))

theorem v77_apply (x0 : S16x2048x64.Idx → EReal) (b : Fin 16) (t : Fin 2048) (d : Fin 64) :
    val_main_v77 (F := Ideal) x0 (ix3 b t d) = lagv x0 b t.val 39 d :=
  (pad_low_apply 2019 29 x0 _ _ _ _ rfl b t d).trans (lagv_of_low x0 b t 39 29 rfl d _ (padval _))

theorem v79_apply (x0 : S16x2048x64.Idx → EReal) (b : Fin 16) (t : Fin 2048) (d : Fin 64) :
    val_main_v79 (F := Ideal) x0 (ix3 b t d) = lagv x0 b t.val 40 d :=
  (pad_low_apply 2018 30 x0 _ _ _ _ rfl b t d).trans (lagv_of_low x0 b t 40 30 rfl d _ (padval _))

theorem v81_apply (x0 : S16x2048x64.Idx → EReal) (b : Fin 16) (t : Fin 2048) (d : Fin 64) :
    val_main_v81 (F := Ideal) x0 (ix3 b t d) = lagv x0 b t.val 41 d :=
  (pad_low_apply 2017 31 x0 _ _ _ _ rfl b t d).trans (lagv_of_low x0 b t 41 31 rfl d _ (padval _))

theorem v83_apply (x0 : S16x2048x64.Idx → EReal) (b : Fin 16) (t : Fin 2048) (d : Fin 64) :
    val_main_v83 (F := Ideal) x0 (ix3 b t d) = lagv x0 b t.val 42 d :=
  (pad_low_apply 2016 32 x0 _ _ _ _ rfl b t d).trans (lagv_of_low x0 b t 42 32 rfl d _ (padval _))

theorem v85_apply (x0 : S16x2048x64.Idx → EReal) (b : Fin 16) (t : Fin 2048) (d : Fin 64) :
    val_main_v85 (F := Ideal) x0 (ix3 b t d) = lagv x0 b t.val 43 d :=
  (pad_low_apply 2015 33 x0 _ _ _ _ rfl b t d).trans (lagv_of_low x0 b t 43 33 rfl d _ (padval _))

theorem v87_apply (x0 : S16x2048x64.Idx → EReal) (b : Fin 16) (t : Fin 2048) (d : Fin 64) :
    val_main_v87 (F := Ideal) x0 (ix3 b t d) = lagv x0 b t.val 44 d :=
  (pad_low_apply 2014 34 x0 _ _ _ _ rfl b t d).trans (lagv_of_low x0 b t 44 34 rfl d _ (padval _))

theorem v89_apply (x0 : S16x2048x64.Idx → EReal) (b : Fin 16) (t : Fin 2048) (d : Fin 64) :
    val_main_v89 (F := Ideal) x0 (ix3 b t d) = lagv x0 b t.val 45 d :=
  (pad_low_apply 2013 35 x0 _ _ _ _ rfl b t d).trans (lagv_of_low x0 b t 45 35 rfl d _ (padval _))

theorem v91_apply (x0 : S16x2048x64.Idx → EReal) (b : Fin 16) (t : Fin 2048) (d : Fin 64) :
    val_main_v91 (F := Ideal) x0 (ix3 b t d) = lagv x0 b t.val 46 d :=
  (pad_low_apply 2012 36 x0 _ _ _ _ rfl b t d).trans (lagv_of_low x0 b t 46 36 rfl d _ (padval _))

theorem v93_apply (x0 : S16x2048x64.Idx → EReal) (b : Fin 16) (t : Fin 2048) (d : Fin 64) :
    val_main_v93 (F := Ideal) x0 (ix3 b t d) = lagv x0 b t.val 47 d :=
  (pad_low_apply 2011 37 x0 _ _ _ _ rfl b t d).trans (lagv_of_low x0 b t 47 37 rfl d _ (padval _))

theorem v95_apply (x0 : S16x2048x64.Idx → EReal) (b : Fin 16) (t : Fin 2048) (d : Fin 64) :
    val_main_v95 (F := Ideal) x0 (ix3 b t d) = lagv x0 b t.val 48 d :=
  (pad_low_apply 2010 38 x0 _ _ _ _ rfl b t d).trans (lagv_of_low x0 b t 48 38 rfl d _ (padval _))

theorem v97_apply (x0 : S16x2048x64.Idx → EReal) (b : Fin 16) (t : Fin 2048) (d : Fin 64) :
    val_main_v97 (F := Ideal) x0 (ix3 b t d) = lagv x0 b t.val 49 d :=
  (pad_low_apply 2009 39 x0 _ _ _ _ rfl b t d).trans (lagv_of_low x0 b t 49 39 rfl d _ (padval _))

theorem v99_apply (x0 : S16x2048x64.Idx → EReal) (b : Fin 16) (t : Fin 2048) (d : Fin 64) :
    val_main_v99 (F := Ideal) x0 (ix3 b t d) = lagv x0 b t.val 50 d :=
  (pad_low_apply 2008 40 x0 _ _ _ _ rfl b t d).trans (lagv_of_low x0 b t 50 40 rfl d _ (padval _))

/-- Lag position 10 is the signal itself. -/
theorem self_apply (x0 : S16x2048x64.Idx → EReal) (b : Fin 16) (t : Fin 2048) (d : Fin 64) :
    x0 (ix3 b t d) = lagv x0 b t.val 10 d := by
  have ht := t.isLt
  unfold lagv
  rw [dif_pos (by omega : 10 ≤ t.val + 10 ∧ t.val + 10 - 10 < 2048)]
  exact congrArg x0 (congrArg (fun r : Fin 2048 => ix3 b r d) (Fin.ext (by show t.val = t.val + 10 - 10; omega)))

/-! ## The joined copies -/

/-- In a list of `n` pieces of one shape whose extent along the joined axis is `K`, the first `p` pieces take up `K·p`. -/
theorem pre_of_shapes {α : Type} (t' : Shape) (a : Fin t'.rank) (xs : List ((s : Shape) × (s.Idx → α))) (S : Shape) (n K : ℕ)
    (hsh : xs.map (·.1) = List.replicate n S)
    (hK : (if h : S.rank = t'.rank then S.size (a.cast h.symm) else 0) = K) (p : ℕ) (hp : p ≤ n) :
    (((xs.take p).map (·.1)).map fun s => if h : s.rank = t'.rank then s.size (a.cast h.symm) else 0).sum = K * p := by
  rw [List.map_take, hsh, List.take_replicate, List.map_replicate, List.sum_replicate, Nat.min_eq_left hp, hK]
  show p * K = K * p
  exact Nat.mul_comm _ _

set_option maxHeartbeats 1000000 in
/-- Column `c` of the joined group is channel `c mod 64` of its copy `c / 64`: lag position `0 + c / 64`. -/
theorem v100_apply (x0 : S16x2048x64.Idx → EReal) (b : Fin 16) (t : Fin 2048) (c : Fin 1024) :
    val_main_v100 (F := Ideal) x0 (ix3 b t c)
      = lagv x0 b t.val (0 + c.val / 64) ⟨c.val % 64, Nat.mod_lt _ (by decide)⟩ := by
  obtain ⟨p, hp, d, rfl⟩ : ∃ (p : ℕ) (hp : p < 16) (d : Fin 64), c = (⟨64 * p + d.val, by have := d.isLt; omega⟩ : Fin 1024) :=
    ⟨c.val / 64, by have := c.isLt; omega, ⟨c.val % 64, Nat.mod_lt _ (by decide)⟩, Fin.ext (by show c.val = 64 * (c.val / 64) + c.val % 64; omega)⟩
  have hd := d.isLt
  refine Eq.trans ?_ (lagv_congr x0 b t.val (by show 0 + p = 0 + (64 * p + d.val) / 64; omega) (by show d.val = (64 * p + d.val) % 64; omega))
  unfold val_main_v100
  interval_cases p
  · exact (concatenate_apply_piece (2 : Fin S16x2048x1024.rank) _ _ _ 0 (by show (0 : ℕ) < 16; omega) S16x2048x64 (val_main_v1 (F := Ideal) x0) rfl rfl (64 * 0)
      (pre_of_shapes _ _ _ S16x2048x64 16 64 rfl rfl 0 (by omega)) (ix3 b t d) (fun a ha => match a with
      | ⟨0, _⟩ => rfl
      | ⟨1, _⟩ => rfl
      | ⟨2, _⟩ => absurd rfl ha) rfl).trans (v1_apply x0 b t d)
  · exact (concatenate_apply_piece (2 : Fin S16x2048x1024.rank) _ _ _ 1 (by show (1 : ℕ) < 16; omega) S16x2048x64 (val_main_v3 (F := Ideal) x0) rfl rfl (64 * 1)
      (pre_of_shapes _ _ _ S16x2048x64 16 64 rfl rfl 1 (by omega)) (ix3 b t d) (fun a ha => match a with
      | ⟨0, _⟩ => rfl
      | ⟨1, _⟩ => rfl
      | ⟨2, _⟩ => absurd rfl ha) rfl).trans (v3_apply x0 b t d)
  · exact (concatenate_apply_piece (2 : Fin S16x2048x1024.rank) _ _ _ 2 (by show (2 : ℕ) < 16; omega) S16x2048x64 (val_main_v5 (F := Ideal) x0) rfl rfl (64 * 2)
      (pre_of_shapes _ _ _ S16x2048x64 16 64 rfl rfl 2 (by omega)) (ix3 b t d) (fun a ha => match a with
      | ⟨0, _⟩ => rfl
      | ⟨1, _⟩ => rfl
      | ⟨2, _⟩ => absurd rfl ha) rfl).trans (v5_apply x0 b t d)
  · exact (concatenate_apply_piece (2 : Fin S16x2048x1024.rank) _ _ _ 3 (by show (3 : ℕ) < 16; omega) S16x2048x64 (val_main_v7 (F := Ideal) x0) rfl rfl (64 * 3)
      (pre_of_shapes _ _ _ S16x2048x64 16 64 rfl rfl 3 (by omega)) (ix3 b t d) (fun a ha => match a with
      | ⟨0, _⟩ => rfl
      | ⟨1, _⟩ => rfl
      | ⟨2, _⟩ => absurd rfl ha) rfl).trans (v7_apply x0 b t d)
  · exact (concatenate_apply_piece (2 : Fin S16x2048x1024.rank) _ _ _ 4 (by show (4 : ℕ) < 16; omega) S16x2048x64 (val_main_v9 (F := Ideal) x0) rfl rfl (64 * 4)
      (pre_of_shapes _ _ _ S16x2048x64 16 64 rfl rfl 4 (by omega)) (ix3 b t d) (fun a ha => match a with
      | ⟨0, _⟩ => rfl
      | ⟨1, _⟩ => rfl
      | ⟨2, _⟩ => absurd rfl ha) rfl).trans (v9_apply x0 b t d)
  · exact (concatenate_apply_piece (2 : Fin S16x2048x1024.rank) _ _ _ 5 (by show (5 : ℕ) < 16; omega) S16x2048x64 (val_main_v11 (F := Ideal) x0) rfl rfl (64 * 5)
      (pre_of_shapes _ _ _ S16x2048x64 16 64 rfl rfl 5 (by omega)) (ix3 b t d) (fun a ha => match a with
      | ⟨0, _⟩ => rfl
      | ⟨1, _⟩ => rfl
      | ⟨2, _⟩ => absurd rfl ha) rfl).trans (v11_apply x0 b t d)
  · exact (concatenate_apply_piece (2 : Fin S16x2048x1024.rank) _ _ _ 6 (by show (6 : ℕ) < 16; omega) S16x2048x64 (val_main_v13 (F := Ideal) x0) rfl rfl (64 * 6)
      (pre_of_shapes _ _ _ S16x2048x64 16 64 rfl rfl 6 (by omega)) (ix3 b t d) (fun a ha => match a with
      | ⟨0, _⟩ => rfl
      | ⟨1, _⟩ => rfl
      | ⟨2, _⟩ => absurd rfl ha) rfl).trans (v13_apply x0 b t d)
  · exact (concatenate_apply_piece (2 : Fin S16x2048x1024.rank) _ _ _ 7 (by show (7 : ℕ) < 16; omega) S16x2048x64 (val_main_v15 (F := Ideal) x0) rfl rfl (64 * 7)
      (pre_of_shapes _ _ _ S16x2048x64 16 64 rfl rfl 7 (by omega)) (ix3 b t d) (fun a ha => match a with
      | ⟨0, _⟩ => rfl
      | ⟨1, _⟩ => rfl
      | ⟨2, _⟩ => absurd rfl ha) rfl).trans (v15_apply x0 b t d)
  · exact (concatenate_apply_piece (2 : Fin S16x2048x1024.rank) _ _ _ 8 (by show (8 : ℕ) < 16; omega) S16x2048x64 (val_main_v17 (F := Ideal) x0) rfl rfl (64 * 8)
      (pre_of_shapes _ _ _ S16x2048x64 16 64 rfl rfl 8 (by omega)) (ix3 b t d) (fun a ha => match a with
      | ⟨0, _⟩ => rfl
      | ⟨1, _⟩ => rfl
      | ⟨2, _⟩ => absurd rfl ha) rfl).trans (v17_apply x0 b t d)
  · exact (concatenate_apply_piece (2 : Fin S16x2048x1024.rank) _ _ _ 9 (by show (9 : ℕ) < 16; omega) S16x2048x64 (val_main_v19 (F := Ideal) x0) rfl rfl (64 * 9)
      (pre_of_shapes _ _ _ S16x2048x64 16 64 rfl rfl 9 (by omega)) (ix3 b t d) (fun a ha => match a with
      | ⟨0, _⟩ => rfl
      | ⟨1, _⟩ => rfl
      | ⟨2, _⟩ => absurd rfl ha) rfl).trans (v19_apply x0 b t d)
  · exact (concatenate_apply_piece (2 : Fin S16x2048x1024.rank) _ _ _ 10 (by show (10 : ℕ) < 16; omega) S16x2048x64 x0 rfl rfl (64 * 10)
      (pre_of_shapes _ _ _ S16x2048x64 16 64 rfl rfl 10 (by omega)) (ix3 b t d) (fun a ha => match a with
      | ⟨0, _⟩ => rfl
      | ⟨1, _⟩ => rfl
      | ⟨2, _⟩ => absurd rfl ha) rfl).trans (self_apply x0 b t d)
  · exact (concatenate_apply_piece (2 : Fin S16x2048x1024.rank) _ _ _ 11 (by show (11 : ℕ) < 16; omega) S16x2048x64 (val_main_v21 (F := Ideal) x0) rfl rfl (64 * 11)
      (pre_of_shapes _ _ _ S16x2048x64 16 64 rfl rfl 11 (by omega)) (ix3 b t d) (fun a ha => match a with
      | ⟨0, _⟩ => rfl
      | ⟨1, _⟩ => rfl
      | ⟨2, _⟩ => absurd rfl ha) rfl).trans (v21_apply x0 b t d)
  · exact (concatenate_apply_piece (2 : Fin S16x2048x1024.rank) _ _ _ 12 (by show (12 : ℕ) < 16; omega) S16x2048x64 (val_main_v23 (F := Ideal) x0) rfl rfl (64 * 12)
      (pre_of_shapes _ _ _ S16x2048x64 16 64 rfl rfl 12 (by omega)) (ix3 b t d) (fun a ha => match a with
      | ⟨0, _⟩ => rfl
      | ⟨1, _⟩ => rfl
      | ⟨2, _⟩ => absurd rfl ha) rfl).trans (v23_apply x0 b t d)
  · exact (concatenate_apply_piece (2 : Fin S16x2048x1024.rank) _ _ _ 13 (by show (13 : ℕ) < 16; omega) S16x2048x64 (val_main_v25 (F := Ideal) x0) rfl rfl (64 * 13)
      (pre_of_shapes _ _ _ S16x2048x64 16 64 rfl rfl 13 (by omega)) (ix3 b t d) (fun a ha => match a with
      | ⟨0, _⟩ => rfl
      | ⟨1, _⟩ => rfl
      | ⟨2, _⟩ => absurd rfl ha) rfl).trans (v25_apply x0 b t d)
  · exact (concatenate_apply_piece (2 : Fin S16x2048x1024.rank) _ _ _ 14 (by show (14 : ℕ) < 16; omega) S16x2048x64 (val_main_v27 (F := Ideal) x0) rfl rfl (64 * 14)
      (pre_of_shapes _ _ _ S16x2048x64 16 64 rfl rfl 14 (by omega)) (ix3 b t d) (fun a ha => match a with
      | ⟨0, _⟩ => rfl
      | ⟨1, _⟩ => rfl
      | ⟨2, _⟩ => absurd rfl ha) rfl).trans (v27_apply x0 b t d)
  · exact (concatenate_apply_piece (2 : Fin S16x2048x1024.rank) _ _ _ 15 (by show (15 : ℕ) < 16; omega) S16x2048x64 (val_main_v29 (F := Ideal) x0) rfl rfl (64 * 15)
      (pre_of_shapes _ _ _ S16x2048x64 16 64 rfl rfl 15 (by omega)) (ix3 b t d) (fun a ha => match a with
      | ⟨0, _⟩ => rfl
      | ⟨1, _⟩ => rfl
      | ⟨2, _⟩ => absurd rfl ha) rfl).trans (v29_apply x0 b t d)

set_option maxHeartbeats 1000000 in
/-- Column `c` of the joined group is channel `c mod 64` of its copy `c / 64`: lag position `16 + c / 64`. -/
theorem v101_apply (x0 : S16x2048x64.Idx → EReal) (b : Fin 16) (t : Fin 2048) (c : Fin 1024) :
    val_main_v101 (F := Ideal) x0 (ix3 b t c)
      = lagv x0 b t.val (16 + c.val / 64) ⟨c.val % 64, Nat.mod_lt _ (by decide)⟩ := by
  obtain ⟨p, hp, d, rfl⟩ : ∃ (p : ℕ) (hp : p < 16) (d : Fin 64), c = (⟨64 * p + d.val, by have := d.isLt; omega⟩ : Fin 1024) :=
    ⟨c.val / 64, by have := c.isLt; omega, ⟨c.val % 64, Nat.mod_lt _ (by decide)⟩, Fin.ext (by show c.val = 64 * (c.val / 64) + c.val % 64; omega)⟩
  have hd := d.isLt
  refine Eq.trans ?_ (lagv_congr x0 b t.val (by show 16 + p = 16 + (64 * p + d.val) / 64; omega) (by show d.val = (64 * p + d.val) % 64; omega))
  unfold val_main_v101
  interval_cases p
  · exact (concatenate_apply_piece (2 : Fin S16x2048x1024.rank) _ _ _ 0 (by show (0 : ℕ) < 16; omega) S16x2048x64 (val_main_v31 (F := Ideal) x0) rfl rfl (64 * 0)
      (pre_of_shapes _ _ _ S16x2048x64 16 64 rfl rfl 0 (by omega)) (ix3 b t d) (fun a ha => match a with
      | ⟨0, _⟩ => rfl
      | ⟨1, _⟩ => rfl
      | ⟨2, _⟩ => absurd rfl ha) rfl).trans (v31_apply x0 b t d)
  · exact (concatenate_apply_piece (2 : Fin S16x2048x1024.rank) _ _ _ 1 (by show (1 : ℕ) < 16; omega) S16x2048x64 (val_main_v33 (F := Ideal) x0) rfl rfl (64 * 1)
      (pre_of_shapes _ _ _ S16x2048x64 16 64 rfl rfl 1 (by omega)) (ix3 b t d) (fun a ha => match a with
      | ⟨0, _⟩ => rfl
      | ⟨1, _⟩ => rfl
      | ⟨2, _⟩ => absurd rfl ha) rfl).trans (v33_apply x0 b t d)
  · exact (concatenate_apply_piece (2 : Fin S16x2048x1024.rank) _ _ _ 2 (by show (2 : ℕ) < 16; omega) S16x2048x64 (val_main_v35 (F := Ideal) x0) rfl rfl (64 * 2)
      (pre_of_shapes _ _ _ S16x2048x64 16 64 rfl rfl 2 (by omega)) (ix3 b t d) (fun a ha => match a with
      | ⟨0, _⟩ => rfl
      | ⟨1, _⟩ => rfl
      | ⟨2, _⟩ => absurd rfl ha) rfl).trans (v35_apply x0 b t d)
  · exact (concatenate_apply_piece (2 : Fin S16x2048x1024.rank) _ _ _ 3 (by show (3 : ℕ) < 16; omega) S16x2048x64 (val_main_v37 (F := Ideal) x0) rfl rfl (64 * 3)
      (pre_of_shapes _ _ _ S16x2048x64 16 64 rfl rfl 3 (by omega)) (ix3 b t d) (fun a ha => match a with
      | ⟨0, _⟩ => rfl
      | ⟨1, _⟩ => rfl
      | ⟨2, _⟩ => absurd rfl ha) rfl).trans (v37_apply x0 b t d)
  · exact (concatenate_apply_piece (2 : Fin S16x2048x1024.rank) _ _ _ 4 (by show (4 : ℕ) < 16; omega) S16x2048x64 (val_main_v39 (F := Ideal) x0) rfl rfl (64 * 4)
      (pre_of_shapes _ _ _ S16x2048x64 16 64 rfl rfl 4 (by omega)) (ix3 b t d) (fun a ha => match a with
      | ⟨0, _⟩ => rfl
      | ⟨1, _⟩ => rfl
      | ⟨2, _⟩ => absurd rfl ha) rfl).trans (v39_apply x0 b t d)
  · exact (concatenate_apply_piece (2 : Fin S16x2048x1024.rank) _ _ _ 5 (by show (5 : ℕ) < 16; omega) S16x2048x64 (val_main_v41 (F := Ideal) x0) rfl rfl (64 * 5)
      (pre_of_shapes _ _ _ S16x2048x64 16 64 rfl rfl 5 (by omega)) (ix3 b t d) (fun a ha => match a with
      | ⟨0, _⟩ => rfl
      | ⟨1, _⟩ => rfl
      | ⟨2, _⟩ => absurd rfl ha) rfl).trans (v41_apply x0 b t d)
  · exact (concatenate_apply_piece (2 : Fin S16x2048x1024.rank) _ _ _ 6 (by show (6 : ℕ) < 16; omega) S16x2048x64 (val_main_v43 (F := Ideal) x0) rfl rfl (64 * 6)
      (pre_of_shapes _ _ _ S16x2048x64 16 64 rfl rfl 6 (by omega)) (ix3 b t d) (fun a ha => match a with
      | ⟨0, _⟩ => rfl
      | ⟨1, _⟩ => rfl
      | ⟨2, _⟩ => absurd rfl ha) rfl).trans (v43_apply x0 b t d)
  · exact (concatenate_apply_piece (2 : Fin S16x2048x1024.rank) _ _ _ 7 (by show (7 : ℕ) < 16; omega) S16x2048x64 (val_main_v45 (F := Ideal) x0) rfl rfl (64 * 7)
      (pre_of_shapes _ _ _ S16x2048x64 16 64 rfl rfl 7 (by omega)) (ix3 b t d) (fun a ha => match a with
      | ⟨0, _⟩ => rfl
      | ⟨1, _⟩ => rfl
      | ⟨2, _⟩ => absurd rfl ha) rfl).trans (v45_apply x0 b t d)
  · exact (concatenate_apply_piece (2 : Fin S16x2048x1024.rank) _ _ _ 8 (by show (8 : ℕ) < 16; omega) S16x2048x64 (val_main_v47 (F := Ideal) x0) rfl rfl (64 * 8)
      (pre_of_shapes _ _ _ S16x2048x64 16 64 rfl rfl 8 (by omega)) (ix3 b t d) (fun a ha => match a with
      | ⟨0, _⟩ => rfl
      | ⟨1, _⟩ => rfl
      | ⟨2, _⟩ => absurd rfl ha) rfl).trans (v47_apply x0 b t d)
  · exact (concatenate_apply_piece (2 : Fin S16x2048x1024.rank) _ _ _ 9 (by show (9 : ℕ) < 16; omega) S16x2048x64 (val_main_v49 (F := Ideal) x0) rfl rfl (64 * 9)
      (pre_of_shapes _ _ _ S16x2048x64 16 64 rfl rfl 9 (by omega)) (ix3 b t d) (fun a ha => match a with
      | ⟨0, _⟩ => rfl
      | ⟨1, _⟩ => rfl
      | ⟨2, _⟩ => absurd rfl ha) rfl).trans (v49_apply x0 b t d)
  · exact (concatenate_apply_piece (2 : Fin S16x2048x1024.rank) _ _ _ 10 (by show (10 : ℕ) < 16; omega) S16x2048x64 (val_main_v51 (F := Ideal) x0) rfl rfl (64 * 10)
      (pre_of_shapes _ _ _ S16x2048x64 16 64 rfl rfl 10 (by omega)) (ix3 b t d) (fun a ha => match a with
      | ⟨0, _⟩ => rfl
      | ⟨1, _⟩ => rfl
      | ⟨2, _⟩ => absurd rfl ha) rfl).trans (v51_apply x0 b t d)
  · exact (concatenate_apply_piece (2 : Fin S16x2048x1024.rank) _ _ _ 11 (by show (11 : ℕ) < 16; omega) S16x2048x64 (val_main_v53 (F := Ideal) x0) rfl rfl (64 * 11)
      (pre_of_shapes _ _ _ S16x2048x64 16 64 rfl rfl 11 (by omega)) (ix3 b t d) (fun a ha => match a with
      | ⟨0, _⟩ => rfl
      | ⟨1, _⟩ => rfl
      | ⟨2, _⟩ => absurd rfl ha) rfl).trans (v53_apply x0 b t d)
  · exact (concatenate_apply_piece (2 : Fin S16x2048x1024.rank) _ _ _ 12 (by show (12 : ℕ) < 16; omega) S16x2048x64 (val_main_v55 (F := Ideal) x0) rfl rfl (64 * 12)
      (pre_of_shapes _ _ _ S16x2048x64 16 64 rfl rfl 12 (by omega)) (ix3 b t d) (fun a ha => match a with
      | ⟨0, _⟩ => rfl
      | ⟨1, _⟩ => rfl
      | ⟨2, _⟩ => absurd rfl ha) rfl).trans (v55_apply x0 b t d)
  · exact (concatenate_apply_piece (2 : Fin S16x2048x1024.rank) _ _ _ 13 (by show (13 : ℕ) < 16; omega) S16x2048x64 (val_main_v57 (F := Ideal) x0) rfl rfl (64 * 13)
      (pre_of_shapes _ _ _ S16x2048x64 16 64 rfl rfl 13 (by omega)) (ix3 b t d) (fun a ha => match a with
      | ⟨0, _⟩ => rfl
      | ⟨1, _⟩ => rfl
      | ⟨2, _⟩ => absurd rfl ha) rfl).trans (v57_apply x0 b t d)
  · exact (concatenate_apply_piece (2 : Fin S16x2048x1024.rank) _ _ _ 14 (by show (14 : ℕ) < 16; omega) S16x2048x64 (val_main_v59 (F := Ideal) x0) rfl rfl (64 * 14)
      (pre_of_shapes _ _ _ S16x2048x64 16 64 rfl rfl 14 (by omega)) (ix3 b t d) (fun a ha => match a with
      | ⟨0, _⟩ => rfl
      | ⟨1, _⟩ => rfl
      | ⟨2, _⟩ => absurd rfl ha) rfl).trans (v59_apply x0 b t d)
  · exact (concatenate_apply_piece (2 : Fin S16x2048x1024.rank) _ _ _ 15 (by show (15 : ℕ) < 16; omega) S16x2048x64 (val_main_v61 (F := Ideal) x0) rfl rfl (64 * 15)
      (pre_of_shapes _ _ _ S16x2048x64 16 64 rfl rfl 15 (by omega)) (ix3 b t d) (fun a ha => match a with
      | ⟨0, _⟩ => rfl
      | ⟨1, _⟩ => rfl
      | ⟨2, _⟩ => absurd rfl ha) rfl).trans (v61_apply x0 b t d)

set_option maxHeartbeats 1000000 in
/-- Column `c` of the joined group is channel `c mod 64` of its copy `c / 64`: lag position `32 + c / 64`. -/
theorem v102_apply (x0 : S16x2048x64.Idx → EReal) (b : Fin 16) (t : Fin 2048) (c : Fin 1024) :
    val_main_v102 (F := Ideal) x0 (ix3 b t c)
      = lagv x0 b t.val (32 + c.val / 64) ⟨c.val % 64, Nat.mod_lt _ (by decide)⟩ := by
  obtain ⟨p, hp, d, rfl⟩ : ∃ (p : ℕ) (hp : p < 16) (d : Fin 64), c = (⟨64 * p + d.val, by have := d.isLt; omega⟩ : Fin 1024) :=
    ⟨c.val / 64, by have := c.isLt; omega, ⟨c.val % 64, Nat.mod_lt _ (by decide)⟩, Fin.ext (by show c.val = 64 * (c.val / 64) + c.val % 64; omega)⟩
  have hd := d.isLt
  refine Eq.trans ?_ (lagv_congr x0 b t.val (by show 32 + p = 32 + (64 * p + d.val) / 64; omega) (by show d.val = (64 * p + d.val) % 64; omega))
  unfold val_main_v102
  interval_cases p
  · exact (concatenate_apply_piece (2 : Fin S16x2048x1024.rank) _ _ _ 0 (by show (0 : ℕ) < 16; omega) S16x2048x64 (val_main_v63 (F := Ideal) x0) rfl rfl (64 * 0)
      (pre_of_shapes _ _ _ S16x2048x64 16 64 rfl rfl 0 (by omega)) (ix3 b t d) (fun a ha => match a with
      | ⟨0, _⟩ => rfl
      | ⟨1, _⟩ => rfl
      | ⟨2, _⟩ => absurd rfl ha) rfl).trans (v63_apply x0 b t d)
  · exact (concatenate_apply_piece (2 : Fin S16x2048x1024.rank) _ _ _ 1 (by show (1 : ℕ) < 16; omega) S16x2048x64 (val_main_v65 (F := Ideal) x0) rfl rfl (64 * 1)
      (pre_of_shapes _ _ _ S16x2048x64 16 64 rfl rfl 1 (by omega)) (ix3 b t d) (fun a ha => match a with
      | ⟨0, _⟩ => rfl
      | ⟨1, _⟩ => rfl
      | ⟨2, _⟩ => absurd rfl ha) rfl).trans (v65_apply x0 b t d)
  · exact (concatenate_apply_piece (2 : Fin S16x2048x1024.rank) _ _ _ 2 (by show (2 : ℕ) < 16; omega) S16x2048x64 (val_main_v67 (F := Ideal) x0) rfl rfl (64 * 2)
      (pre_of_shapes _ _ _ S16x2048x64 16 64 rfl rfl 2 (by omega)) (ix3 b t d) (fun a ha => match a with
      | ⟨0, _⟩ => rfl
      | ⟨1, _⟩ => rfl
      | ⟨2, _⟩ => absurd rfl ha) rfl).trans (v67_apply x0 b t d)
  · exact (concatenate_apply_piece (2 : Fin S16x2048x1024.rank) _ _ _ 3 (by show (3 : ℕ) < 16; omega) S16x2048x64 (val_main_v69 (F := Ideal) x0) rfl rfl (64 * 3)
      (pre_of_shapes _ _ _ S16x2048x64 16 64 rfl rfl 3 (by omega)) (ix3 b t d) (fun a ha => match a with
      | ⟨0, _⟩ => rfl
      | ⟨1, _⟩ => rfl
      | ⟨2, _⟩ => absurd rfl ha) rfl).trans (v69_apply x0 b t d)
  · exact (concatenate_apply_piece (2 : Fin S16x2048x1024.rank) _ _ _ 4 (by show (4 : ℕ) < 16; omega) S16x2048x64 (val_main_v71 (F := Ideal) x0) rfl rfl (64 * 4)
      (pre_of_shapes _ _ _ S16x2048x64 16 64 rfl rfl 4 (by omega)) (ix3 b t d) (fun a ha => match a with
      | ⟨0, _⟩ => rfl
      | ⟨1, _⟩ => rfl
      | ⟨2, _⟩ => absurd rfl ha) rfl).trans (v71_apply x0 b t d)
  · exact (concatenate_apply_piece (2 : Fin S16x2048x1024.rank) _ _ _ 5 (by show (5 : ℕ) < 16; omega) S16x2048x64 (val_main_v73 (F := Ideal) x0) rfl rfl (64 * 5)
      (pre_of_shapes _ _ _ S16x2048x64 16 64 rfl rfl 5 (by omega)) (ix3 b t d) (fun a ha => match a with
      | ⟨0, _⟩ => rfl
      | ⟨1, _⟩ => rfl
      | ⟨2, _⟩ => absurd rfl ha) rfl).trans (v73_apply x0 b t d)
  · exact (concatenate_apply_piece (2 : Fin S16x2048x1024.rank) _ _ _ 6 (by show (6 : ℕ) < 16; omega) S16x2048x64 (val_main_v75 (F := Ideal) x0) rfl rfl (64 * 6)
      (pre_of_shapes _ _ _ S16x2048x64 16 64 rfl rfl 6 (by omega)) (ix3 b t d) (fun a ha => match a with
      | ⟨0, _⟩ => rfl
      | ⟨1, _⟩ => rfl
      | ⟨2, _⟩ => absurd rfl ha) rfl).trans (v75_apply x0 b t d)
  · exact (concatenate_apply_piece (2 : Fin S16x2048x1024.rank) _ _ _ 7 (by show (7 : ℕ) < 16; omega) S16x2048x64 (val_main_v77 (F := Ideal) x0) rfl rfl (64 * 7)
      (pre_of_shapes _ _ _ S16x2048x64 16 64 rfl rfl 7 (by omega)) (ix3 b t d) (fun a ha => match a with
      | ⟨0, _⟩ => rfl
      | ⟨1, _⟩ => rfl
      | ⟨2, _⟩ => absurd rfl ha) rfl).trans (v77_apply x0 b t d)
  · exact (concatenate_apply_piece (2 : Fin S16x2048x1024.rank) _ _ _ 8 (by show (8 : ℕ) < 16; omega) S16x2048x64 (val_main_v79 (F := Ideal) x0) rfl rfl (64 * 8)
      (pre_of_shapes _ _ _ S16x2048x64 16 64 rfl rfl 8 (by omega)) (ix3 b t d) (fun a ha => match a with
      | ⟨0, _⟩ => rfl
      | ⟨1, _⟩ => rfl
      | ⟨2, _⟩ => absurd rfl ha) rfl).trans (v79_apply x0 b t d)
  · exact (concatenate_apply_piece (2 : Fin S16x2048x1024.rank) _ _ _ 9 (by show (9 : ℕ) < 16; omega) S16x2048x64 (val_main_v81 (F := Ideal) x0) rfl rfl (64 * 9)
      (pre_of_shapes _ _ _ S16x2048x64 16 64 rfl rfl 9 (by omega)) (ix3 b t d) (fun a ha => match a with
      | ⟨0, _⟩ => rfl
      | ⟨1, _⟩ => rfl
      | ⟨2, _⟩ => absurd rfl ha) rfl).trans (v81_apply x0 b t d)
  · exact (concatenate_apply_piece (2 : Fin S16x2048x1024.rank) _ _ _ 10 (by show (10 : ℕ) < 16; omega) S16x2048x64 (val_main_v83 (F := Ideal) x0) rfl rfl (64 * 10)
      (pre_of_shapes _ _ _ S16x2048x64 16 64 rfl rfl 10 (by omega)) (ix3 b t d) (fun a ha => match a with
      | ⟨0, _⟩ => rfl
      | ⟨1, _⟩ => rfl
      | ⟨2, _⟩ => absurd rfl ha) rfl).trans (v83_apply x0 b t d)
  · exact (concatenate_apply_piece (2 : Fin S16x2048x1024.rank) _ _ _ 11 (by show (11 : ℕ) < 16; omega) S16x2048x64 (val_main_v85 (F := Ideal) x0) rfl rfl (64 * 11)
      (pre_of_shapes _ _ _ S16x2048x64 16 64 rfl rfl 11 (by omega)) (ix3 b t d) (fun a ha => match a with
      | ⟨0, _⟩ => rfl
      | ⟨1, _⟩ => rfl
      | ⟨2, _⟩ => absurd rfl ha) rfl).trans (v85_apply x0 b t d)
  · exact (concatenate_apply_piece (2 : Fin S16x2048x1024.rank) _ _ _ 12 (by show (12 : ℕ) < 16; omega) S16x2048x64 (val_main_v87 (F := Ideal) x0) rfl rfl (64 * 12)
      (pre_of_shapes _ _ _ S16x2048x64 16 64 rfl rfl 12 (by omega)) (ix3 b t d) (fun a ha => match a with
      | ⟨0, _⟩ => rfl
      | ⟨1, _⟩ => rfl
      | ⟨2, _⟩ => absurd rfl ha) rfl).trans (v87_apply x0 b t d)
  · exact (concatenate_apply_piece (2 : Fin S16x2048x1024.rank) _ _ _ 13 (by show (13 : ℕ) < 16; omega) S16x2048x64 (val_main_v89 (F := Ideal) x0) rfl rfl (64 * 13)
      (pre_of_shapes _ _ _ S16x2048x64 16 64 rfl rfl 13 (by omega)) (ix3 b t d) (fun a ha => match a with
      | ⟨0, _⟩ => rfl
      | ⟨1, _⟩ => rfl
      | ⟨2, _⟩ => absurd rfl ha) rfl).trans (v89_apply x0 b t d)
  · exact (concatenate_apply_piece (2 : Fin S16x2048x1024.rank) _ _ _ 14 (by show (14 : ℕ) < 16; omega) S16x2048x64 (val_main_v91 (F := Ideal) x0) rfl rfl (64 * 14)
      (pre_of_shapes _ _ _ S16x2048x64 16 64 rfl rfl 14 (by omega)) (ix3 b t d) (fun a ha => match a with
      | ⟨0, _⟩ => rfl
      | ⟨1, _⟩ => rfl
      | ⟨2, _⟩ => absurd rfl ha) rfl).trans (v91_apply x0 b t d)
  · exact (concatenate_apply_piece (2 : Fin S16x2048x1024.rank) _ _ _ 15 (by show (15 : ℕ) < 16; omega) S16x2048x64 (val_main_v93 (F := Ideal) x0) rfl rfl (64 * 15)
      (pre_of_shapes _ _ _ S16x2048x64 16 64 rfl rfl 15 (by omega)) (ix3 b t d) (fun a ha => match a with
      | ⟨0, _⟩ => rfl
      | ⟨1, _⟩ => rfl
      | ⟨2, _⟩ => absurd rfl ha) rfl).trans (v93_apply x0 b t d)

set_option maxHeartbeats 1000000 in
/-- Column `c` of the joined group is channel `c mod 64` of its copy `c / 64`: lag position `48 + c / 64`. -/
theorem v103_apply (x0 : S16x2048x64.Idx → EReal) (b : Fin 16) (t : Fin 2048) (c : Fin 192) :
    val_main_v103 (F := Ideal) x0 (ix3 b t c)
      = lagv x0 b t.val (48 + c.val / 64) ⟨c.val % 64, Nat.mod_lt _ (by decide)⟩ := by
  obtain ⟨p, hp, d, rfl⟩ : ∃ (p : ℕ) (hp : p < 3) (d : Fin 64), c = (⟨64 * p + d.val, by have := d.isLt; omega⟩ : Fin 192) :=
    ⟨c.val / 64, by have := c.isLt; omega, ⟨c.val % 64, Nat.mod_lt _ (by decide)⟩, Fin.ext (by show c.val = 64 * (c.val / 64) + c.val % 64; omega)⟩
  have hd := d.isLt
  refine Eq.trans ?_ (lagv_congr x0 b t.val (by show 48 + p = 48 + (64 * p + d.val) / 64; omega) (by show d.val = (64 * p + d.val) % 64; omega))
  unfold val_main_v103
  interval_cases p
  · exact (concatenate_apply_piece (2 : Fin S16x2048x192.rank) _ _ _ 0 (by show (0 : ℕ) < 3; omega) S16x2048x64 (val_main_v95 (F := Ideal) x0) rfl rfl (64 * 0)
      (pre_of_shapes _ _ _ S16x2048x64 3 64 rfl rfl 0 (by omega)) (ix3 b t d) (fun a ha => match a with
      | ⟨0, _⟩ => rfl
      | ⟨1, _⟩ => rfl
      | ⟨2, _⟩ => absurd rfl ha) rfl).trans (v95_apply x0 b t d)
  · exact (concatenate_apply_piece (2 : Fin S16x2048x192.rank) _ _ _ 1 (by show (1 : ℕ) < 3; omega) S16x2048x64 (val_main_v97 (F := Ideal) x0) rfl rfl (64 * 1)
      (pre_of_shapes _ _ _ S16x2048x64 3 64 rfl rfl 1 (by omega)) (ix3 b t d) (fun a ha => match a with
      | ⟨0, _⟩ => rfl
      | ⟨1, _⟩ => rfl
      | ⟨2, _⟩ => absurd rfl ha) rfl).trans (v97_apply x0 b t d)
  · exact (concatenate_apply_piece (2 : Fin S16x2048x192.rank) _ _ _ 2 (by show (2 : ℕ) < 3; omega) S16x2048x64 (val_main_v99 (F := Ideal) x0) rfl rfl (64 * 2)
      (pre_of_shapes _ _ _ S16x2048x64 3 64 rfl rfl 2 (by omega)) (ix3 b t d) (fun a ha => match a with
      | ⟨0, _⟩ => rfl
      | ⟨1, _⟩ => rfl
      | ⟨2, _⟩ => absurd rfl ha) rfl).trans (v99_apply x0 b t d)

/-- Column `k` of the lagged array the reference contracts is the specification's lagged column. -/
theorem v104_apply (x0 : S16x2048x64.Idx → EReal) (b : Fin 16) (t : Fin 2048) (k : Fin 3264) :
    val_main_v104 (F := Ideal) x0 (ix3 b t k) = lagcol x0 b t.val k.val := by
  have hk := k.isLt
  unfold val_main_v104 lagcol
  by_cases h1 : k.val < 1024
  ·
    refine (concatenate_apply_piece (2 : Fin S16x2048x3264.rank) _ _ (ix3 b t k) 0 (by show (0 : ℕ) < 4; omega) S16x2048x1024 (val_main_v100 (F := Ideal) x0) rfl rfl 0 rfl
      (ix3 b t (⟨k.val - 0, by omega⟩ : Fin 1024)) (fun a ha => match a with
        | ⟨0, _⟩ => rfl
        | ⟨1, _⟩ => rfl
        | ⟨2, _⟩ => absurd rfl ha)
      (by show 0 + (k.val - 0) = k.val; omega)).trans ?_
    exact (v100_apply x0 b t _).trans (lagv_congr x0 b t.val (by show 0 + (k.val - 0) / 64 = k.val / 64; omega) (by show (k.val - 0) % 64 = k.val % 64; omega))
  by_cases h2 : k.val < 2048
  ·
    refine (concatenate_apply_piece (2 : Fin S16x2048x3264.rank) _ _ (ix3 b t k) 1 (by show (1 : ℕ) < 4; omega) S16x2048x1024 (val_main_v101 (F := Ideal) x0) rfl rfl 1024 rfl
      (ix3 b t (⟨k.val - 1024, by omega⟩ : Fin 1024)) (fun a ha => match a with
        | ⟨0, _⟩ => rfl
        | ⟨1, _⟩ => rfl
        | ⟨2, _⟩ => absurd rfl ha)
      (by show 1024 + (k.val - 1024) = k.val; omega)).trans ?_
    exact (v101_apply x0 b t _).trans (lagv_congr x0 b t.val (by show 16 + (k.val - 1024) / 64 = k.val / 64; omega) (by show (k.val - 1024) % 64 = k.val % 64; omega))
  by_cases h3 : k.val < 3072
  ·
    refine (concatenate_apply_piece (2 : Fin S16x2048x3264.rank) _ _ (ix3 b t k) 2 (by show (2 : ℕ) < 4; omega) S16x2048x1024 (val_main_v102 (F := Ideal) x0) rfl rfl 2048 rfl
      (ix3 b t (⟨k.val - 2048, by omega⟩ : Fin 1024)) (fun a ha => match a with
        | ⟨0, _⟩ => rfl
        | ⟨1, _⟩ => rfl
        | ⟨2, _⟩ => absurd rfl ha)
      (by show 2048 + (k.val - 2048) = k.val; omega)).trans ?_
    exact (v102_apply x0 b t _).trans (lagv_congr x0 b t.val (by show 32 + (k.val - 2048) / 64 = k.val / 64; omega) (by show (k.val - 2048) % 64 = k.val % 64; omega))
  ·
    refine (concatenate_apply_piece (2 : Fin S16x2048x3264.rank) _ _ (ix3 b t k) 3 (by show (3 : ℕ) < 4; omega) S16x2048x192 (val_main_v103 (F := Ideal) x0) rfl rfl 3072 rfl
      (ix3 b t (⟨k.val - 3072, by omega⟩ : Fin 192)) (fun a ha => match a with
        | ⟨0, _⟩ => rfl
        | ⟨1, _⟩ => rfl
        | ⟨2, _⟩ => absurd rfl ha)
      (by show 3072 + (k.val - 3072) = k.val; omega)).trans ?_
    exact (v103_apply x0 b t _).trans (lagv_congr x0 b t.val (by show 48 + (k.val - 3072) / 64 = k.val / 64; omega) (by show (k.val - 3072) % 64 = k.val % 64; omega))

/-! ## The reference's result -/

/-- The reference's last stage is the specification's array. -/
theorem result_eq (x0 : S16x2048x64.Idx → EReal) (x1 : S128x3264.Idx → EReal) (x2 : S128.Idx → EReal) :
    val_main_v108 (F := Ideal) x0 x1 x2 = Cert.LagSpec.G x0 x1 x2 := by
  funext i
  obtain ⟨b, t, o, rfl⟩ : ∃ (b : Fin 16) (t : Fin 2048) (o : Fin 128), i = ix3 b t o := ⟨i 0, i 1, i 2, eq_ix3 i⟩
  rw [Cert.LagSpec.G_ix3, val_main_v108_apply, val_main_v105_apply, val_main_v107_apply, val_main_v106_apply]
  unfold Cert.LagSpec.out
  refine congrArg₂ (· + ·) (Finset.sum_congr rfl fun k _ => ?_) ?_
  · have e1 : lidx_main_v105 (ix3 b t o) k = (ix3 b t k : S16x2048x3264.Idx) := funext fun a => by
      match a with
      | ⟨0, _⟩ => rfl
      | ⟨1, _⟩ => rfl
      | ⟨2, _⟩ => rfl
    have e2 : ridx_main_v105 (ix3 b t o) k = (ix2 o k : S128x3264.Idx) := funext fun a => by
      match a with
      | ⟨0, _⟩ => rfl
      | ⟨1, _⟩ => rfl
    rw [e1, e2, v104_apply]
  · exact congrArg x2 (funext fun a => by
      match a with
      | ⟨0, _⟩ => rfl)

end Cert.ReferenceIdeal.Lag

end
-- ==== Proof.lean ====
/-
  Time-lagged linear map: the Pallas kernel against its jnp reference, over the extended reals.

  Both programs compute, from a signal `x[b, t, d]` (16 × 2048 × 64), weights `W[o, k]` (128 × 3264) and a bias (128),
      out[b, t, o] = Σ_{k < 3264} lagged[b, t, k] · W[o, k] + bias[o],    lagged[b, t, 64·l + d] = x[b, t + 10 - l, d]
  for the 51 lag positions `l = 0 … 50` (lags -10 … 40), the lagged signal zero where `t + 10 - l` is not a time of the
  signal (Proof/Spec.lean).

  The reference builds each lag by slicing and zero-padding the signal and joins the 51 copies before one contraction
  (Proof/RefLag.lean reads each copy and the joins at an index; Proof/RefOps.lean, RefValsA/B.lean and RefRun.lean read its
  run back operation list by operation list). The kernel, one batch per grid point, writes the batch once into a zero-filled
  buffer of 2104 rows, at rows 40 … 2087, loads 52 windows of 2048 rows at rows 50, 49, …, 0, 0 — the window at row
  `50 - l` is lag position `l`, the last one a duplicate that fills the contraction to 3328 columns —, and contracts them
  with the transposed weights extended by 64 zero rows (Proof/Scratch.lean: the buffer's rows; Proof/Payload.lean and
  KernelAt.lean: the stored block entry by entry; Proof/Blocks.lean: the blocks cover the result array). The 64 columns of
  the duplicate meet a zero weight, and a product with zero is zero on the extended reals whatever the other factor: a sum
  over 3328 columns whose last 64 terms vanish is the sum over the first 3264. No other law is used, so the precondition
  (finite inputs) is never opened. The ideal pass rewrote nothing: the kernel's idealization is its own text.
-/
import proofs.«154770_j36764920054343_2_alg».proof.Defs
import proofs.«154770_j36764920054343_2_alg».proof.Proof.Gen.Kernel
import proofs.«154770_j36764920054343_2_alg».proof.Proof.Gen.Kernel.Skeleton
import proofs.«154770_j36764920054343_2_alg».proof.Proof.Gen.Kernel.Launch
import proofs.«154770_j36764920054343_2_alg».proof.Proof.Gen.Kernel.Points
import proofs.«154770_j36764920054343_2_alg».proof.Proof.Gen.Kernel.Frame
import proofs.«154770_j36764920054343_2_alg».proof.Proof.Gen.KernelIdeal
import proofs.«154770_j36764920054343_2_alg».proof.Proof.Gen.KernelIdeal.Skeleton
import proofs.«154770_j36764920054343_2_alg».proof.Proof.Gen.KernelIdeal.Launch
import proofs.«154770_j36764920054343_2_alg».proof.Proof.Gen.KernelIdeal.Points
import proofs.«154770_j36764920054343_2_alg».proof.Proof.Gen.KernelIdeal.Frame
import proofs.«154770_j36764920054343_2_alg».proof.Proof.Gen.ReferenceIdeal
import proofs.«154770_j36764920054343_2_alg».proof.Proof.Gen.Pre_finite_inputs
import proofs.«154770_j36764920054343_2_alg».proof.Proof.Gen.KernelIdeal.Value
import proofs.«154770_j36764920054343_2_alg».proof.Proof.Blocks
import proofs.«154770_j36764920054343_2_alg».proof.Proof.RefRun
import proofs.«154770_j36764920054343_2_alg».proof.Proof.RefLag
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Ops.run (F := Ideal) m ρ)

/-- At the ideal values the kernel's result array ends at the specification's array of the arguments, and the reference's
    at its last stage of arguments that agree with them, which is the same array. -/
theorem algebraic : Cert.algebraic_KernelIdeal_ReferenceIdeal := by
  intro m ρ m' ρ' _ hagree
  refine ⟨fun c => Cert.KernelIdeal.Lag.spec m c, Cert.KernelIdeal.Lag.run m ρ, ?_⟩
  refine (θ_run Cert.ReferenceIdeal.defs _ _).mono (fun _ h c => ⟨(h c).1.trans ?_, (h c).2⟩)
    (Cert.ReferenceIdeal.Ops.run (F := Ideal) m' ρ')
  rw [(hagree c).1, (hagree c).2.1, (hagree c).2.2]
  exact Cert.ReferenceIdeal.Lag.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
